-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S1x1 : Shape := ⟨2, ![1, 1]⟩
abbrev S1024x2048 : Shape := ⟨2, ![1024, 2048]⟩
abbrev S512x2048 : Shape := ⟨2, ![512, 2048]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩
abbrev S1 : Shape := ⟨1, ![1]⟩
abbrev S_ : Shape := ⟨0, ![]⟩

abbrev nBuf : Space → Nat
  | .hbm => 18
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x1, .f32⟩
  | .hbm, ⟨3, _⟩ => ⟨S_, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S512x2048, .f32⟩
  | .local _ .vmem, ⟨3, _⟩ => ⟨S512x2048, .f32⟩
  | .local _ .vmem, ⟨4, _⟩ => ⟨S1x1, .f32⟩
  | .local _ .vmem, ⟨5, _⟩ => ⟨S1x1, .f32⟩
  | .local _ .vmem, ⟨6, _⟩ => ⟨S1024x2048, .f32⟩
  | .local _ .vmem, ⟨7, _⟩ => ⟨S1024x2048, .f32⟩
  | .local _ .vmem, ⟨8, _⟩ => ⟨S512x2048, .f32⟩
  | .local _ .vmem, ⟨9, _⟩ => ⟨S512x2048, .f32⟩
  | .local _ .vmem, ⟨10, _⟩ => ⟨S1x1, .f32⟩
  | .local _ .vmem, ⟨11, _⟩ => ⟨S1x1, .f32⟩
  | .local _ .vmem, ⟨12, _⟩ => ⟨S1024x2048, .f32⟩
  | .local _ .vmem, ⟨13, _⟩ => ⟨S1024x2048, .f32⟩
  | .local _ .vmem, ⟨14, _⟩ => ⟨S512x2048, .f32⟩
  | .local _ .vmem, ⟨15, _⟩ => ⟨S512x2048, .f32⟩
  | .local _ .vmem, ⟨16, _⟩ => ⟨S1x1, .f32⟩
  | .local _ .vmem, ⟨17, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c3_i32 : BitVec 32 := 3#32
  let v3 : BitVec 1 := Scalar.cmpi .eq arg0 c3_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v40 : BitVec 32 := Scalar.extui v5
  let c0_i32_16 : BitVec 32 := 0#32
  let v41 : BitVec 1 := Scalar.cmpi .ne v40 c0_i32_16
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![4, 8], ![false, false]⟩

def k1_cond2 (i : grid1.Coords) : BitVec 1 :=
  let arg0 : BitVec 32 := BitVec.ofNat 32 (i 0).val
  let c3_i32 : BitVec 32 := 3#32
  let v3 : BitVec 1 := Scalar.cmpi .eq arg0 c3_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v40 : BitVec 32 := Scalar.extui v5
  let c0_i32_16 : BitVec 32 := 0#32
  let v41 : BitVec 1 := Scalar.cmpi .ne v40 c0_i32_16
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![4, 8], ![false, false]⟩

def k2_cond2 (i : grid2.Coords) : BitVec 1 :=
  let arg0 : BitVec 32 := BitVec.ofNat 32 (i 0).val
  let c3_i32 : BitVec 32 := 3#32
  let v3 : BitVec 1 := Scalar.cmpi .eq arg0 c3_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v40 : BitVec 32 := Scalar.extui v5
  let c0_i32_16 : BitVec 32 := 0#32
  let v41 : BitVec 1 := Scalar.cmpi .ne v40 c0_i32_16
  v41

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x2048_S1024x2048_0_0 : ∀ a, (![0, 0] : Fin 2 → Nat) a + S1024x2048.size a ≤ S1024x2048.size a
  h_S1024x2048 : 0 < S1024x2048.numel
  inb_S512x2048_S512x2048_0_0 : ∀ a, (![0, 0] : Fin 2 → Nat) a + S512x2048.size a ≤ S512x2048.size a
  h_S512x2048 : 0 < S512x2048.numel
  reduces_S1024x2048_S1024 : S1024x2048.Reduces [1] S1024
  shapeCasts_S1024_S1024x1 : S1024.ShapeCasts S1024x1
  reduces_S512x2048_S512 : S512x2048.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S1024x1_S1024x512 : S1024x1.Broadcasts S1024x512
  broadcasts_S1x512_S1024x512 : S1x512.Broadcasts S1024x512
  reduces_S1024x512_S1024 : S1024x512.Reduces [1] S1024
  reduces_S1024x1_S1 : S1024x1.Reduces [0] S1
  shapeCasts_S1_S1x1 : S1.ShapeCasts S1x1
  shapeCasts_S1x1_S_ : S1x1.ShapeCasts S_
  dot_S1024x2048_S512x2048_S1024x512_1_1_0_0_n_n_wf : DotDims.WF S1024x2048 S512x2048 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .f32 = 32 ∨ (Rect.block (s := S4096x2048) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .f32 = 32 ∨ (Rect.block (s := S4096x2048) S512x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S4096x2048.size a
  hwx2_0 : ∀ i : grid2.Coords, EltTy.bits .f32 = 32 ∨ (Rect.block (s := S4096x2048) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x2048.size a
  hwx2_1 : ∀ i : grid2.Coords, EltTy.bits .f32 = 32 ∨ (Rect.block (s := S4096x2048) S512x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S_ : Shape := ⟨0, ![]⟩
abbrev S4096 : Shape := ⟨1, ![4096]⟩
abbrev S2048x4096 : Shape := ⟨2, ![2048, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 84
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S2048x4096, .f32⟩
  | .hbm, ⟨9, _⟩ => ⟨S4096x4096, .f32⟩
  | .hbm, ⟨10, _⟩ => ⟨S4096x1, .f32⟩
  | .hbm, ⟨11, _⟩ => ⟨S1x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x2048, .f32⟩
  | .hbm, ⟨32, _⟩ => ⟨S_, .f32⟩
  | .hbm, ⟨33, _⟩ => ⟨S4096, .f32⟩
  | .hbm, ⟨34, _⟩ => ⟨S2048x4096, .f32⟩
  | .hbm, ⟨35, _⟩ => ⟨S4096x4096, .f32⟩
  | .hbm, ⟨36, _⟩ => ⟨S4096x1, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S2048x4096, .f32⟩
  | .hbm, ⟨64, _⟩ => ⟨S4096x4096, .f32⟩
  | .hbm, ⟨65, _⟩ => ⟨S4096x1, .f32⟩
  | .hbm, ⟨66, _⟩ => ⟨S1x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S_, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_cst_11 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_cst_13 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_14 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_15 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  transposes_S4096x2048_S2048x4096_1_0 : S4096x2048.Transposes [1, 0] S2048x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.WordCall0.lean ====
import proofs.«152176_j15796889715484_1_alg».proof.Proof.Gen.Kernel.Launch
import proofs.«152176_j15796889715484_1_alg».proof.Proof.Gen.Kernel.Skeleton
import proofs.«152176_j15796889715484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 0 at one grid point, and the accumulator it carries from point to point.

At every point the body adds the point's partial sum to a 1×1 accumulator kept in a scratch buffer: the accumulator is
reset to zero at the first point of the grid, and copied into the 1×1 output block at the last point. -/

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions of the body, decided over the grid -/

/-- "This is the first point of the grid", as the body computes it from the coordinates. -/
abbrev first0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hfirst0 : ∀ t : Fin cfg0.N, first0 (grid0.coords t) ↔ t.val = 0 :=
  (by decide +kernel : ∀ t : Fin grid0.N, first0 (grid0.coords t) ↔ t.val = 0)
/-- "This is the last point of the grid". -/
abbrev last0 (i : grid0.Coords) : Prop := k0_cond2 i = 1#1
theorem hlast0 : ∀ t : Fin cfg0.N, last0 (grid0.coords t) ↔ t.val = 31 :=
  (by decide +kernel : ∀ t : Fin grid0.N, last0 (grid0.coords t) ↔ t.val = 31)

/-- The input windows are never idle; the output window is idle, and not written back, everywhere but at the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem liveAt0_2 : ∀ t : Fin cfg0.N, last0 (grid0.coords t) → cfg0.idle 2 (grid0.coords t) = false := by decide +kernel

/-- Each window's current staging memref at point `t`, and the scratch accumulator. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0

/-! ## The body's triple, case by case -/

/-- The accumulator after the body, from the two blocks and the accumulator before it. -/
def step0 (x : Vec F S1024x2048 .f32) (y : Vec F S512x2048 .f32) (a : Vec F S1x1 .f32) : Vec F S1x1 .f32 :=
  k0_pay1 (k0_pay3 x y a)

theorem zeros2_0 : (![0, 0] : Fin 2 → Nat) = fun _ => 0 := by funext a; fin_cases a <;> rfl

theorem cover11_0 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

set_option maxHeartbeats 1000000 in
/-- A point that is neither the first nor the last: the accumulator takes one step, the output block is untouched. -/
theorem sound0_B (c : Dev nD) (E : Set ℕ) (i : grid0.Coords) (hf : ¬first0 i) (hl : ¬last0 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step0 x y a)) -∗ K ⟨⟩))
      ⊢ wp frame (wpE (defs₀ (F := F)) Variants.none c none) E (cc0__kernel_sum_body i arg2 harg2 arg3 harg3 arg4 harg4 arg5 harg5) K := by
  simp only [cc0__kernel_sum_body_eq_skeleton]; unfold cc0__kernel_sum_body_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (cover11_0 _), View.canon_unit_zero zeros2_0]
  unfold step0
  simp only [View.readAt_eq_ld, harg2.read_unread, harg3.read_unread, harg5.read_unread,
    View.ld_unit_zero (S := S1024x2048) zeros2_0, View.ld_unit_zero (S := S512x2048) zeros2_0, View.ld_unit_zero (S := S1x1) zeros2_0]

theorem mem11_0 (p0 : Vec F S1x1 .f32) (y : S1x1.Idx) : y ∈ (Rect.unit (s := S1x1) ![0, 0] S1x1.size inb_S1x1_S1x1_0_0).set := by
  obtain ⟨pc, hpc, hy⟩ := cover11_0 p0 y
  simp only [List.mem_singleton] at hpc
  subst hpc; exact hy

theorem coverHead_0 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, mem11_0 p0 y⟩

set_option maxHeartbeats 1000000 in
/-- The first point of the grid: the accumulator is reset to zero and takes one step, the output block is untouched. -/
theorem sound0_A (c : Dev nD) (E : Set ℕ) (i : grid0.Coords) (hf : first0 i) (hl : ¬last0 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step0 x y (k0_pay2 (F := F)))) -∗ K ⟨⟩))
      ⊢ wp frame (wpE (defs₀ (F := F)) Variants.none c none) E (cc0__kernel_sum_body i arg2 harg2 arg3 harg3 arg4 harg4 arg5 harg5) K := by
  simp only [cc0__kernel_sum_body_eq_skeleton]; unfold cc0__kernel_sum_body_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [View.read_writes_eq_canon _ _ _ (coverHead_0 _ _), View.canon_cons_unit_zero zeros2_0]
  unfold step0
  simp only [View.readAt_eq_ld, harg2.read_unread, harg3.read_unread, harg5.read_unread, View.readCov_unit_zero (S := S1x1) _ zeros2_0,
    View.ld_unit_zero (S := S1024x2048) zeros2_0, View.ld_unit_zero (S := S512x2048) zeros2_0, View.ld_unit_zero (S := S1x1) zeros2_0]

set_option maxHeartbeats 1000000 in
/-- The last point of the grid: the accumulator takes one step and is copied into the output block. -/
theorem sound0_C (c : Dev nD) (E : Set ℕ) (i : grid0.Coords) (hf : ¬first0 i) (hl : last0 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (step0 x y a)
            ∗ owns (c : Thread nD τ) arg5 fullShare (step0 x y a)) -∗ K ⟨⟩))
      ⊢ wp frame (wpE (defs₀ (F := F)) Variants.none c none) E (cc0__kernel_sum_body i arg2 harg2 arg3 harg3 arg4 harg4 arg5 harg5) K := by
  simp only [cc0__kernel_sum_body_eq_skeleton]; unfold cc0__kernel_sum_body_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [View.read_writes_eq_canon _ _ _ (coverHead_0 _ _), View.canon_cons_unit_zero zeros2_0]
    unfold step0
    simp only [View.readAt_eq_ld, harg2.read_unread, harg3.read_unread, harg5.read_unread, View.readCov_unit_zero (S := S1x1) _ zeros2_0,
      View.ld_unit_zero (S := S1024x2048) zeros2_0, View.ld_unit_zero (S := S512x2048) zeros2_0, View.ld_unit_zero (S := S1x1) zeros2_0]
  iexists _; isplitr
  swap; · iexact H5
  ipureintro
  sl_unfold_run_names
  rw [View.read_writes_eq_canon _ _ _ (coverHead_0 _ _), View.canon_cons_unit_zero zeros2_0]
  unfold step0
  simp only [View.readAt_eq_ld, harg2.read_unread, harg3.read_unread, harg5.read_unread, View.readCov_unit_zero (S := S1x1) _ zeros2_0,
    View.ld_unit_zero (S := S1024x2048) zeros2_0, View.ld_unit_zero (S := S512x2048) zeros2_0, View.ld_unit_zero (S := S1x1) zeros2_0]

/-! ## The accumulator point by point, the invariant and the proof data -/

/-- The scoped buffers that are neither a staging buffer of this call nor its accumulator, each at some contents. -/
def others0 (c : Dev nD) : sProp 𝕄 :=
  bigSep ((((Finset.univ.filter fun b : Ref sig .tc => b.isScoped) \ Finset.univ.image (Pipeline.stageRef spec0)).erase cc0_scratch0))
    fun b => iprop(∃ f : Buf (Elt F) ((c : Thread nD τ).loc b), ((c : Thread nD τ).loc b) ↦{fullShare} f)

/-- The scoped buffers no window stages are the accumulator, at some contents, and the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 c) := by
  unfold Pipeline.scopedRest others0
  rw [bigSep_erase (i := cc0_scratch0) (by decide)]
  simp only [scM0, owns_whole]
  rfl

section
variable (V : (c : Dev nD) → (b : Ref sig .tc) → Buf (Elt F) ((c : Thread nD τ).loc b))

/-- The accumulator after the body at position `n`: from zero at the first point, one step per point. -/
def accAt0 (c : Dev nD) : (n : ℕ) → n < cfg0.N → Vec F S1x1 .f32
  | 0, hn => step0 (iblk0 V c 0 ⟨0, hn⟩) (iblk0 V c 1 ⟨0, hn⟩) (k0_pay2 (F := F))
  | n + 1, hn => step0 (iblk0 V c 0 ⟨n + 1, hn⟩) (iblk0 V c 1 ⟨n + 1, hn⟩) (accAt0 c n (Nat.lt_of_succ_lt hn))

theorem accAt0_zero (c : Dev nD) (t : Fin cfg0.N) (h : t.val = 0) :
    accAt0 V c t.val t.isLt = step0 (iblk0 V c 0 t) (iblk0 V c 1 t) (k0_pay2 (F := F)) := by
  obtain ⟨n, hn⟩ := t
  cases n with
  | zero => rfl
  | succ n => exact absurd h (Nat.succ_ne_zero n)

theorem accAt0_pos (c : Dev nD) (t : Fin cfg0.N) (h : t.val ≠ 0) :
    accAt0 V c t.val t.isLt = step0 (iblk0 V c 0 t) (iblk0 V c 1 t) (accAt0 V c (t.val - 1) (Nat.lt_of_le_of_lt (Nat.sub_le _ _) t.isLt)) := by
  obtain ⟨n, hn⟩ := t
  cases n with
  | zero => exact absurd rfl h
  | succ n => rfl

/-- The invariant before position `n`: the accumulator at anything before the first point, afterwards at what the point
    before left; the other scoped buffers at anything. -/
def Phi0 (c : Dev nD) : (n : ℕ) → n ≤ cfg0.N → sProp 𝕄
  | 0, _ => iprop((∃ d, owns (c : Thread nD τ) scM0 fullShare d) ∗ others0 c)
  | n + 1, hn => iprop(owns (c : Thread nD τ) scM0 fullShare (accAt0 V c n hn) ∗ others0 c)

theorem Phi0_zero (c : Dev nD) (n : ℕ) (h : n ≤ cfg0.N) (hz : n = 0) :
    Phi0 V c n h = iprop((∃ d, owns (c : Thread nD τ) scM0 fullShare d) ∗ others0 c) := by
  subst hz; rfl
theorem Phi0_succ (c : Dev nD) (n : ℕ) (hn : n < cfg0.N) :
    Phi0 V c (n + 1) hn = iprop(owns (c : Thread nD τ) scM0 fullShare (accAt0 V c n hn) ∗ others0 c) := rfl
theorem Phi0_pos (c : Dev nD) (n : ℕ) (h : n ≤ cfg0.N) (hz : n ≠ 0) :
    Phi0 V c n h = iprop(owns (c : Thread nD τ) scM0 fullShare (accAt0 V c (n - 1) (by omega)) ∗ others0 c) := by
  cases n with
  | zero => exact absurd rfl hz
  | succ n => rfl

/-- The proof data of pallas_call 0 on core `c`: the arrays as the call finds them; after the body each input's buffer at
    its block and the output's at the accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := Phi0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' buffers hold their blocks; the point is the first, the last or neither, and that
    case's triple applies; the invariant hands the accumulator over at what the point before left and takes it back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  rw [Phi0_castSucc V c t]
  by_cases h0 : t.val = 0
  · have hl : ¬last0 (grid0.coords t) := fun h => by have := (hlast0 t).mp h; omega
    rw [Dat.leavesExact_idle (dat0 V c) 2 t (idleAt0_2 t hl) (noFlush0_2 t hl)]
    rw [Phi0_zero V c _ _ h0, accAt0_zero V c t h0]
    iintro ⟨⟨⟨%a, HS⟩, Hrest⟩, Ho, ⟨%d0, H0⟩, ⟨%d1, H1⟩, ⟨%d2, H2⟩⟩
    iapply (sound0_A c Set.univ (grid0.coords t) ((hfirst0 t).mpr h0) hl _ _ _ _ _ _ _ _ (iblk0 V c 0 t) (iblk0 V c 1 t) _ a _)
    isplitl [H0]; · iexact H0
    isplitl [H1]; · iexact H1
    isplitl [H2]; · iexact H2
    isplitl [HS]; · iexact HS
    iintro ⟨H0, H1, H2, HS⟩
    isplitl [HS Hrest]
    · isplitl [HS]; · iexact HS
      iexact Hrest
    isplitl [Ho]; · iexact Ho
    isplitl [H0]; · iexact H0
    isplitl [H1]; · iexact H1
    iexists _; iexact H2
  · have hf : ¬first0 (grid0.coords t) := fun h => h0 ((hfirst0 t).mp h)
    rw [Phi0_pos V c _ _ h0, accAt0_pos V c t h0]
    by_cases h1 : t.val = 31
    · have hl : last0 (grid0.coords t) := (hlast0 t).mpr h1
      rw [show (dat0 V c).leavesExact 2 t = owns (c : Thread nD τ) (ms0_2 t) fullShare ((dat0 V c).after 2 t) from by
        unfold Dat.leavesExact; rw [liveAt0_2 t hl], after0_2, accAt0_pos V c t h0]
      iintro ⟨⟨HS, Hrest⟩, Ho, ⟨%d0, H0⟩, ⟨%d1, H1⟩, ⟨%d2, H2⟩⟩
      iapply (sound0_C c Set.univ (grid0.coords t) hf hl _ _ _ _ _ _ _ _ (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · have hl : ¬last0 (grid0.coords t) := fun h => h1 ((hlast0 t).mp h)
      rw [Dat.leavesExact_idle (dat0 V c) 2 t (idleAt0_2 t hl) (noFlush0_2 t hl)]
      iintro ⟨⟨HS, Hrest⟩, Ho, ⟨%d0, H0⟩, ⟨%d1, H1⟩, ⟨%d2, H2⟩⟩
      iapply (sound0_B c Set.univ (grid0.coords t) hf hl _ _ _ _ _ _ _ _ (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The scoped buffers no window stages make the invariant before the first point, and the invariant after the last
    point gives them back. -/
theorem hin0 (c : Dev nD) : (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, Phi0_zero V c 0 _ rfl, scopedRest0_split]
theorem hout0 (c : Dev nD) : (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), scopedRest0_split]
  iintro ⟨HS, Hr⟩
  isplitl [HS]
  · iexists _; iexact HS
  iexact Hr

end

end Cert.Kernel.Hand

end
-- ==== Proof.WordCall1.lean ====
import proofs.«152176_j15796889715484_1_alg».proof.Proof.Gen.Kernel.Launch
import proofs.«152176_j15796889715484_1_alg».proof.Proof.Gen.Kernel.Skeleton
import proofs.«152176_j15796889715484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 1 at one grid point, and the accumulator it carries from point to point.

At every point the body adds the point's partial sum to a 1×1 accumulator kept in a scratch buffer: the accumulator is
reset to zero at the first point of the grid, and copied into the 1×1 output block at the last point. -/

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two conditions of the body, decided over the grid -/

/-- "This is the first point of the grid", as the body computes it from the coordinates. -/
abbrev first1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hfirst1 : ∀ t : Fin cfg1.N, first1 (grid1.coords t) ↔ t.val = 0 :=
  (by decide +kernel : ∀ t : Fin grid1.N, first1 (grid1.coords t) ↔ t.val = 0)
/-- "This is the last point of the grid". -/
abbrev last1 (i : grid1.Coords) : Prop := k1_cond2 i = 1#1
theorem hlast1 : ∀ t : Fin cfg1.N, last1 (grid1.coords t) ↔ t.val = 31 :=
  (by decide +kernel : ∀ t : Fin grid1.N, last1 (grid1.coords t) ↔ t.val = 31)

/-- The input windows are never idle; the output window is idle, and not written back, everywhere but at the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem liveAt1_2 : ∀ t : Fin cfg1.N, last1 (grid1.coords t) → cfg1.idle 2 (grid1.coords t) = false := by decide +kernel

/-- Each window's current staging memref at point `t`, and the scratch accumulator. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0

/-! ## The body's triple, case by case -/

/-- The accumulator after the body, from the two blocks and the accumulator before it. -/
def step1 (x : Vec F S1024x2048 .f32) (y : Vec F S512x2048 .f32) (a : Vec F S1x1 .f32) : Vec F S1x1 .f32 :=
  k1_pay1 (k1_pay3 x y a)

theorem zeros2_1 : (![0, 0] : Fin 2 → Nat) = fun _ => 0 := by funext a; fin_cases a <;> rfl

theorem cover11_1 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

set_option maxHeartbeats 1000000 in
/-- A point that is neither the first nor the last: the accumulator takes one step, the output block is untouched. -/
theorem sound1_B (c : Dev nD) (E : Set ℕ) (i : grid1.Coords) (hf : ¬first1 i) (hl : ¬last1 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step1 x y a)) -∗ K ⟨⟩))
      ⊢ wp frame (wpE (defs₀ (F := F)) Variants.none c none) E (cc1__kernel_sum_body i arg2 harg2 arg3 harg3 arg4 harg4 arg5 harg5) K := by
  simp only [cc1__kernel_sum_body_eq_skeleton]; unfold cc1__kernel_sum_body_skel; simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (cover11_1 _), View.canon_unit_zero zeros2_1]
  unfold step1
  simp only [View.readAt_eq_ld, harg2.read_unread, harg3.read_unread, harg5.read_unread,
    View.ld_unit_zero (S := S1024x2048) zeros2_1, View.ld_unit_zero (S := S512x2048) zeros2_1, View.ld_unit_zero (S := S1x1) zeros2_1]

theorem mem11_1 (p0 : Vec F S1x1 .f32) (y : S1x1.Idx) : y ∈ (Rect.unit (s := S1x1) ![0, 0] S1x1.size inb_S1x1_S1x1_0_0).set := by
  obtain ⟨pc, hpc, hy⟩ := cover11_1 p0 y
  simp only [List.mem_singleton] at hpc
  subst hpc; exact hy

theorem coverHead_1 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, mem11_1 p0 y⟩

set_option maxHeartbeats 1000000 in
/-- The first point of the grid: the accumulator is reset to zero and takes one step, the output block is untouched. -/
theorem sound1_A (c : Dev nD) (E : Set ℕ) (i : grid1.Coords) (hf : first1 i) (hl : ¬last1 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step1 x y (k1_pay2 (F := F)))) -∗ K ⟨⟩))
      ⊢ wp frame (wpE (defs₀ (F := F)) Variants.none c none) E (cc1__kernel_sum_body i arg2 harg2 arg3 harg3 arg4 harg4 arg5 harg5) K := by
  simp only [cc1__kernel_sum_body_eq_skeleton]; unfold cc1__kernel_sum_body_skel; simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [View.read_writes_eq_canon _ _ _ (coverHead_1 _ _), View.canon_cons_unit_zero zeros2_1]
  unfold step1
  simp only [View.readAt_eq_ld, harg2.read_unread, harg3.read_unread, harg5.read_unread, View.readCov_unit_zero (S := S1x1) _ zeros2_1,
    View.ld_unit_zero (S := S1024x2048) zeros2_1, View.ld_unit_zero (S := S512x2048) zeros2_1, View.ld_unit_zero (S := S1x1) zeros2_1]

set_option maxHeartbeats 1000000 in
/-- The last point of the grid: the accumulator takes one step and is copied into the output block. -/
theorem sound1_C (c : Dev nD) (E : Set ℕ) (i : grid1.Coords) (hf : ¬first1 i) (hl : last1 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (step1 x y a)
            ∗ owns (c : Thread nD τ) arg5 fullShare (step1 x y a)) -∗ K ⟨⟩))
      ⊢ wp frame (wpE (defs₀ (F := F)) Variants.none c none) E (cc1__kernel_sum_body i arg2 harg2 arg3 harg3 arg4 harg4 arg5 harg5) K := by
  simp only [cc1__kernel_sum_body_eq_skeleton]; unfold cc1__kernel_sum_body_skel; simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [View.read_writes_eq_canon _ _ _ (coverHead_1 _ _), View.canon_cons_unit_zero zeros2_1]
    unfold step1
    simp only [View.readAt_eq_ld, harg2.read_unread, harg3.read_unread, harg5.read_unread, View.readCov_unit_zero (S := S1x1) _ zeros2_1,
      View.ld_unit_zero (S := S1024x2048) zeros2_1, View.ld_unit_zero (S := S512x2048) zeros2_1, View.ld_unit_zero (S := S1x1) zeros2_1]
  iexists _; isplitr
  swap; · iexact H5
  ipureintro
  sl_unfold_run_names
  rw [View.read_writes_eq_canon _ _ _ (coverHead_1 _ _), View.canon_cons_unit_zero zeros2_1]
  unfold step1
  simp only [View.readAt_eq_ld, harg2.read_unread, harg3.read_unread, harg5.read_unread, View.readCov_unit_zero (S := S1x1) _ zeros2_1,
    View.ld_unit_zero (S := S1024x2048) zeros2_1, View.ld_unit_zero (S := S512x2048) zeros2_1, View.ld_unit_zero (S := S1x1) zeros2_1]

/-! ## The accumulator point by point, the invariant and the proof data -/

/-- The scoped buffers that are neither a staging buffer of this call nor its accumulator, each at some contents. -/
def others1 (c : Dev nD) : sProp 𝕄 :=
  bigSep ((((Finset.univ.filter fun b : Ref sig .tc => b.isScoped) \ Finset.univ.image (Pipeline.stageRef spec1)).erase cc1_scratch0))
    fun b => iprop(∃ f : Buf (Elt F) ((c : Thread nD τ).loc b), ((c : Thread nD τ).loc b) ↦{fullShare} f)

/-- The scoped buffers no window stages are the accumulator, at some contents, and the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ others1 c) := by
  unfold Pipeline.scopedRest others1
  rw [bigSep_erase (i := cc1_scratch0) (by decide)]
  simp only [scM1, owns_whole]
  rfl

section
variable (V : (c : Dev nD) → (b : Ref sig .tc) → Buf (Elt F) ((c : Thread nD τ).loc b))

/-- The accumulator after the body at position `n`: from zero at the first point, one step per point. -/
def accAt1 (c : Dev nD) : (n : ℕ) → n < cfg1.N → Vec F S1x1 .f32
  | 0, hn => step1 (iblk1 V c 0 ⟨0, hn⟩) (iblk1 V c 1 ⟨0, hn⟩) (k1_pay2 (F := F))
  | n + 1, hn => step1 (iblk1 V c 0 ⟨n + 1, hn⟩) (iblk1 V c 1 ⟨n + 1, hn⟩) (accAt1 c n (Nat.lt_of_succ_lt hn))

theorem accAt1_zero (c : Dev nD) (t : Fin cfg1.N) (h : t.val = 0) :
    accAt1 V c t.val t.isLt = step1 (iblk1 V c 0 t) (iblk1 V c 1 t) (k1_pay2 (F := F)) := by
  obtain ⟨n, hn⟩ := t
  cases n with
  | zero => rfl
  | succ n => exact absurd h (Nat.succ_ne_zero n)

theorem accAt1_pos (c : Dev nD) (t : Fin cfg1.N) (h : t.val ≠ 0) :
    accAt1 V c t.val t.isLt = step1 (iblk1 V c 0 t) (iblk1 V c 1 t) (accAt1 V c (t.val - 1) (Nat.lt_of_le_of_lt (Nat.sub_le _ _) t.isLt)) := by
  obtain ⟨n, hn⟩ := t
  cases n with
  | zero => exact absurd rfl h
  | succ n => rfl

/-- The invariant before position `n`: the accumulator at anything before the first point, afterwards at what the point
    before left; the other scoped buffers at anything. -/
def Phi1 (c : Dev nD) : (n : ℕ) → n ≤ cfg1.N → sProp 𝕄
  | 0, _ => iprop((∃ d, owns (c : Thread nD τ) scM1 fullShare d) ∗ others1 c)
  | n + 1, hn => iprop(owns (c : Thread nD τ) scM1 fullShare (accAt1 V c n hn) ∗ others1 c)

theorem Phi1_zero (c : Dev nD) (n : ℕ) (h : n ≤ cfg1.N) (hz : n = 0) :
    Phi1 V c n h = iprop((∃ d, owns (c : Thread nD τ) scM1 fullShare d) ∗ others1 c) := by
  subst hz; rfl
theorem Phi1_succ (c : Dev nD) (n : ℕ) (hn : n < cfg1.N) :
    Phi1 V c (n + 1) hn = iprop(owns (c : Thread nD τ) scM1 fullShare (accAt1 V c n hn) ∗ others1 c) := rfl
theorem Phi1_pos (c : Dev nD) (n : ℕ) (h : n ≤ cfg1.N) (hz : n ≠ 0) :
    Phi1 V c n h = iprop(owns (c : Thread nD τ) scM1 fullShare (accAt1 V c (n - 1) (by omega)) ∗ others1 c) := by
  cases n with
  | zero => exact absurd rfl hz
  | succ n => rfl

/-- The proof data of pallas_call 1 on core `c`: the arrays as the call finds them; after the body each input's buffer at
    its block and the output's at the accumulator; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the point is the first, the last or neither, and that
    case's triple applies; the invariant hands the accumulator over at what the point before left and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  rw [Phi1_castSucc V c t]
  by_cases h0 : t.val = 0
  · have hl : ¬last1 (grid1.coords t) := fun h => by have := (hlast1 t).mp h; omega
    rw [Dat.leavesExact_idle (dat1 V c) 2 t (idleAt1_2 t hl) (noFlush1_2 t hl)]
    rw [Phi1_zero V c _ _ h0, accAt1_zero V c t h0]
    iintro ⟨⟨⟨%a, HS⟩, Hrest⟩, Ho, ⟨%d0, H0⟩, ⟨%d1, H1⟩, ⟨%d2, H2⟩⟩
    iapply (sound1_A c Set.univ (grid1.coords t) ((hfirst1 t).mpr h0) hl _ _ _ _ _ _ _ _ (iblk1 V c 0 t) (iblk1 V c 1 t) _ a _)
    isplitl [H0]; · iexact H0
    isplitl [H1]; · iexact H1
    isplitl [H2]; · iexact H2
    isplitl [HS]; · iexact HS
    iintro ⟨H0, H1, H2, HS⟩
    isplitl [HS Hrest]
    · isplitl [HS]; · iexact HS
      iexact Hrest
    isplitl [Ho]; · iexact Ho
    isplitl [H0]; · iexact H0
    isplitl [H1]; · iexact H1
    iexists _; iexact H2
  · have hf : ¬first1 (grid1.coords t) := fun h => h0 ((hfirst1 t).mp h)
    rw [Phi1_pos V c _ _ h0, accAt1_pos V c t h0]
    by_cases h1 : t.val = 31
    · have hl : last1 (grid1.coords t) := (hlast1 t).mpr h1
      rw [show (dat1 V c).leavesExact 2 t = owns (c : Thread nD τ) (ms1_2 t) fullShare ((dat1 V c).after 2 t) from by
        unfold Dat.leavesExact; rw [liveAt1_2 t hl], after1_2, accAt1_pos V c t h0]
      iintro ⟨⟨HS, Hrest⟩, Ho, ⟨%d0, H0⟩, ⟨%d1, H1⟩, ⟨%d2, H2⟩⟩
      iapply (sound1_C c Set.univ (grid1.coords t) hf hl _ _ _ _ _ _ _ _ (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · have hl : ¬last1 (grid1.coords t) := fun h => h1 ((hlast1 t).mp h)
      rw [Dat.leavesExact_idle (dat1 V c) 2 t (idleAt1_2 t hl) (noFlush1_2 t hl)]
      iintro ⟨⟨HS, Hrest⟩, Ho, ⟨%d0, H0⟩, ⟨%d1, H1⟩, ⟨%d2, H2⟩⟩
      iapply (sound1_B c Set.univ (grid1.coords t) hf hl _ _ _ _ _ _ _ _ (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The scoped buffers no window stages make the invariant before the first point, and the invariant after the last
    point gives them back. -/
theorem hin1 (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 (Nat.zero_le _) from rfl, Phi1_zero V c 0 _ rfl, scopedRest1_split]
theorem hout1 (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), scopedRest1_split]
  iintro ⟨HS, Hr⟩
  isplitl [HS]
  · iexists _; iexact HS
  iexact Hr

end

end Cert.Kernel.Hand

end
-- ==== Proof.WordCall2.lean ====
import proofs.«152176_j15796889715484_1_alg».proof.Proof.Gen.Kernel.Launch
import proofs.«152176_j15796889715484_1_alg».proof.Proof.Gen.Kernel.Skeleton
import proofs.«152176_j15796889715484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 2 at one grid point, and the accumulator it carries from point to point.

At every point the body adds the point's partial sum to a 1×1 accumulator kept in a scratch buffer: the accumulator is
reset to zero at the first point of the grid, and copied into the 1×1 output block at the last point. -/

section
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-! ## The two conditions of the body, decided over the grid -/

/-- "This is the first point of the grid", as the body computes it from the coordinates. -/
abbrev first2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hfirst2 : ∀ t : Fin cfg2.N, first2 (grid2.coords t) ↔ t.val = 0 :=
  (by decide +kernel : ∀ t : Fin grid2.N, first2 (grid2.coords t) ↔ t.val = 0)
/-- "This is the last point of the grid". -/
abbrev last2 (i : grid2.Coords) : Prop := k2_cond2 i = 1#1
theorem hlast2 : ∀ t : Fin cfg2.N, last2 (grid2.coords t) ↔ t.val = 31 :=
  (by decide +kernel : ∀ t : Fin grid2.N, last2 (grid2.coords t) ↔ t.val = 31)

/-- The input windows are never idle; the output window is idle, and not written back, everywhere but at the last point. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem liveAt2_2 : ∀ t : Fin cfg2.N, last2 (grid2.coords t) → cfg2.idle 2 (grid2.coords t) = false := by decide +kernel

/-- Each window's current staging memref at point `t`, and the scratch accumulator. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0

/-! ## The body's triple, case by case -/

/-- The accumulator after the body, from the two blocks and the accumulator before it. -/
def step2 (x : Vec F S1024x2048 .f32) (y : Vec F S512x2048 .f32) (a : Vec F S1x1 .f32) : Vec F S1x1 .f32 :=
  k2_pay1 (k2_pay3 x y a)

theorem zeros2_2 : (![0, 0] : Fin 2 → Nat) = fun _ => 0 := by funext a; fin_cases a <;> rfl

theorem cover11_2 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

set_option maxHeartbeats 1000000 in
/-- A point that is neither the first nor the last: the accumulator takes one step, the output block is untouched. -/
theorem sound2_B (c : Dev nD) (E : Set ℕ) (i : grid2.Coords) (hf : ¬first2 i) (hl : ¬last2 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step2 x y a)) -∗ K ⟨⟩))
      ⊢ wp frame (wpE (defs₀ (F := F)) Variants.none c none) E (cc2__kernel_sum_body i arg2 harg2 arg3 harg3 arg4 harg4 arg5 harg5) K := by
  simp only [cc2__kernel_sum_body_eq_skeleton]; unfold cc2__kernel_sum_body_skel; simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (cover11_2 _), View.canon_unit_zero zeros2_2]
  unfold step2
  simp only [View.readAt_eq_ld, harg2.read_unread, harg3.read_unread, harg5.read_unread,
    View.ld_unit_zero (S := S1024x2048) zeros2_2, View.ld_unit_zero (S := S512x2048) zeros2_2, View.ld_unit_zero (S := S1x1) zeros2_2]

theorem mem11_2 (p0 : Vec F S1x1 .f32) (y : S1x1.Idx) : y ∈ (Rect.unit (s := S1x1) ![0, 0] S1x1.size inb_S1x1_S1x1_0_0).set := by
  obtain ⟨pc, hpc, hy⟩ := cover11_2 p0 y
  simp only [List.mem_singleton] at hpc
  subst hpc; exact hy

theorem coverHead_2 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, mem11_2 p0 y⟩

set_option maxHeartbeats 1000000 in
/-- The first point of the grid: the accumulator is reset to zero and takes one step, the output block is untouched. -/
theorem sound2_A (c : Dev nD) (E : Set ℕ) (i : grid2.Coords) (hf : first2 i) (hl : ¬last2 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step2 x y (k2_pay2 (F := F)))) -∗ K ⟨⟩))
      ⊢ wp frame (wpE (defs₀ (F := F)) Variants.none c none) E (cc2__kernel_sum_body i arg2 harg2 arg3 harg3 arg4 harg4 arg5 harg5) K := by
  simp only [cc2__kernel_sum_body_eq_skeleton]; unfold cc2__kernel_sum_body_skel; simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [View.read_writes_eq_canon _ _ _ (coverHead_2 _ _), View.canon_cons_unit_zero zeros2_2]
  unfold step2
  simp only [View.readAt_eq_ld, harg2.read_unread, harg3.read_unread, harg5.read_unread, View.readCov_unit_zero (S := S1x1) _ zeros2_2,
    View.ld_unit_zero (S := S1024x2048) zeros2_2, View.ld_unit_zero (S := S512x2048) zeros2_2, View.ld_unit_zero (S := S1x1) zeros2_2]

set_option maxHeartbeats 1000000 in
/-- The last point of the grid: the accumulator takes one step and is copied into the output block. -/
theorem sound2_C (c : Dev nD) (E : Set ℕ) (i : grid2.Coords) (hf : ¬first2 i) (hl : last2 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (step2 x y a)
            ∗ owns (c : Thread nD τ) arg5 fullShare (step2 x y a)) -∗ K ⟨⟩))
      ⊢ wp frame (wpE (defs₀ (F := F)) Variants.none c none) E (cc2__kernel_sum_body i arg2 harg2 arg3 harg3 arg4 harg4 arg5 harg5) K := by
  simp only [cc2__kernel_sum_body_eq_skeleton]; unfold cc2__kernel_sum_body_skel; simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [View.read_writes_eq_canon _ _ _ (coverHead_2 _ _), View.canon_cons_unit_zero zeros2_2]
    unfold step2
    simp only [View.readAt_eq_ld, harg2.read_unread, harg3.read_unread, harg5.read_unread, View.readCov_unit_zero (S := S1x1) _ zeros2_2,
      View.ld_unit_zero (S := S1024x2048) zeros2_2, View.ld_unit_zero (S := S512x2048) zeros2_2, View.ld_unit_zero (S := S1x1) zeros2_2]
  iexists _; isplitr
  swap; · iexact H5
  ipureintro
  sl_unfold_run_names
  rw [View.read_writes_eq_canon _ _ _ (coverHead_2 _ _), View.canon_cons_unit_zero zeros2_2]
  unfold step2
  simp only [View.readAt_eq_ld, harg2.read_unread, harg3.read_unread, harg5.read_unread, View.readCov_unit_zero (S := S1x1) _ zeros2_2,
    View.ld_unit_zero (S := S1024x2048) zeros2_2, View.ld_unit_zero (S := S512x2048) zeros2_2, View.ld_unit_zero (S := S1x1) zeros2_2]

/-! ## The accumulator point by point, the invariant and the proof data -/

/-- The scoped buffers that are neither a staging buffer of this call nor its accumulator, each at some contents. -/
def others2 (c : Dev nD) : sProp 𝕄 :=
  bigSep ((((Finset.univ.filter fun b : Ref sig .tc => b.isScoped) \ Finset.univ.image (Pipeline.stageRef spec2)).erase cc2_scratch0))
    fun b => iprop(∃ f : Buf (Elt F) ((c : Thread nD τ).loc b), ((c : Thread nD τ).loc b) ↦{fullShare} f)

/-- The scoped buffers no window stages are the accumulator, at some contents, and the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ others2 c) := by
  unfold Pipeline.scopedRest others2
  rw [bigSep_erase (i := cc2_scratch0) (by decide)]
  simp only [scM2, owns_whole]
  rfl

section
variable (V : (c : Dev nD) → (b : Ref sig .tc) → Buf (Elt F) ((c : Thread nD τ).loc b))

/-- The accumulator after the body at position `n`: from zero at the first point, one step per point. -/
def accAt2 (c : Dev nD) : (n : ℕ) → n < cfg2.N → Vec F S1x1 .f32
  | 0, hn => step2 (iblk2 V c 0 ⟨0, hn⟩) (iblk2 V c 1 ⟨0, hn⟩) (k2_pay2 (F := F))
  | n + 1, hn => step2 (iblk2 V c 0 ⟨n + 1, hn⟩) (iblk2 V c 1 ⟨n + 1, hn⟩) (accAt2 c n (Nat.lt_of_succ_lt hn))

theorem accAt2_zero (c : Dev nD) (t : Fin cfg2.N) (h : t.val = 0) :
    accAt2 V c t.val t.isLt = step2 (iblk2 V c 0 t) (iblk2 V c 1 t) (k2_pay2 (F := F)) := by
  obtain ⟨n, hn⟩ := t
  cases n with
  | zero => rfl
  | succ n => exact absurd h (Nat.succ_ne_zero n)

theorem accAt2_pos (c : Dev nD) (t : Fin cfg2.N) (h : t.val ≠ 0) :
    accAt2 V c t.val t.isLt = step2 (iblk2 V c 0 t) (iblk2 V c 1 t) (accAt2 V c (t.val - 1) (Nat.lt_of_le_of_lt (Nat.sub_le _ _) t.isLt)) := by
  obtain ⟨n, hn⟩ := t
  cases n with
  | zero => exact absurd rfl h
  | succ n => rfl

/-- The invariant before position `n`: the accumulator at anything before the first point, afterwards at what the point
    before left; the other scoped buffers at anything. -/
def Phi2 (c : Dev nD) : (n : ℕ) → n ≤ cfg2.N → sProp 𝕄
  | 0, _ => iprop((∃ d, owns (c : Thread nD τ) scM2 fullShare d) ∗ others2 c)
  | n + 1, hn => iprop(owns (c : Thread nD τ) scM2 fullShare (accAt2 V c n hn) ∗ others2 c)

theorem Phi2_zero (c : Dev nD) (n : ℕ) (h : n ≤ cfg2.N) (hz : n = 0) :
    Phi2 V c n h = iprop((∃ d, owns (c : Thread nD τ) scM2 fullShare d) ∗ others2 c) := by
  subst hz; rfl
theorem Phi2_succ (c : Dev nD) (n : ℕ) (hn : n < cfg2.N) :
    Phi2 V c (n + 1) hn = iprop(owns (c : Thread nD τ) scM2 fullShare (accAt2 V c n hn) ∗ others2 c) := rfl
theorem Phi2_pos (c : Dev nD) (n : ℕ) (h : n ≤ cfg2.N) (hz : n ≠ 0) :
    Phi2 V c n h = iprop(owns (c : Thread nD τ) scM2 fullShare (accAt2 V c (n - 1) (by omega)) ∗ others2 c) := by
  cases n with
  | zero => exact absurd rfl hz
  | succ n => rfl

/-- The proof data of pallas_call 2 on core `c`: the arrays as the call finds them; after the body each input's buffer at
    its block and the output's at the accumulator; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := Phi2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks; the point is the first, the last or neither, and that
    case's triple applies; the invariant hands the accumulator over at what the point before left and takes it back at
    this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 32 := lt_of_lt_of_eq t.isLt (show cfg2.N = 32 from N_2)
  rw [Phi2_castSucc V c t]
  by_cases h0 : t.val = 0
  · have hl : ¬last2 (grid2.coords t) := fun h => by have := (hlast2 t).mp h; omega
    rw [Dat.leavesExact_idle (dat2 V c) 2 t (idleAt2_2 t hl) (noFlush2_2 t hl)]
    rw [Phi2_zero V c _ _ h0, accAt2_zero V c t h0]
    iintro ⟨⟨⟨%a, HS⟩, Hrest⟩, Ho, ⟨%d0, H0⟩, ⟨%d1, H1⟩, ⟨%d2, H2⟩⟩
    iapply (sound2_A c Set.univ (grid2.coords t) ((hfirst2 t).mpr h0) hl _ _ _ _ _ _ _ _ (iblk2 V c 0 t) (iblk2 V c 1 t) _ a _)
    isplitl [H0]; · iexact H0
    isplitl [H1]; · iexact H1
    isplitl [H2]; · iexact H2
    isplitl [HS]; · iexact HS
    iintro ⟨H0, H1, H2, HS⟩
    isplitl [HS Hrest]
    · isplitl [HS]; · iexact HS
      iexact Hrest
    isplitl [Ho]; · iexact Ho
    isplitl [H0]; · iexact H0
    isplitl [H1]; · iexact H1
    iexists _; iexact H2
  · have hf : ¬first2 (grid2.coords t) := fun h => h0 ((hfirst2 t).mp h)
    rw [Phi2_pos V c _ _ h0, accAt2_pos V c t h0]
    by_cases h1 : t.val = 31
    · have hl : last2 (grid2.coords t) := (hlast2 t).mpr h1
      rw [show (dat2 V c).leavesExact 2 t = owns (c : Thread nD τ) (ms2_2 t) fullShare ((dat2 V c).after 2 t) from by
        unfold Dat.leavesExact; rw [liveAt2_2 t hl], after2_2, accAt2_pos V c t h0]
      iintro ⟨⟨HS, Hrest⟩, Ho, ⟨%d0, H0⟩, ⟨%d1, H1⟩, ⟨%d2, H2⟩⟩
      iapply (sound2_C c Set.univ (grid2.coords t) hf hl _ _ _ _ _ _ _ _ (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · have hl : ¬last2 (grid2.coords t) := fun h => h1 ((hlast2 t).mp h)
      rw [Dat.leavesExact_idle (dat2 V c) 2 t (idleAt2_2 t hl) (noFlush2_2 t hl)]
      iintro ⟨⟨HS, Hrest⟩, Ho, ⟨%d0, H0⟩, ⟨%d1, H1⟩, ⟨%d2, H2⟩⟩
      iapply (sound2_B c Set.univ (grid2.coords t) hf hl _ _ _ _ _ _ _ _ (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The scoped buffers no window stages make the invariant before the first point, and the invariant after the last
    point gives them back. -/
theorem hin2 (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, Phi2_zero V c 0 _ rfl, scopedRest2_split]
theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), scopedRest2_split]
  iintro ⟨HS, Hr⟩
  isplitl [HS]
  · iexists _; iexact HS
  iexact Hr

end

end Cert.Kernel.Hand

end
-- ==== Proof.WordShare.lean ====
/-
  Two windows reading one array: the array's full share dealt in halves.

  Calls 0 and 2 of the program hand one argument array to their two input windows and a result array to their output
  window.  At a call's entry the core holds every unscoped buffer whole at the full share.  The shared array's full
  share is the composite of its left and right halves: the left half is dealt to window 0, the right half to window 1,
  and the result array goes whole to window 2; everything else is the unscoped rest.  At the exit the two halves, which
  are at the same contents, are put together again.
-/
import proofs.«152176_j15796889715484_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Call 0 -/

/-- The buffers behind call 0's windows: the shared argument array and the result array. -/
theorem arrImage0 : Finset.univ.image (Pipeline.arrRef spec0) = {main_arg1, main_v0} := by decide

set_option maxHeartbeats 50000 in
/-- ENTRY: of the core's unscoped buffers, the shared array's left half goes to window 0, its right half to window 1,
    the result array whole to window 2; the other buffers are the unscoped rest. -/
theorem entry_arrays0 (c : Dev nD) (dat : Pipeline.Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (hA : ∀ w, dat.A w = V (Pipeline.arrRef spec0 w)) :
    (unscopedBufs c V : sProp 𝕄)
      ⊢ iprop(dat.arrays (dat.arrAt · 0) ∗ Pipeline.unscopedRest (Ix := Unit) (Name := ℕ) (U := UR sig nD τ) (Lvl := ℕ) spec0 c V) := by
  rw [Pipeline.unscopedBufs_split₀ cfgs 0 winFacts₀0.arr_unscoped c V]
  refine sep_mono ?_ .rfl
  have hs0 : dat.share 0 = fullShare.left := (if_neg (by decide)).trans hq0
  have hs1 : dat.share 1 = fullShare.right := (if_neg (by decide)).trans hq1
  have hs2 : dat.share 2 = fullShare := if_pos (by decide)
  unfold Pipeline.arrBufs Dat.arrays
  rw [show Finset.univ.image (Pipeline.arrRef (cfgs 0).spec) = {main_arg1, main_v0} from arrImage0, bigSep_insert (by decide), bigSep_singleton, bigSep_W0, hs0, hs1, hs2,
    (arr_whole0 0).set_eq_univ, (arr_whole0 2).set_eq_univ]
  have e0 : (fun x => dat.arrAt x 0) 0 = V main_arg1 := hA 0
  have e1 : (fun x => dat.arrAt x 0) 1 = V main_arg1 := hA 1
  have e2 : (fun x => dat.arrAt x 0) 2 = V main_v0 := hA 2
  rw [e0, e1, e2]
  exact (sep_mono (pointsTo_share (PosShare.mem_left_op_right fullShare)).1 .rfl).trans sep_assoc

set_option maxHeartbeats 50000 in
/-- EXIT: window 0's left half and window 1's right half of the shared array, at the same contents, are the array whole at
    the full share again; with the result array and the unscoped rest they are the core's unscoped buffers, at any
    contents that agree with the windows' on their arrays and with the entry's elsewhere. -/
theorem exit_arrays0 (c : Dev nD) (dat : Pipeline.Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (G : (w : Fin cfg0.W) → Buf (Elt F) ((cfg0.win w).arr.view.loc (c.tc : Thread nD τ)))
    (hG : ∀ w, G w = V' (Pipeline.arrRef spec0 w))
    (hrest : ∀ b, b ∉ Finset.univ.image (Pipeline.arrRef spec0) → V' b = V b) :
    iprop(dat.arrays G ∗ Pipeline.unscopedRest (Ix := Unit) (Name := ℕ) (U := UR sig nD τ) (Lvl := ℕ) spec0 c V)
      ⊢ (unscopedBufs c V' : sProp 𝕄) := by
  rw [Pipeline.unscopedBufs_split₀ cfgs 0 winFacts₀0.arr_unscoped c V']
  refine sep_mono ?_ (Entails.of_eq ?_)
  · have hs0 : dat.share 0 = fullShare.left := (if_neg (by decide)).trans hq0
    have hs1 : dat.share 1 = fullShare.right := (if_neg (by decide)).trans hq1
    have hs2 : dat.share 2 = fullShare := if_pos (by decide)
    unfold Pipeline.arrBufs Dat.arrays
    rw [show Finset.univ.image (Pipeline.arrRef (cfgs 0).spec) = {main_arg1, main_v0} from arrImage0, bigSep_insert (by decide),
      bigSep_singleton, bigSep_W0, hs0, hs1, hs2, (arr_whole0 0).set_eq_univ, (arr_whole0 2).set_eq_univ]
    have e0 : G 0 = V' main_arg1 := hG 0
    have e1 : G 1 = V' main_arg1 := hG 1
    have e2 : G 2 = V' main_v0 := hG 2
    rw [e0, e1, e2]
    exact sep_assoc'.trans (sep_mono (pointsTo_share (PosShare.mem_left_op_right fullShare)).2 .rfl)
  · unfold Pipeline.unscopedRest
    exact bigSep_congr fun b hb => by rw [hrest b (Finset.mem_sdiff.mp hb).2]

/-! ## Call 2 -/

/-- The buffers behind call 2's windows: the shared argument array and the result array. -/
theorem arrImage2 : Finset.univ.image (Pipeline.arrRef spec2) = {main_arg0, main_v4} := by decide

set_option maxHeartbeats 50000 in
/-- ENTRY: of the core's unscoped buffers, the shared array's left half goes to window 0, its right half to window 1,
    the result array whole to window 2; the other buffers are the unscoped rest. -/
theorem entry_arrays2 (c : Dev nD) (dat : Pipeline.Dat τ (Elt F) Unit ℕ (UR sig nD τ) ℕ cfg2 c)
    (hq0 : dat.q 0 = fullShare.left) (hq1 : dat.q 1 = fullShare.right)
    (V : (b : Ref sig .tc) → Buf (Elt F) ((c : Thread nD τ).loc b))
    (hA : ∀ w, dat.A w = V (Pipeline.arrRef spec2 w)) :
    (unscopedBufs c V : sProp 𝕄)
      ⊢ iprop(dat.arrays (dat.arrAt · 0) ∗ Pipeline.unscopedRest (Ix := Unit) (Name := ℕ) (U := UR sig nD τ) (Lvl := ℕ) spec2 c V) := by
  rw [Pipeline.unscopedBufs_split₀ cfgs 2 winFacts₀2.arr_unscoped c V]
  refine sep_mono ?_ .rfl
  have hs0 : dat.share 0 = fullShare.left := (if_neg (by decide)).trans hq0
  have hs1 : dat.share 1 = fullShare.right := (if_neg (by decide)).trans hq1
  have hs2 : dat.share 2 = fullShare := if_pos (by decide)
  unfold Pipeline.arrBufs Dat.arrays
  rw [show Finset.univ.image (Pipeline.arrRef (cfgs 2).spec) = {main_arg0, main_v4} from arrImage2, bigSep_insert (by decide), bigSep_singleton, bigSep_W2, hs0, hs1, hs2,
    (arr_whole2 0).set_eq_univ, (arr_whole2 2).set_eq_univ]
  have e0 : (fun x => dat.arrAt x 0) 0 = V main_arg0 := hA 0
  have e1 : (fun x => dat.arrAt x 0) 1 = V main_arg0 := hA 1
  have e2 : (fun x => dat.arrAt x 0) 2 = V main_v4 := hA 2
  rw [e0, e1, e2]
  exact (sep_mono (pointsTo_share (PosShare.mem_left_op_right fullShare)).1 .rfl).trans sep_assoc

set_option maxHeartbeats 50000 in
/-- EXIT: window 0's left half and window 1's right half of the shared array, at the same contents, are the array whole at
    the full share again; with the result array and the unscoped rest they are the core's unscoped buffers, at any
    contents that agree with the windows' on their arrays and with the entry's elsewhere. -/
theorem exit_arrays2 (c : Dev nD) (dat : Pipeline.Dat τ (Elt F) Unit ℕ (UR sig nD τ) ℕ cfg2 c)
    (hq0 : dat.q 0 = fullShare.left) (hq1 : dat.q 1 = fullShare.right)
    (V V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w))
    (hrest : ∀ b, b ∉ Finset.univ.image (Pipeline.arrRef spec2) → V' b = V b) :
    iprop(dat.arrays G ∗ Pipeline.unscopedRest (Ix := Unit) (Name := ℕ) (U := UR sig nD τ) (Lvl := ℕ) spec2 c V)
      ⊢ (unscopedBufs c V' : sProp 𝕄) := by
  rw [Pipeline.unscopedBufs_split₀ cfgs 2 winFacts₀2.arr_unscoped c V']
  refine sep_mono ?_ (Entails.of_eq ?_)
  · have hs0 : dat.share 0 = fullShare.left := (if_neg (by decide)).trans hq0
    have hs1 : dat.share 1 = fullShare.right := (if_neg (by decide)).trans hq1
    have hs2 : dat.share 2 = fullShare := if_pos (by decide)
    unfold Pipeline.arrBufs Dat.arrays
    rw [show Finset.univ.image (Pipeline.arrRef (cfgs 2).spec) = {main_arg0, main_v4} from arrImage2, bigSep_insert (by decide),
      bigSep_singleton, bigSep_W2, hs0, hs1, hs2, (arr_whole2 0).set_eq_univ, (arr_whole2 2).set_eq_univ]
    have e0 : G 0 = V' main_arg0 := hG 0
    have e1 : G 1 = V' main_arg0 := hG 1
    have e2 : G 2 = V' main_v4 := hG 2
    rw [e0, e1, e2]
    exact sep_assoc'.trans (sep_mono (pointsTo_share (PosShare.mem_left_op_right fullShare)).2 .rfl)
  · unfold Pipeline.unscopedRest
    exact bigSep_congr fun b hb => by rw [hrest b (Finset.mem_sdiff.mp hb).2]

end Cert.Kernel.Hand

end
-- ==== Proof.WordRun.lean ====
import proofs.«152176_j15796889715484_1_alg».proof.Proof.WordCall0
import proofs.«152176_j15796889715484_1_alg».proof.Proof.WordCall1
import proofs.«152176_j15796889715484_1_alg».proof.Proof.WordCall2
import proofs.«152176_j15796889715484_1_alg».proof.Proof.WordShare
import proofs.«152176_j15796889715484_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents from the launch to the return

The program is three pallas_calls, each followed by host operations. Each call changes one buffer only, its 1×1
result, which ends at what the call's last write-back leaves; the host operations between the calls read it. -/

/-- Core `c`'s buffers at launch. -/
abbrev W0 : Dev nD → Valuation τ sig (Elt F) := fun c b => m (c, b)
/-- What the first call leaves in its result. -/
def o1 (c : Dev nD) : Buf (Elt F) ((c : Thread nD τ).loc main_v0) := (dat0 (fun c b => W0 m c b) c).arrAt 2 cfg0.N
/-- After the first call, -/
abbrev W1 : Dev nD → Valuation τ sig (Elt F) := fun c => Function.update (W0 m c) (Proc.devRef .tc main_v0 : DevRef τ sig) (o1 m c)
/-- and the host operations after it. -/
abbrev W2 : Dev nD → Valuation τ sig (Elt F) := fun c => StableHlo.after hostOps1 (W1 m c)
/-- What the second call leaves in its result. -/
def o3 (c : Dev nD) : Buf (Elt F) ((c : Thread nD τ).loc main_v2) := (dat1 (fun c b => W2 m c b) c).arrAt 2 cfg1.N
abbrev W3 : Dev nD → Valuation τ sig (Elt F) := fun c => Function.update (W2 m c) (Proc.devRef .tc main_v2 : DevRef τ sig) (o3 m c)
abbrev W4 : Dev nD → Valuation τ sig (Elt F) := fun c => StableHlo.after hostOps2 (W3 m c)
/-- What the third call leaves in its result. -/
def o5 (c : Dev nD) : Buf (Elt F) ((c : Thread nD τ).loc main_v4) := (dat2 (fun c b => W4 m c b) c).arrAt 2 cfg2.N
abbrev W5 : Dev nD → Valuation τ sig (Elt F) := fun c => Function.update (W4 m c) (Proc.devRef .tc main_v4 : DevRef τ sig) (o5 m c)
abbrev W6 : Dev nD → Valuation τ sig (Elt F) := fun c => StableHlo.after hostOps3 (W5 m c)

/-- The contents the calls leave, as the family the conditional run is stated over. -/
def outs : Outs (F := F) := fun J r c =>
  match J with
  | 1 => Function.update (β := fun r' : Ref sig .tc => Buf (Elt F) ((c : Thread nD τ).loc r')) (fun r' : Ref sig .tc => m ((c : Thread nD τ).loc r')) main_v0 (o1 m c) r
  | 3 => Function.update (β := fun r' : Ref sig .tc => Buf (Elt F) ((c : Thread nD τ).loc r')) (fun r' : Ref sig .tc => m ((c : Thread nD τ).loc r')) main_v2 (o3 m c) r
  | 5 => Function.update (β := fun r' : Ref sig .tc => Buf (Elt F) ((c : Thread nD τ).loc r')) (fun r' : Ref sig .tc => m ((c : Thread nD τ).loc r')) main_v4 (o5 m c) r
  | _ => m ((c : Thread nD τ).loc r)

theorem outs_1 (c : Dev nD) : outs m 1 main_v0 c = o1 m c := by
  simp only [outs, Function.update_self]
theorem outs_3 (c : Dev nD) : outs m 3 main_v2 c = o3 m c := by
  simp only [outs, Function.update_self]
theorem outs_5 (c : Dev nD) : outs m 5 main_v4 c = o5 m c := by
  simp only [outs, Function.update_self]

theorem V1_eq (c : Dev nD) : V1 m (outs m) c = W1 m c := by
  exact congrArg (Function.update (V0 m c) (Proc.devRef .tc main_v0 : DevRef τ sig)) (outs_1 m c)
theorem V2_eq (c : Dev nD) : V2 m (outs m) c = W2 m c := by
  show StableHlo.after hostOps1 (V1 m (outs m) c) = _
  rw [V1_eq]
theorem V3_eq (c : Dev nD) : V3 m (outs m) c = W3 m c := by
  rw [show V3 m (outs m) c = Function.update (V2 m (outs m) c) (Proc.devRef .tc main_v2 : DevRef τ sig) (outs m 3 main_v2 c) from rfl, V2_eq]
  exact congrArg (Function.update (W2 m c) (Proc.devRef .tc main_v2 : DevRef τ sig)) (outs_3 m c)
theorem V4_eq (c : Dev nD) : V4 m (outs m) c = W4 m c := by
  show StableHlo.after hostOps2 (V3 m (outs m) c) = _
  rw [V3_eq]
theorem V5_eq (c : Dev nD) : V5 m (outs m) c = W5 m c := by
  rw [show V5 m (outs m) c = Function.update (V4 m (outs m) c) (Proc.devRef .tc main_v4 : DevRef τ sig) (outs m 5 main_v4 c) from rfl, V4_eq]
  exact congrArg (Function.update (W4 m c) (Proc.devRef .tc main_v4 : DevRef τ sig)) (outs_5 m c)
theorem V6_eq (c : Dev nD) : V6 m (outs m) c = W6 m c := by
  show StableHlo.after hostOps3 (V5 m (outs m) c) = _
  rw [V5_eq]

/-! ## The proof data family and what rides beside the buffers -/

abbrev adm' : (p : Fin 3) → (pcfgs (F := F) p).Adm := fun p => (cfgs p).toPCfg_adm

/-- Every call's proof data, each at its entry contents. -/
def pdats : (p : Fin 3) → (c : Dev nD) → Dat τ (Elt F) Unit ℕ (UR sig nD τ) ℕ (cfgs p) c
  | ⟨0, _⟩ => fun c => dat0 (fun c b => W0 m c b) c
  | ⟨1, _⟩ => fun c => dat1 (fun c b => W2 m c b) c
  | ⟨2, _⟩ => fun c => dat2 (fun c b => W4 m c b) c

abbrev 𝒱₀' : Variants := Variants.none
abbrev L' : GSem nD τ sig → Finset Unit := fun _ => ∅
abbrev lv' : GSem nD τ sig → Unit → ℕ := fun _ _ => 0
/-- Beside the buffers: the generator register at some state, and nothing owed. -/
abbrev R' (c : Dev nD) : sProp 𝕄 := iprop((∃ r, prngReg c r) ∗ ∃ W, owes (c : Thread nD τ) (0 : CellTallies nD τ sig Unit) W)

/-! ## The first call as a segment of the program -/

/-- After the call each of its arrays holds what the contents after it say: an input its entry contents, the result what
    the last write-back left. -/
theorem hF0 (c : Dev nD) : ∀ w : Fin cfg0.W, (pdats m 0 c).arrAt w cfg0.N = W1 m c (Pipeline.arrRef spec0 w)
  | ⟨0, _⟩ => ((dat0 (fun c b => W0 m c b) c).arrAt_in 0 rfl _).trans ((A_eq0 _ c 0).trans (Function.update_of_ne (StableHlo.devRef_ne_of_ne (by decide)) _ _).symm)
  | ⟨1, _⟩ => ((dat0 (fun c b => W0 m c b) c).arrAt_in 1 rfl _).trans ((A_eq0 _ c 1).trans (Function.update_of_ne (StableHlo.devRef_ne_of_ne (by decide)) _ _).symm)
  | ⟨2, _⟩ => (Function.update_self (Proc.devRef .tc main_v0 : DevRef τ sig) (o1 m c) (W0 m c)).symm

/-- Every buffer that is no array of the call keeps its contents. -/
theorem hrest0 (c : Dev nD) : ∀ b : Ref sig .tc, b ∉ Finset.univ.image (Pipeline.arrRef spec0) → W1 m c b = W0 m c b :=
  fun b hb => Function.update_of_ne (StableHlo.devRef_ne_of_ne (fun e => hb (Finset.mem_image.mpr ⟨2, Finset.mem_univ _, (show Pipeline.arrRef spec0 2 = b from e.symm)⟩))) _ _

set_option backward.isDefEq.respectTransparency.types false in
/-- The first call, entered with every unscoped buffer at the contents before it and left with them at the contents
    after it: its arrays are split out of the unscoped buffers and put back with the result updated; the accumulator and
    the other scoped buffers go into the invariant and come back; nothing is owed. -/
def reg0 : Pipeline.RegionSeg (pcfgs (F := F)) adm' (pdats m) () defs₀ 𝒱₀' L' lv' 0 where
  win := winFacts₀0
  block_pos := block_pos0
  stage_whole := stage_whole0
  K := PEmpty
  osem k := k.elim
  ho := Pipeline.OwnSemFacts.none _
  hbody c := (body_obligation0 (fun c b => W0 m c b) c).loose
  hwaits := Pipeline.hwaits_of_owed_zero _ _ _ _ L' lv' 0 fun _ _ => rfl
  pre c := iprop(StableHlo.held (c : Thread nD τ) (Pipeline.ucRefs τ sig) (W0 m c) ∗ R' c)
  post c := iprop(StableHlo.held (c : Thread nD τ) (Pipeline.ucRefs τ sig) (W1 m c) ∗ R' c)
  X c := iprop(emp)
  Y c := iprop(emp)
  Z c := iprop(Pipeline.unscopedRest (Ix := Unit) (Name := ℕ) (U := UR sig nD τ) (Lvl := ℕ) spec0 c (fun b => W0 m c b) ∗ ∃ r, prngReg c r)
  hentry c := by
    rw [Pipeline.ownSems0_none]
    have hsplit : (unscopedBufs c (fun b => W0 m c b) : sProp 𝕄)
        ⊢ iprop((pdats m 0 c).arrays ((pdats m 0 c).arrAt · 0) ∗ Pipeline.unscopedRest (Ix := Unit) (Name := ℕ) (U := UR sig nD τ) (Lvl := ℕ) spec0 c (fun b => W0 m c b)) :=
      entry_arrays0 c (pdats m 0 c) rfl rfl (fun b => W0 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (fun c b => W0 m c b) c).Φ 0 from rfl]
    iintro ⟨-, -, Hr⟩
    iapply (hin0 (fun c b => W0 m c b) c)
    iexact Hr
  hout c := by
    rw [Pipeline.ownSems0_none, show (pdats m 0 c).Φ (Fin.last _) = (dat0 (fun c b => W0 m c b) c).Φ (Fin.last cfg0.N) from rfl]
    iintro H
    isplitr; · iempintro
    isplitr; · iempintro
    iapply (hout0 (fun c b => W0 m c b) c)
    iexact H
  hexit c := by
    have hjoin : iprop((pdats m 0 c).arrays ((pdats m 0 c).arrAt · cfg0.N) ∗ Pipeline.unscopedRest (Ix := Unit) (Name := ℕ) (U := UR sig nD τ) (Lvl := ℕ) spec0 c (fun b => W0 m c b))
        ⊢ (unscopedBufs c (fun b => W1 m c b) : sProp 𝕄) :=
      exit_arrays0 c (pdats m 0 c) rfl rfl (fun b => W0 m c b) (fun b => W1 m c b) ((pdats m 0 c).arrAt · cfg0.N) (hF0 m c) (hrest0 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The second call as a segment of the program -/

/-- After the call each of its arrays holds what the contents after it say: an input its entry contents, the result what
    the last write-back left. -/
theorem hF1 (c : Dev nD) : ∀ w : Fin cfg1.W, (pdats m 1 c).arrAt w cfg1.N = W3 m c (Pipeline.arrRef spec1 w)
  | ⟨0, _⟩ => ((dat1 (fun c b => W2 m c b) c).arrAt_in 0 rfl _).trans ((A_eq1 _ c 0).trans (Function.update_of_ne (StableHlo.devRef_ne_of_ne (by decide)) _ _).symm)
  | ⟨1, _⟩ => ((dat1 (fun c b => W2 m c b) c).arrAt_in 1 rfl _).trans ((A_eq1 _ c 1).trans (Function.update_of_ne (StableHlo.devRef_ne_of_ne (by decide)) _ _).symm)
  | ⟨2, _⟩ => (Function.update_self (Proc.devRef .tc main_v2 : DevRef τ sig) (o3 m c) (W2 m c)).symm

/-- Every buffer that is no array of the call keeps its contents. -/
theorem hrest1 (c : Dev nD) : ∀ b : Ref sig .tc, b ∉ Finset.univ.image (Pipeline.arrRef spec1) → W3 m c b = W2 m c b :=
  fun b hb => Function.update_of_ne (StableHlo.devRef_ne_of_ne (fun e => hb (Finset.mem_image.mpr ⟨2, Finset.mem_univ _, (show Pipeline.arrRef spec1 2 = b from e.symm)⟩))) _ _

set_option backward.isDefEq.respectTransparency.types false in
/-- The second call, entered with every unscoped buffer at the contents before it and left with them at the contents
    after it: its arrays are split out of the unscoped buffers and put back with the result updated; the accumulator and
    the other scoped buffers go into the invariant and come back; nothing is owed. -/
def reg1 : Pipeline.RegionSeg (pcfgs (F := F)) adm' (pdats m) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (fun c b => W2 m c b) c).loose
  hwaits := Pipeline.hwaits_of_owed_zero _ _ _ _ L' lv' 1 fun _ _ => rfl
  pre c := iprop(StableHlo.held (c : Thread nD τ) (Pipeline.ucRefs τ sig) (W2 m c) ∗ R' c)
  post c := iprop(StableHlo.held (c : Thread nD τ) (Pipeline.ucRefs τ sig) (W3 m c) ∗ R' c)
  X c := iprop(emp)
  Y c := iprop(emp)
  Z c := iprop(Pipeline.unscopedRest (Ix := Unit) (Name := ℕ) (U := UR sig nD τ) (Lvl := ℕ) spec1 c (fun b => W2 m c b) ∗ ∃ r, prngReg c r)
  hentry c := by
    rw [Pipeline.ownSems0_none]
    have hsplit : (unscopedBufs c (fun b => W2 m c b) : sProp 𝕄)
        ⊢ iprop((pdats m 1 c).arrays ((pdats m 1 c).arrAt · 0) ∗ Pipeline.unscopedRest (Ix := Unit) (Name := ℕ) (U := UR sig nD τ) (Lvl := ℕ) spec1 c (fun b => W2 m c b)) :=
      Pipeline.arrays_of_unscopedBufs (p := 1) (pcfgs (F := F)) adm' (pdats m) launch1.win launch1.arr_whole c
        ((pdats m 1 c).share_full fun _ => rfl) (fun b => W2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (fun c b => W2 m c b) c).Φ 0 from rfl]
    iintro ⟨-, -, Hr⟩
    iapply (hin1 (fun c b => W2 m c b) c)
    iexact Hr
  hout c := by
    rw [Pipeline.ownSems0_none, show (pdats m 1 c).Φ (Fin.last _) = (dat1 (fun c b => W2 m c b) c).Φ (Fin.last cfg1.N) from rfl]
    iintro H
    isplitr; · iempintro
    isplitr; · iempintro
    iapply (hout1 (fun c b => W2 m c b) c)
    iexact H
  hexit c := by
    have hjoin : iprop((pdats m 1 c).arrays ((pdats m 1 c).arrAt · cfg1.N) ∗ Pipeline.unscopedRest (Ix := Unit) (Name := ℕ) (U := UR sig nD τ) (Lvl := ℕ) spec1 c (fun b => W2 m c b))
        ⊢ (unscopedBufs c (fun b => W3 m c b) : sProp 𝕄) :=
      Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (fun b => W2 m c b) (fun b => W3 m c b) ((pdats m 1 c).arrAt · cfg1.N) (hF1 m c) (hrest1 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The third call as a segment of the program -/

/-- After the call each of its arrays holds what the contents after it say: an input its entry contents, the result what
    the last write-back left. -/
theorem hF2 (c : Dev nD) : ∀ w : Fin cfg2.W, (pdats m 2 c).arrAt w cfg2.N = W5 m c (Pipeline.arrRef spec2 w)
  | ⟨0, _⟩ => ((dat2 (fun c b => W4 m c b) c).arrAt_in 0 rfl _).trans ((A_eq2 _ c 0).trans (Function.update_of_ne (StableHlo.devRef_ne_of_ne (by decide)) _ _).symm)
  | ⟨1, _⟩ => ((dat2 (fun c b => W4 m c b) c).arrAt_in 1 rfl _).trans ((A_eq2 _ c 1).trans (Function.update_of_ne (StableHlo.devRef_ne_of_ne (by decide)) _ _).symm)
  | ⟨2, _⟩ => (Function.update_self (Proc.devRef .tc main_v4 : DevRef τ sig) (o5 m c) (W4 m c)).symm

/-- Every buffer that is no array of the call keeps its contents. -/
theorem hrest2 (c : Dev nD) : ∀ b : Ref sig .tc, b ∉ Finset.univ.image (Pipeline.arrRef spec2) → W5 m c b = W4 m c b :=
  fun b hb => Function.update_of_ne (StableHlo.devRef_ne_of_ne (fun e => hb (Finset.mem_image.mpr ⟨2, Finset.mem_univ _, (show Pipeline.arrRef spec2 2 = b from e.symm)⟩))) _ _

set_option backward.isDefEq.respectTransparency.types false in
/-- The third call, entered with every unscoped buffer at the contents before it and left with them at the contents
    after it: its arrays are split out of the unscoped buffers and put back with the result updated; the accumulator and
    the other scoped buffers go into the invariant and come back; nothing is owed. -/
def reg2 : Pipeline.RegionSeg (pcfgs (F := F)) adm' (pdats m) () defs₀ 𝒱₀' L' lv' 2 where
  win := winFacts₀2
  block_pos := block_pos2
  stage_whole := stage_whole2
  K := PEmpty
  osem k := k.elim
  ho := Pipeline.OwnSemFacts.none _
  hbody c := (body_obligation2 (fun c b => W4 m c b) c).loose
  hwaits := Pipeline.hwaits_of_owed_zero _ _ _ _ L' lv' 2 fun _ _ => rfl
  pre c := iprop(StableHlo.held (c : Thread nD τ) (Pipeline.ucRefs τ sig) (W4 m c) ∗ R' c)
  post c := iprop(StableHlo.held (c : Thread nD τ) (Pipeline.ucRefs τ sig) (W5 m c) ∗ R' c)
  X c := iprop(emp)
  Y c := iprop(emp)
  Z c := iprop(Pipeline.unscopedRest (Ix := Unit) (Name := ℕ) (U := UR sig nD τ) (Lvl := ℕ) spec2 c (fun b => W4 m c b) ∗ ∃ r, prngReg c r)
  hentry c := by
    rw [Pipeline.ownSems0_none]
    have hsplit : (unscopedBufs c (fun b => W4 m c b) : sProp 𝕄)
        ⊢ iprop((pdats m 2 c).arrays ((pdats m 2 c).arrAt · 0) ∗ Pipeline.unscopedRest (Ix := Unit) (Name := ℕ) (U := UR sig nD τ) (Lvl := ℕ) spec2 c (fun b => W4 m c b)) :=
      entry_arrays2 c (pdats m 2 c) rfl rfl (fun b => W4 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (dat2 (fun c b => W4 m c b) c).Φ 0 from rfl]
    iintro ⟨-, -, Hr⟩
    iapply (hin2 (fun c b => W4 m c b) c)
    iexact Hr
  hout c := by
    rw [Pipeline.ownSems0_none, show (pdats m 2 c).Φ (Fin.last _) = (dat2 (fun c b => W4 m c b) c).Φ (Fin.last cfg2.N) from rfl]
    iintro H
    isplitr; · iempintro
    isplitr; · iempintro
    iapply (hout2 (fun c b => W4 m c b) c)
    iexact H
  hexit c := by
    have hjoin : iprop((pdats m 2 c).arrays ((pdats m 2 c).arrAt · cfg2.N) ∗ Pipeline.unscopedRest (Ix := Unit) (Name := ℕ) (U := UR sig nD τ) (Lvl := ℕ) spec2 c (fun b => W4 m c b))
        ⊢ (unscopedBufs c (fun b => W5 m c b) : sProp 𝕄) :=
      exit_arrays2 c (pdats m 2 c) rfl rfl (fun b => W4 m c b) (fun b => W5 m c b) ((pdats m 2 c).arrAt · cfg2.N) (hF2 m c) (hrest2 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The run of the whole program -/

variable (ρ : Dev nD → PrngReg)

set_option backward.isDefEq.respectTransparency.types false in
/-- From any memory with zero counters every weakly fair execution of the program terminates without a fault with the argument arrays as launched. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) := by
  have h := frame_cond m (Ix := Unit) (U := UR sig nD τ) (Lvl := ℕ) emb₁ () 𝒱₀' L' lv' (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R' c)
    (hE0 := by
      refine Pipeline.initEach L' lv' fun c => ?_
      iintro ⟨⟨-, HO, -, Hp, -⟩, -⟩
      imodintro
      isplitl [Hp]; · iexists _; iexact Hp
      iexists ∅; iexact HO)
    (hE3 := fun c => by
      iintro ⟨-, HO⟩
      iexact HO)
    (reg0 m) (fun c => .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)
  exact h

end Cert.Kernel.Hand

end
-- ==== Proof.IdealCall0.lean ====
import proofs.«152176_j15796889715484_1_alg».proof.Proof.Gen.KernelIdeal.Launch
import proofs.«152176_j15796889715484_1_alg».proof.Proof.Gen.KernelIdeal.Skeleton
import proofs.«152176_j15796889715484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 0 at one grid point, and the accumulator it carries from point to point.

At every point the body adds the point's partial sum to a 1×1 accumulator kept in a scratch buffer: the accumulator is
reset to zero at the first point of the grid, and copied into the 1×1 output block at the last point. -/

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The two conditions of the body, decided over the grid -/

/-- "This is the first point of the grid", as the body computes it from the coordinates. -/
abbrev first0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hfirst0 : ∀ t : Fin cfg0.N, first0 (grid0.coords t) ↔ t.val = 0 :=
  (by decide +kernel : ∀ t : Fin grid0.N, first0 (grid0.coords t) ↔ t.val = 0)
/-- "This is the last point of the grid". -/
abbrev last0 (i : grid0.Coords) : Prop := k0_cond2 i = 1#1
theorem hlast0 : ∀ t : Fin cfg0.N, last0 (grid0.coords t) ↔ t.val = 31 :=
  (by decide +kernel : ∀ t : Fin grid0.N, last0 (grid0.coords t) ↔ t.val = 31)

/-- The input windows are never idle; the output window is idle, and not written back, everywhere but at the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem liveAt0_2 : ∀ t : Fin cfg0.N, last0 (grid0.coords t) → cfg0.idle 2 (grid0.coords t) = false := by decide +kernel

/-- Each window's current staging memref at point `t`, and the scratch accumulator. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0

/-! ## The body's triple, case by case -/

/-- The accumulator after the body, from the two blocks and the accumulator before it. -/
def step0 (x : Vec F S1024x2048 .f32) (y : Vec F S512x2048 .f32) (a : Vec F S1x1 .f32) : Vec F S1x1 .f32 :=
  k0_pay1 (k0_pay3 x y a)

theorem zeros2_0 : (![0, 0] : Fin 2 → Nat) = fun _ => 0 := by funext a; fin_cases a <;> rfl

theorem cover11_0 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

set_option maxHeartbeats 1000000 in
/-- A point that is neither the first nor the last: the accumulator takes one step, the output block is untouched. -/
theorem sound0_B (c : Dev nD) (E : Set ℕ) (i : grid0.Coords) (hf : ¬first0 i) (hl : ¬last0 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step0 x y a)) -∗ K ⟨⟩))
      ⊢ wp frame (wpE (defs₀ (F := F)) Variants.none c none) E (cc0__kernel_sum_body i arg2 harg2 arg3 harg3 arg4 harg4 arg5 harg5) K := by
  simp only [cc0__kernel_sum_body_eq_skeleton]; unfold cc0__kernel_sum_body_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (cover11_0 _), View.canon_unit_zero zeros2_0]
  unfold step0
  simp only [View.readAt_eq_ld, harg2.read_unread, harg3.read_unread, harg5.read_unread,
    View.ld_unit_zero (S := S1024x2048) zeros2_0, View.ld_unit_zero (S := S512x2048) zeros2_0, View.ld_unit_zero (S := S1x1) zeros2_0]

theorem mem11_0 (p0 : Vec F S1x1 .f32) (y : S1x1.Idx) : y ∈ (Rect.unit (s := S1x1) ![0, 0] S1x1.size inb_S1x1_S1x1_0_0).set := by
  obtain ⟨pc, hpc, hy⟩ := cover11_0 p0 y
  simp only [List.mem_singleton] at hpc
  subst hpc; exact hy

theorem coverHead_0 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, mem11_0 p0 y⟩

set_option maxHeartbeats 1000000 in
/-- The first point of the grid: the accumulator is reset to zero and takes one step, the output block is untouched. -/
theorem sound0_A (c : Dev nD) (E : Set ℕ) (i : grid0.Coords) (hf : first0 i) (hl : ¬last0 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step0 x y (k0_pay2 (F := F)))) -∗ K ⟨⟩))
      ⊢ wp frame (wpE (defs₀ (F := F)) Variants.none c none) E (cc0__kernel_sum_body i arg2 harg2 arg3 harg3 arg4 harg4 arg5 harg5) K := by
  simp only [cc0__kernel_sum_body_eq_skeleton]; unfold cc0__kernel_sum_body_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [View.read_writes_eq_canon _ _ _ (coverHead_0 _ _), View.canon_cons_unit_zero zeros2_0]
  unfold step0
  simp only [View.readAt_eq_ld, harg2.read_unread, harg3.read_unread, harg5.read_unread, View.readCov_unit_zero (S := S1x1) _ zeros2_0,
    View.ld_unit_zero (S := S1024x2048) zeros2_0, View.ld_unit_zero (S := S512x2048) zeros2_0, View.ld_unit_zero (S := S1x1) zeros2_0]

set_option maxHeartbeats 1000000 in
/-- The last point of the grid: the accumulator takes one step and is copied into the output block. -/
theorem sound0_C (c : Dev nD) (E : Set ℕ) (i : grid0.Coords) (hf : ¬first0 i) (hl : last0 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (step0 x y a)
            ∗ owns (c : Thread nD τ) arg5 fullShare (step0 x y a)) -∗ K ⟨⟩))
      ⊢ wp frame (wpE (defs₀ (F := F)) Variants.none c none) E (cc0__kernel_sum_body i arg2 harg2 arg3 harg3 arg4 harg4 arg5 harg5) K := by
  simp only [cc0__kernel_sum_body_eq_skeleton]; unfold cc0__kernel_sum_body_skel; simp only [k0_part1_eq_skeleton]; unfold k0_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [View.read_writes_eq_canon _ _ _ (coverHead_0 _ _), View.canon_cons_unit_zero zeros2_0]
    unfold step0
    simp only [View.readAt_eq_ld, harg2.read_unread, harg3.read_unread, harg5.read_unread, View.readCov_unit_zero (S := S1x1) _ zeros2_0,
      View.ld_unit_zero (S := S1024x2048) zeros2_0, View.ld_unit_zero (S := S512x2048) zeros2_0, View.ld_unit_zero (S := S1x1) zeros2_0]
  iexists _; isplitr
  swap; · iexact H5
  ipureintro
  sl_unfold_run_names
  rw [View.read_writes_eq_canon _ _ _ (coverHead_0 _ _), View.canon_cons_unit_zero zeros2_0]
  unfold step0
  simp only [View.readAt_eq_ld, harg2.read_unread, harg3.read_unread, harg5.read_unread, View.readCov_unit_zero (S := S1x1) _ zeros2_0,
    View.ld_unit_zero (S := S1024x2048) zeros2_0, View.ld_unit_zero (S := S512x2048) zeros2_0, View.ld_unit_zero (S := S1x1) zeros2_0]

/-! ## The accumulator point by point, the invariant and the proof data -/

/-- The scoped buffers that are neither a staging buffer of this call nor its accumulator, each at some contents. -/
def others0 (c : Dev nD) : sProp 𝕄 :=
  bigSep ((((Finset.univ.filter fun b : Ref sig .tc => b.isScoped) \ Finset.univ.image (Pipeline.stageRef spec0)).erase cc0_scratch0))
    fun b => iprop(∃ f : Buf (Elt F) ((c : Thread nD τ).loc b), ((c : Thread nD τ).loc b) ↦{fullShare} f)

/-- The scoped buffers no window stages are the accumulator, at some contents, and the others. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ others0 c) := by
  unfold Pipeline.scopedRest others0
  rw [bigSep_erase (i := cc0_scratch0) (by decide)]
  simp only [scM0, owns_whole]
  rfl

section
variable (V : (c : Dev nD) → (b : Ref sig .tc) → Buf (Elt F) ((c : Thread nD τ).loc b))

/-- The accumulator after the body at position `n`: from zero at the first point, one step per point. -/
def accAt0 (c : Dev nD) : (n : ℕ) → n < cfg0.N → Vec F S1x1 .f32
  | 0, hn => step0 (iblk0 V c 0 ⟨0, hn⟩) (iblk0 V c 1 ⟨0, hn⟩) (k0_pay2 (F := F))
  | n + 1, hn => step0 (iblk0 V c 0 ⟨n + 1, hn⟩) (iblk0 V c 1 ⟨n + 1, hn⟩) (accAt0 c n (Nat.lt_of_succ_lt hn))

theorem accAt0_zero (c : Dev nD) (t : Fin cfg0.N) (h : t.val = 0) :
    accAt0 V c t.val t.isLt = step0 (iblk0 V c 0 t) (iblk0 V c 1 t) (k0_pay2 (F := F)) := by
  obtain ⟨n, hn⟩ := t
  cases n with
  | zero => rfl
  | succ n => exact absurd h (Nat.succ_ne_zero n)

theorem accAt0_pos (c : Dev nD) (t : Fin cfg0.N) (h : t.val ≠ 0) :
    accAt0 V c t.val t.isLt = step0 (iblk0 V c 0 t) (iblk0 V c 1 t) (accAt0 V c (t.val - 1) (Nat.lt_of_le_of_lt (Nat.sub_le _ _) t.isLt)) := by
  obtain ⟨n, hn⟩ := t
  cases n with
  | zero => exact absurd rfl h
  | succ n => rfl

/-- The invariant before position `n`: the accumulator at anything before the first point, afterwards at what the point
    before left; the other scoped buffers at anything. -/
def Phi0 (c : Dev nD) : (n : ℕ) → n ≤ cfg0.N → sProp 𝕄
  | 0, _ => iprop((∃ d, owns (c : Thread nD τ) scM0 fullShare d) ∗ others0 c)
  | n + 1, hn => iprop(owns (c : Thread nD τ) scM0 fullShare (accAt0 V c n hn) ∗ others0 c)

theorem Phi0_zero (c : Dev nD) (n : ℕ) (h : n ≤ cfg0.N) (hz : n = 0) :
    Phi0 V c n h = iprop((∃ d, owns (c : Thread nD τ) scM0 fullShare d) ∗ others0 c) := by
  subst hz; rfl
theorem Phi0_succ (c : Dev nD) (n : ℕ) (hn : n < cfg0.N) :
    Phi0 V c (n + 1) hn = iprop(owns (c : Thread nD τ) scM0 fullShare (accAt0 V c n hn) ∗ others0 c) := rfl
theorem Phi0_pos (c : Dev nD) (n : ℕ) (h : n ≤ cfg0.N) (hz : n ≠ 0) :
    Phi0 V c n h = iprop(owns (c : Thread nD τ) scM0 fullShare (accAt0 V c (n - 1) (by omega)) ∗ others0 c) := by
  cases n with
  | zero => exact absurd rfl hz
  | succ n => rfl

/-- The proof data of pallas_call 0 on core `c`: the arrays as the call finds them; after the body each input's buffer at
    its block and the output's at the accumulator; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := Phi0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' buffers hold their blocks; the point is the first, the last or neither, and that
    case's triple applies; the invariant hands the accumulator over at what the point before left and takes it back at
    this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 32 := lt_of_lt_of_eq t.isLt (show cfg0.N = 32 from N_0)
  rw [Phi0_castSucc V c t]
  by_cases h0 : t.val = 0
  · have hl : ¬last0 (grid0.coords t) := fun h => by have := (hlast0 t).mp h; omega
    rw [Dat.leavesExact_idle (dat0 V c) 2 t (idleAt0_2 t hl) (noFlush0_2 t hl)]
    rw [Phi0_zero V c _ _ h0, accAt0_zero V c t h0]
    iintro ⟨⟨⟨%a, HS⟩, Hrest⟩, Ho, ⟨%d0, H0⟩, ⟨%d1, H1⟩, ⟨%d2, H2⟩⟩
    iapply (sound0_A c Set.univ (grid0.coords t) ((hfirst0 t).mpr h0) hl _ _ _ _ _ _ _ _ (iblk0 V c 0 t) (iblk0 V c 1 t) _ a _)
    isplitl [H0]; · iexact H0
    isplitl [H1]; · iexact H1
    isplitl [H2]; · iexact H2
    isplitl [HS]; · iexact HS
    iintro ⟨H0, H1, H2, HS⟩
    isplitl [HS Hrest]
    · isplitl [HS]; · iexact HS
      iexact Hrest
    isplitl [Ho]; · iexact Ho
    isplitl [H0]; · iexact H0
    isplitl [H1]; · iexact H1
    iexists _; iexact H2
  · have hf : ¬first0 (grid0.coords t) := fun h => h0 ((hfirst0 t).mp h)
    rw [Phi0_pos V c _ _ h0, accAt0_pos V c t h0]
    by_cases h1 : t.val = 31
    · have hl : last0 (grid0.coords t) := (hlast0 t).mpr h1
      rw [show (dat0 V c).leavesExact 2 t = owns (c : Thread nD τ) (ms0_2 t) fullShare ((dat0 V c).after 2 t) from by
        unfold Dat.leavesExact; rw [liveAt0_2 t hl], after0_2, accAt0_pos V c t h0]
      iintro ⟨⟨HS, Hrest⟩, Ho, ⟨%d0, H0⟩, ⟨%d1, H1⟩, ⟨%d2, H2⟩⟩
      iapply (sound0_C c Set.univ (grid0.coords t) hf hl _ _ _ _ _ _ _ _ (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · have hl : ¬last0 (grid0.coords t) := fun h => h1 ((hlast0 t).mp h)
      rw [Dat.leavesExact_idle (dat0 V c) 2 t (idleAt0_2 t hl) (noFlush0_2 t hl)]
      iintro ⟨⟨HS, Hrest⟩, Ho, ⟨%d0, H0⟩, ⟨%d1, H1⟩, ⟨%d2, H2⟩⟩
      iapply (sound0_B c Set.univ (grid0.coords t) hf hl _ _ _ _ _ _ _ _ (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The scoped buffers no window stages make the invariant before the first point, and the invariant after the last
    point gives them back. -/
theorem hin0 (c : Dev nD) : (Pipeline.scopedRest (Ix := Unit) (Name := ℕ) (U := UR sig nD τ) (Lvl := ℕ) (Val := Elt F) spec0 c : sProp 𝕄) ⊢ (dat0 V c).Φ 0 := by
  rw [show (dat0 V c).Φ 0 = Phi0 V c 0 (Nat.zero_le _) from rfl, Phi0_zero V c 0 _ rfl, scopedRest0_split]
theorem hout0 (c : Dev nD) : (dat0 V c).Φ (Fin.last cfg0.N) ⊢ (Pipeline.scopedRest (Ix := Unit) (Name := ℕ) (U := UR sig nD τ) (Lvl := ℕ) (Val := Elt F) spec0 c : sProp 𝕄) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), scopedRest0_split]
  iintro ⟨HS, Hr⟩
  isplitl [HS]
  · iexists _; iexact HS
  iexact Hr

end

end Cert.KernelIdeal.Hand

end
-- ==== Proof.IdealCall1.lean ====
import proofs.«152176_j15796889715484_1_alg».proof.Proof.Gen.KernelIdeal.Launch
import proofs.«152176_j15796889715484_1_alg».proof.Proof.Gen.KernelIdeal.Skeleton
import proofs.«152176_j15796889715484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 1 at one grid point, and the accumulator it carries from point to point.

At every point the body adds the point's partial sum to a 1×1 accumulator kept in a scratch buffer: the accumulator is
reset to zero at the first point of the grid, and copied into the 1×1 output block at the last point. -/

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
end

/-! ## The two conditions of the body, decided over the grid -/

/-- "This is the first point of the grid", as the body computes it from the coordinates. -/
abbrev first1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hfirst1 : ∀ t : Fin cfg1.N, first1 (grid1.coords t) ↔ t.val = 0 :=
  (by decide +kernel : ∀ t : Fin grid1.N, first1 (grid1.coords t) ↔ t.val = 0)
/-- "This is the last point of the grid". -/
abbrev last1 (i : grid1.Coords) : Prop := k1_cond2 i = 1#1
theorem hlast1 : ∀ t : Fin cfg1.N, last1 (grid1.coords t) ↔ t.val = 31 :=
  (by decide +kernel : ∀ t : Fin grid1.N, last1 (grid1.coords t) ↔ t.val = 31)

/-- The input windows are never idle; the output window is idle, and not written back, everywhere but at the last point. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem liveAt1_2 : ∀ t : Fin cfg1.N, last1 (grid1.coords t) → cfg1.idle 2 (grid1.coords t) = false := by decide +kernel

/-- Each window's current staging memref at point `t`, and the scratch accumulator. -/
abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0

/-! ## The body's triple, case by case -/

/-- The accumulator after the body, from the two blocks and the accumulator before it. -/
def step1 (x : Vec F S1024x2048 .f32) (y : Vec F S512x2048 .f32) (a : Vec F S1x1 .f32) : Vec F S1x1 .f32 :=
  k1_pay1 (k1_pay3 x y a)

theorem zeros2_1 : (![0, 0] : Fin 2 → Nat) = fun _ => 0 := by funext a; fin_cases a <;> rfl

theorem cover11_1 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

set_option maxHeartbeats 1000000 in
/-- A point that is neither the first nor the last: the accumulator takes one step, the output block is untouched. -/
theorem sound1_B (c : Dev nD) (E : Set ℕ) (i : grid1.Coords) (hf : ¬first1 i) (hl : ¬last1 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step1 x y a)) -∗ K ⟨⟩))
      ⊢ wp frame (wpE (defs₀ (F := F)) Variants.none c none) E (cc1__kernel_sum_body i arg2 harg2 arg3 harg3 arg4 harg4 arg5 harg5) K := by
  simp only [cc1__kernel_sum_body_eq_skeleton]; unfold cc1__kernel_sum_body_skel; simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (cover11_1 _), View.canon_unit_zero zeros2_1]
  unfold step1
  simp only [View.readAt_eq_ld, harg2.read_unread, harg3.read_unread, harg5.read_unread,
    View.ld_unit_zero (S := S1024x2048) zeros2_1, View.ld_unit_zero (S := S512x2048) zeros2_1, View.ld_unit_zero (S := S1x1) zeros2_1]

theorem mem11_1 (p0 : Vec F S1x1 .f32) (y : S1x1.Idx) : y ∈ (Rect.unit (s := S1x1) ![0, 0] S1x1.size inb_S1x1_S1x1_0_0).set := by
  obtain ⟨pc, hpc, hy⟩ := cover11_1 p0 y
  simp only [List.mem_singleton] at hpc
  subst hpc; exact hy

theorem coverHead_1 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, mem11_1 p0 y⟩

set_option maxHeartbeats 1000000 in
/-- The first point of the grid: the accumulator is reset to zero and takes one step, the output block is untouched. -/
theorem sound1_A (c : Dev nD) (E : Set ℕ) (i : grid1.Coords) (hf : first1 i) (hl : ¬last1 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step1 x y (k1_pay2 (F := F)))) -∗ K ⟨⟩))
      ⊢ wp frame (wpE (defs₀ (F := F)) Variants.none c none) E (cc1__kernel_sum_body i arg2 harg2 arg3 harg3 arg4 harg4 arg5 harg5) K := by
  simp only [cc1__kernel_sum_body_eq_skeleton]; unfold cc1__kernel_sum_body_skel; simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [View.read_writes_eq_canon _ _ _ (coverHead_1 _ _), View.canon_cons_unit_zero zeros2_1]
  unfold step1
  simp only [View.readAt_eq_ld, harg2.read_unread, harg3.read_unread, harg5.read_unread, View.readCov_unit_zero (S := S1x1) _ zeros2_1,
    View.ld_unit_zero (S := S1024x2048) zeros2_1, View.ld_unit_zero (S := S512x2048) zeros2_1, View.ld_unit_zero (S := S1x1) zeros2_1]

set_option maxHeartbeats 1000000 in
/-- The last point of the grid: the accumulator takes one step and is copied into the output block. -/
theorem sound1_C (c : Dev nD) (E : Set ℕ) (i : grid1.Coords) (hf : ¬first1 i) (hl : last1 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (step1 x y a)
            ∗ owns (c : Thread nD τ) arg5 fullShare (step1 x y a)) -∗ K ⟨⟩))
      ⊢ wp frame (wpE (defs₀ (F := F)) Variants.none c none) E (cc1__kernel_sum_body i arg2 harg2 arg3 harg3 arg4 harg4 arg5 harg5) K := by
  simp only [cc1__kernel_sum_body_eq_skeleton]; unfold cc1__kernel_sum_body_skel; simp only [k1_part1_eq_skeleton]; unfold k1_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [View.read_writes_eq_canon _ _ _ (coverHead_1 _ _), View.canon_cons_unit_zero zeros2_1]
    unfold step1
    simp only [View.readAt_eq_ld, harg2.read_unread, harg3.read_unread, harg5.read_unread, View.readCov_unit_zero (S := S1x1) _ zeros2_1,
      View.ld_unit_zero (S := S1024x2048) zeros2_1, View.ld_unit_zero (S := S512x2048) zeros2_1, View.ld_unit_zero (S := S1x1) zeros2_1]
  iexists _; isplitr
  swap; · iexact H5
  ipureintro
  sl_unfold_run_names
  rw [View.read_writes_eq_canon _ _ _ (coverHead_1 _ _), View.canon_cons_unit_zero zeros2_1]
  unfold step1
  simp only [View.readAt_eq_ld, harg2.read_unread, harg3.read_unread, harg5.read_unread, View.readCov_unit_zero (S := S1x1) _ zeros2_1,
    View.ld_unit_zero (S := S1024x2048) zeros2_1, View.ld_unit_zero (S := S512x2048) zeros2_1, View.ld_unit_zero (S := S1x1) zeros2_1]

/-! ## The accumulator point by point, the invariant and the proof data -/

/-- The scoped buffers that are neither a staging buffer of this call nor its accumulator, each at some contents. -/
def others1 (c : Dev nD) : sProp 𝕄 :=
  bigSep ((((Finset.univ.filter fun b : Ref sig .tc => b.isScoped) \ Finset.univ.image (Pipeline.stageRef spec1)).erase cc1_scratch0))
    fun b => iprop(∃ f : Buf (Elt F) ((c : Thread nD τ).loc b), ((c : Thread nD τ).loc b) ↦{fullShare} f)

/-- The scoped buffers no window stages are the accumulator, at some contents, and the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ others1 c) := by
  unfold Pipeline.scopedRest others1
  rw [bigSep_erase (i := cc1_scratch0) (by decide)]
  simp only [scM1, owns_whole]
  rfl

section
variable (V : (c : Dev nD) → (b : Ref sig .tc) → Buf (Elt F) ((c : Thread nD τ).loc b))

/-- The accumulator after the body at position `n`: from zero at the first point, one step per point. -/
def accAt1 (c : Dev nD) : (n : ℕ) → n < cfg1.N → Vec F S1x1 .f32
  | 0, hn => step1 (iblk1 V c 0 ⟨0, hn⟩) (iblk1 V c 1 ⟨0, hn⟩) (k1_pay2 (F := F))
  | n + 1, hn => step1 (iblk1 V c 0 ⟨n + 1, hn⟩) (iblk1 V c 1 ⟨n + 1, hn⟩) (accAt1 c n (Nat.lt_of_succ_lt hn))

theorem accAt1_zero (c : Dev nD) (t : Fin cfg1.N) (h : t.val = 0) :
    accAt1 V c t.val t.isLt = step1 (iblk1 V c 0 t) (iblk1 V c 1 t) (k1_pay2 (F := F)) := by
  obtain ⟨n, hn⟩ := t
  cases n with
  | zero => rfl
  | succ n => exact absurd h (Nat.succ_ne_zero n)

theorem accAt1_pos (c : Dev nD) (t : Fin cfg1.N) (h : t.val ≠ 0) :
    accAt1 V c t.val t.isLt = step1 (iblk1 V c 0 t) (iblk1 V c 1 t) (accAt1 V c (t.val - 1) (Nat.lt_of_le_of_lt (Nat.sub_le _ _) t.isLt)) := by
  obtain ⟨n, hn⟩ := t
  cases n with
  | zero => exact absurd rfl h
  | succ n => rfl

/-- The invariant before position `n`: the accumulator at anything before the first point, afterwards at what the point
    before left; the other scoped buffers at anything. -/
def Phi1 (c : Dev nD) : (n : ℕ) → n ≤ cfg1.N → sProp 𝕄
  | 0, _ => iprop((∃ d, owns (c : Thread nD τ) scM1 fullShare d) ∗ others1 c)
  | n + 1, hn => iprop(owns (c : Thread nD τ) scM1 fullShare (accAt1 V c n hn) ∗ others1 c)

theorem Phi1_zero (c : Dev nD) (n : ℕ) (h : n ≤ cfg1.N) (hz : n = 0) :
    Phi1 V c n h = iprop((∃ d, owns (c : Thread nD τ) scM1 fullShare d) ∗ others1 c) := by
  subst hz; rfl
theorem Phi1_succ (c : Dev nD) (n : ℕ) (hn : n < cfg1.N) :
    Phi1 V c (n + 1) hn = iprop(owns (c : Thread nD τ) scM1 fullShare (accAt1 V c n hn) ∗ others1 c) := rfl
theorem Phi1_pos (c : Dev nD) (n : ℕ) (h : n ≤ cfg1.N) (hz : n ≠ 0) :
    Phi1 V c n h = iprop(owns (c : Thread nD τ) scM1 fullShare (accAt1 V c (n - 1) (by omega)) ∗ others1 c) := by
  cases n with
  | zero => exact absurd rfl hz
  | succ n => rfl

/-- The proof data of pallas_call 1 on core `c`: the arrays as the call finds them; after the body each input's buffer at
    its block and the output's at the accumulator; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the point is the first, the last or neither, and that
    case's triple applies; the invariant hands the accumulator over at what the point before left and takes it back at
    this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  rw [Phi1_castSucc V c t]
  by_cases h0 : t.val = 0
  · have hl : ¬last1 (grid1.coords t) := fun h => by have := (hlast1 t).mp h; omega
    rw [Dat.leavesExact_idle (dat1 V c) 2 t (idleAt1_2 t hl) (noFlush1_2 t hl)]
    rw [Phi1_zero V c _ _ h0, accAt1_zero V c t h0]
    iintro ⟨⟨⟨%a, HS⟩, Hrest⟩, Ho, ⟨%d0, H0⟩, ⟨%d1, H1⟩, ⟨%d2, H2⟩⟩
    iapply (sound1_A c Set.univ (grid1.coords t) ((hfirst1 t).mpr h0) hl _ _ _ _ _ _ _ _ (iblk1 V c 0 t) (iblk1 V c 1 t) _ a _)
    isplitl [H0]; · iexact H0
    isplitl [H1]; · iexact H1
    isplitl [H2]; · iexact H2
    isplitl [HS]; · iexact HS
    iintro ⟨H0, H1, H2, HS⟩
    isplitl [HS Hrest]
    · isplitl [HS]; · iexact HS
      iexact Hrest
    isplitl [Ho]; · iexact Ho
    isplitl [H0]; · iexact H0
    isplitl [H1]; · iexact H1
    iexists _; iexact H2
  · have hf : ¬first1 (grid1.coords t) := fun h => h0 ((hfirst1 t).mp h)
    rw [Phi1_pos V c _ _ h0, accAt1_pos V c t h0]
    by_cases h1 : t.val = 31
    · have hl : last1 (grid1.coords t) := (hlast1 t).mpr h1
      rw [show (dat1 V c).leavesExact 2 t = owns (c : Thread nD τ) (ms1_2 t) fullShare ((dat1 V c).after 2 t) from by
        unfold Dat.leavesExact; rw [liveAt1_2 t hl], after1_2, accAt1_pos V c t h0]
      iintro ⟨⟨HS, Hrest⟩, Ho, ⟨%d0, H0⟩, ⟨%d1, H1⟩, ⟨%d2, H2⟩⟩
      iapply (sound1_C c Set.univ (grid1.coords t) hf hl _ _ _ _ _ _ _ _ (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · have hl : ¬last1 (grid1.coords t) := fun h => h1 ((hlast1 t).mp h)
      rw [Dat.leavesExact_idle (dat1 V c) 2 t (idleAt1_2 t hl) (noFlush1_2 t hl)]
      iintro ⟨⟨HS, Hrest⟩, Ho, ⟨%d0, H0⟩, ⟨%d1, H1⟩, ⟨%d2, H2⟩⟩
      iapply (sound1_B c Set.univ (grid1.coords t) hf hl _ _ _ _ _ _ _ _ (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The scoped buffers no window stages make the invariant before the first point, and the invariant after the last
    point gives them back. -/
theorem hin1 (c : Dev nD) : (Pipeline.scopedRest (Ix := Unit) (Name := ℕ) (U := UR sig nD τ) (Lvl := ℕ) (Val := Elt F) spec1 c : sProp 𝕄) ⊢ (dat1 V c).Φ 0 := by
  rw [show (dat1 V c).Φ 0 = Phi1 V c 0 (Nat.zero_le _) from rfl, Phi1_zero V c 0 _ rfl, scopedRest1_split]
theorem hout1 (c : Dev nD) : (dat1 V c).Φ (Fin.last cfg1.N) ⊢ (Pipeline.scopedRest (Ix := Unit) (Name := ℕ) (U := UR sig nD τ) (Lvl := ℕ) (Val := Elt F) spec1 c : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega), scopedRest1_split]
  iintro ⟨HS, Hr⟩
  isplitl [HS]
  · iexists _; iexact HS
  iexact Hr

end

end Cert.KernelIdeal.Hand

end
-- ==== Proof.IdealCall2.lean ====
import proofs.«152176_j15796889715484_1_alg».proof.Proof.Gen.KernelIdeal.Launch
import proofs.«152176_j15796889715484_1_alg».proof.Proof.Gen.KernelIdeal.Skeleton
import proofs.«152176_j15796889715484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body of pallas_call 2 at one grid point, and the accumulator it carries from point to point.

At every point the body adds the point's partial sum to a 1×1 accumulator kept in a scratch buffer: the accumulator is
reset to zero at the first point of the grid, and copied into the 1×1 output block at the last point. -/

section
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
end

/-! ## The two conditions of the body, decided over the grid -/

/-- "This is the first point of the grid", as the body computes it from the coordinates. -/
abbrev first2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hfirst2 : ∀ t : Fin cfg2.N, first2 (grid2.coords t) ↔ t.val = 0 :=
  (by decide +kernel : ∀ t : Fin grid2.N, first2 (grid2.coords t) ↔ t.val = 0)
/-- "This is the last point of the grid". -/
abbrev last2 (i : grid2.Coords) : Prop := k2_cond2 i = 1#1
theorem hlast2 : ∀ t : Fin cfg2.N, last2 (grid2.coords t) ↔ t.val = 31 :=
  (by decide +kernel : ∀ t : Fin grid2.N, last2 (grid2.coords t) ↔ t.val = 31)

/-- The input windows are never idle; the output window is idle, and not written back, everywhere but at the last point. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬last2 (grid2.coords t) → cfg2.idle 2 (grid2.coords t) = true := by decide +kernel
theorem noFlush2_2 : ∀ t : Fin cfg2.N, ¬last2 (grid2.coords t) → (cfg2.win 2).flush t = false := by decide +kernel
theorem liveAt2_2 : ∀ t : Fin cfg2.N, last2 (grid2.coords t) → cfg2.idle 2 (grid2.coords t) = false := by decide +kernel

/-- Each window's current staging memref at point `t`, and the scratch accumulator. -/
abbrev ms2_0 (t : Fin cfg2.N) : Memref sig .tc .vmem S1024x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0

/-! ## The body's triple, case by case -/

/-- The accumulator after the body, from the two blocks and the accumulator before it. -/
def step2 (x : Vec F S1024x2048 .f32) (y : Vec F S512x2048 .f32) (a : Vec F S1x1 .f32) : Vec F S1x1 .f32 :=
  k2_pay1 (k2_pay3 x y a)

theorem zeros2_2 : (![0, 0] : Fin 2 → Nat) = fun _ => 0 := by funext a; fin_cases a <;> rfl

theorem cover11_2 (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  View.cover_of_tiled [⟨Rect.unit (s := S1x1) ![0, 0] S1x1.size inb_S1x1_S1x1_0_0, p0⟩] S1x1.size (by rfl) y

set_option maxHeartbeats 1000000 in
/-- A point that is neither the first nor the last: the accumulator takes one step, the output block is untouched. -/
theorem sound2_B (c : Dev nD) (E : Set ℕ) (i : grid2.Coords) (hf : ¬first2 i) (hl : ¬last2 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step2 x y a)) -∗ K ⟨⟩))
      ⊢ wp frame (wpE (defs₀ (F := F)) Variants.none c none) E (cc2__kernel_sum_body i arg2 harg2 arg3 harg3 arg4 harg4 arg5 harg5) K := by
  simp only [cc2__kernel_sum_body_eq_skeleton]; unfold cc2__kernel_sum_body_skel; simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  rw [View.read_writes_eq_canon _ _ _ (cover11_2 _), View.canon_unit_zero zeros2_2]
  unfold step2
  simp only [View.readAt_eq_ld, harg2.read_unread, harg3.read_unread, harg5.read_unread,
    View.ld_unit_zero (S := S1024x2048) zeros2_2, View.ld_unit_zero (S := S512x2048) zeros2_2, View.ld_unit_zero (S := S1x1) zeros2_2]

theorem mem11_2 (p0 : Vec F S1x1 .f32) (y : S1x1.Idx) : y ∈ (Rect.unit (s := S1x1) ![0, 0] S1x1.size inb_S1x1_S1x1_0_0).set := by
  obtain ⟨pc, hpc, hy⟩ := cover11_2 p0 y
  simp only [List.mem_singleton] at hpc
  subst hpc; exact hy

theorem coverHead_2 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, mem11_2 p0 y⟩

set_option maxHeartbeats 1000000 in
/-- The first point of the grid: the accumulator is reset to zero and takes one step, the output block is untouched. -/
theorem sound2_A (c : Dev nD) (E : Set ℕ) (i : grid2.Coords) (hf : first2 i) (hl : ¬last2 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare o
            ∗ owns (c : Thread nD τ) arg5 fullShare (step2 x y (k2_pay2 (F := F)))) -∗ K ⟨⟩))
      ⊢ wp frame (wpE (defs₀ (F := F)) Variants.none c none) E (cc2__kernel_sum_body i arg2 harg2 arg3 harg3 arg4 harg4 arg5 harg5) K := by
  simp only [cc2__kernel_sum_body_eq_skeleton]; unfold cc2__kernel_sum_body_skel; simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro
  sl_unfold_run_names
  rw [View.read_writes_eq_canon _ _ _ (coverHead_2 _ _), View.canon_cons_unit_zero zeros2_2]
  unfold step2
  simp only [View.readAt_eq_ld, harg2.read_unread, harg3.read_unread, harg5.read_unread, View.readCov_unit_zero (S := S1x1) _ zeros2_2,
    View.ld_unit_zero (S := S1024x2048) zeros2_2, View.ld_unit_zero (S := S512x2048) zeros2_2, View.ld_unit_zero (S := S1x1) zeros2_2]

set_option maxHeartbeats 1000000 in
/-- The last point of the grid: the accumulator takes one step and is copied into the output block. -/
theorem sound2_C (c : Dev nD) (E : Set ℕ) (i : grid2.Coords) (hf : ¬first2 i) (hl : last2 i)
    (arg2 : Memref sig .tc .vmem S1024x2048 .f32) (harg2 : arg2.IsWhole) (arg3 : Memref sig .tc .vmem S512x2048 .f32) (harg3 : arg3.IsWhole)
    (arg4 : Memref sig .tc .vmem S1x1 .f32) (harg4 : arg4.IsWhole) (arg5 : Memref sig .tc .vmem S1x1 .f32) (harg5 : arg5.IsWhole)
    (x : Vec F S1024x2048 .f32) (y : Vec F S512x2048 .f32) (o : Vec F S1x1 .f32) (a : Vec F S1x1 .f32) (K : PUnit → sProp 𝕄) :
    iprop(owns (c : Thread nD τ) arg2 fullShare x ∗ owns (c : Thread nD τ) arg3 fullShare y ∗ owns (c : Thread nD τ) arg4 fullShare o
        ∗ owns (c : Thread nD τ) arg5 fullShare a
        ∗ (iprop(owns (c : Thread nD τ) arg2 fullShare x ∗ owns (c : Thread nD τ) arg3 fullShare y ∗ owns (c : Thread nD τ) arg4 fullShare (step2 x y a)
            ∗ owns (c : Thread nD τ) arg5 fullShare (step2 x y a)) -∗ K ⟨⟩))
      ⊢ wp frame (wpE (defs₀ (F := F)) Variants.none c none) E (cc2__kernel_sum_body i arg2 harg2 arg3 harg3 arg4 harg4 arg5 harg5) K := by
  simp only [cc2__kernel_sum_body_eq_skeleton]; unfold cc2__kernel_sum_body_skel; simp only [k2_part1_eq_skeleton]; unfold k2_part1_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    sl_unfold_run_names
    rw [View.read_writes_eq_canon _ _ _ (coverHead_2 _ _), View.canon_cons_unit_zero zeros2_2]
    unfold step2
    simp only [View.readAt_eq_ld, harg2.read_unread, harg3.read_unread, harg5.read_unread, View.readCov_unit_zero (S := S1x1) _ zeros2_2,
      View.ld_unit_zero (S := S1024x2048) zeros2_2, View.ld_unit_zero (S := S512x2048) zeros2_2, View.ld_unit_zero (S := S1x1) zeros2_2]
  iexists _; isplitr
  swap; · iexact H5
  ipureintro
  sl_unfold_run_names
  rw [View.read_writes_eq_canon _ _ _ (coverHead_2 _ _), View.canon_cons_unit_zero zeros2_2]
  unfold step2
  simp only [View.readAt_eq_ld, harg2.read_unread, harg3.read_unread, harg5.read_unread, View.readCov_unit_zero (S := S1x1) _ zeros2_2,
    View.ld_unit_zero (S := S1024x2048) zeros2_2, View.ld_unit_zero (S := S512x2048) zeros2_2, View.ld_unit_zero (S := S1x1) zeros2_2]

/-! ## The accumulator point by point, the invariant and the proof data -/

/-- The scoped buffers that are neither a staging buffer of this call nor its accumulator, each at some contents. -/
def others2 (c : Dev nD) : sProp 𝕄 :=
  bigSep ((((Finset.univ.filter fun b : Ref sig .tc => b.isScoped) \ Finset.univ.image (Pipeline.stageRef spec2)).erase cc2_scratch0))
    fun b => iprop(∃ f : Buf (Elt F) ((c : Thread nD τ).loc b), ((c : Thread nD τ).loc b) ↦{fullShare} f)

/-- The scoped buffers no window stages are the accumulator, at some contents, and the others. -/
theorem scopedRest2_split (c : Dev nD) :
    (Pipeline.scopedRest (Ix := Unit) (Name := ℕ) (U := UR sig nD τ) (Lvl := ℕ) (Val := Elt F) spec2 c : sProp 𝕄)
      = iprop((∃ d, owns (c : Thread nD τ) scM2 fullShare d) ∗ others2 c) := by
  unfold Pipeline.scopedRest others2
  rw [bigSep_erase (i := cc2_scratch0) (by decide)]
  simp only [scM2, owns_whole]
  rfl

section
variable (V : (c : Dev nD) → (b : Ref sig .tc) → Buf (Elt F) ((c : Thread nD τ).loc b))

/-- The accumulator after the body at position `n`: from zero at the first point, one step per point. -/
def accAt2 (c : Dev nD) : (n : ℕ) → n < cfg2.N → Vec F S1x1 .f32
  | 0, hn => step2 (iblk2 V c 0 ⟨0, hn⟩) (iblk2 V c 1 ⟨0, hn⟩) (k2_pay2 (F := F))
  | n + 1, hn => step2 (iblk2 V c 0 ⟨n + 1, hn⟩) (iblk2 V c 1 ⟨n + 1, hn⟩) (accAt2 c n (Nat.lt_of_succ_lt hn))

theorem accAt2_zero (c : Dev nD) (t : Fin cfg2.N) (h : t.val = 0) :
    accAt2 V c t.val t.isLt = step2 (iblk2 V c 0 t) (iblk2 V c 1 t) (k2_pay2 (F := F)) := by
  obtain ⟨n, hn⟩ := t
  cases n with
  | zero => rfl
  | succ n => exact absurd h (Nat.succ_ne_zero n)

theorem accAt2_pos (c : Dev nD) (t : Fin cfg2.N) (h : t.val ≠ 0) :
    accAt2 V c t.val t.isLt = step2 (iblk2 V c 0 t) (iblk2 V c 1 t) (accAt2 V c (t.val - 1) (Nat.lt_of_le_of_lt (Nat.sub_le _ _) t.isLt)) := by
  obtain ⟨n, hn⟩ := t
  cases n with
  | zero => exact absurd rfl h
  | succ n => rfl

/-- The invariant before position `n`: the accumulator at anything before the first point, afterwards at what the point
    before left; the other scoped buffers at anything. -/
def Phi2 (c : Dev nD) : (n : ℕ) → n ≤ cfg2.N → sProp 𝕄
  | 0, _ => iprop((∃ d, owns (c : Thread nD τ) scM2 fullShare d) ∗ others2 c)
  | n + 1, hn => iprop(owns (c : Thread nD τ) scM2 fullShare (accAt2 V c n hn) ∗ others2 c)

theorem Phi2_zero (c : Dev nD) (n : ℕ) (h : n ≤ cfg2.N) (hz : n = 0) :
    Phi2 V c n h = iprop((∃ d, owns (c : Thread nD τ) scM2 fullShare d) ∗ others2 c) := by
  subst hz; rfl
theorem Phi2_succ (c : Dev nD) (n : ℕ) (hn : n < cfg2.N) :
    Phi2 V c (n + 1) hn = iprop(owns (c : Thread nD τ) scM2 fullShare (accAt2 V c n hn) ∗ others2 c) := rfl
theorem Phi2_pos (c : Dev nD) (n : ℕ) (h : n ≤ cfg2.N) (hz : n ≠ 0) :
    Phi2 V c n h = iprop(owns (c : Thread nD τ) scM2 fullShare (accAt2 V c (n - 1) (by omega)) ∗ others2 c) := by
  cases n with
  | zero => exact absurd rfl hz
  | succ n => rfl

/-- The proof data of pallas_call 2 on core `c`: the arrays as the call finds them; after the body each input's buffer at
    its block and the output's at the accumulator; the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => accAt2 V c t.val t.isLt
  Φ t := Phi2 V c t.val (Nat.le_of_lt_succ t.isLt)
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]
theorem Phi2_castSucc (c : Dev nD) (t : Fin cfg2.N) :
    (dat2 V c).Φ t.castSucc = Phi2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = accAt2 V c t.val t.isLt := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks; the point is the first, the last or neither, and that
    case's triple applies; the invariant hands the accumulator over at what the point before left and takes it back at
    this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 32 := lt_of_lt_of_eq t.isLt (show cfg2.N = 32 from N_2)
  rw [Phi2_castSucc V c t]
  by_cases h0 : t.val = 0
  · have hl : ¬last2 (grid2.coords t) := fun h => by have := (hlast2 t).mp h; omega
    rw [Dat.leavesExact_idle (dat2 V c) 2 t (idleAt2_2 t hl) (noFlush2_2 t hl)]
    rw [Phi2_zero V c _ _ h0, accAt2_zero V c t h0]
    iintro ⟨⟨⟨%a, HS⟩, Hrest⟩, Ho, ⟨%d0, H0⟩, ⟨%d1, H1⟩, ⟨%d2, H2⟩⟩
    iapply (sound2_A c Set.univ (grid2.coords t) ((hfirst2 t).mpr h0) hl _ _ _ _ _ _ _ _ (iblk2 V c 0 t) (iblk2 V c 1 t) _ a _)
    isplitl [H0]; · iexact H0
    isplitl [H1]; · iexact H1
    isplitl [H2]; · iexact H2
    isplitl [HS]; · iexact HS
    iintro ⟨H0, H1, H2, HS⟩
    isplitl [HS Hrest]
    · isplitl [HS]; · iexact HS
      iexact Hrest
    isplitl [Ho]; · iexact Ho
    isplitl [H0]; · iexact H0
    isplitl [H1]; · iexact H1
    iexists _; iexact H2
  · have hf : ¬first2 (grid2.coords t) := fun h => h0 ((hfirst2 t).mp h)
    rw [Phi2_pos V c _ _ h0, accAt2_pos V c t h0]
    by_cases h1 : t.val = 31
    · have hl : last2 (grid2.coords t) := (hlast2 t).mpr h1
      rw [show (dat2 V c).leavesExact 2 t = owns (c : Thread nD τ) (ms2_2 t) fullShare ((dat2 V c).after 2 t) from by
        unfold Dat.leavesExact; rw [liveAt2_2 t hl], after2_2, accAt2_pos V c t h0]
      iintro ⟨⟨HS, Hrest⟩, Ho, ⟨%d0, H0⟩, ⟨%d1, H1⟩, ⟨%d2, H2⟩⟩
      iapply (sound2_C c Set.univ (grid2.coords t) hf hl _ _ _ _ _ _ _ _ (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexact H2
    · have hl : ¬last2 (grid2.coords t) := fun h => h1 ((hlast2 t).mp h)
      rw [Dat.leavesExact_idle (dat2 V c) 2 t (idleAt2_2 t hl) (noFlush2_2 t hl)]
      iintro ⟨⟨HS, Hrest⟩, Ho, ⟨%d0, H0⟩, ⟨%d1, H1⟩, ⟨%d2, H2⟩⟩
      iapply (sound2_B c Set.univ (grid2.coords t) hf hl _ _ _ _ _ _ _ _ (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hrest]
      · isplitl [HS]; · iexact HS
        iexact Hrest
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- The scoped buffers no window stages make the invariant before the first point, and the invariant after the last
    point gives them back. -/
theorem hin2 (c : Dev nD) : (Pipeline.scopedRest (Ix := Unit) (Name := ℕ) (U := UR sig nD τ) (Lvl := ℕ) (Val := Elt F) spec2 c : sProp 𝕄) ⊢ (dat2 V c).Φ 0 := by
  rw [show (dat2 V c).Φ 0 = Phi2 V c 0 (Nat.zero_le _) from rfl, Phi2_zero V c 0 _ rfl, scopedRest2_split]
theorem hout2 (c : Dev nD) : (dat2 V c).Φ (Fin.last cfg2.N) ⊢ (Pipeline.scopedRest (Ix := Unit) (Name := ℕ) (U := UR sig nD τ) (Lvl := ℕ) (Val := Elt F) spec2 c : sProp 𝕄) := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 32 := N_2; omega), scopedRest2_split]
  iintro ⟨HS, Hr⟩
  isplitl [HS]
  · iexists _; iexact HS
  iexact Hr

end

end Cert.KernelIdeal.Hand

end
-- ==== Proof.IdealShare.lean ====
/-
  Two windows reading one array: the array's full share dealt in halves.

  Calls 0 and 2 of the program hand one argument array to their two input windows and a result array to their output
  window.  At a call's entry the core holds every unscoped buffer whole at the full share.  The shared array's full
  share is the composite of its left and right halves: the left half is dealt to window 0, the right half to window 1,
  and the result array goes whole to window 2; everything else is the unscoped rest.  At the exit the two halves, which
  are at the same contents, are put together again.
-/
import proofs.«152176_j15796889715484_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Call 0 -/

/-- The buffers behind call 0's windows: the shared argument array and the result array. -/
theorem arrImage0 : Finset.univ.image (Pipeline.arrRef spec0) = {main_arg1, main_v0} := by decide

set_option maxHeartbeats 50000 in
/-- ENTRY: of the core's unscoped buffers, the shared array's left half goes to window 0, its right half to window 1,
    the result array whole to window 2; the other buffers are the unscoped rest. -/
theorem entry_arrays0 (c : Dev nD) (dat : Pipeline.Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (hA : ∀ w, dat.A w = V (Pipeline.arrRef spec0 w)) :
    (unscopedBufs c V : sProp 𝕄)
      ⊢ iprop(dat.arrays (dat.arrAt · 0) ∗ Pipeline.unscopedRest (Ix := Unit) (Name := ℕ) (U := UR sig nD τ) (Lvl := ℕ) spec0 c V) := by
  rw [Pipeline.unscopedBufs_split₀ cfgs 0 winFacts₀0.arr_unscoped c V]
  refine sep_mono ?_ .rfl
  have hs0 : dat.share 0 = fullShare.left := (if_neg (by decide)).trans hq0
  have hs1 : dat.share 1 = fullShare.right := (if_neg (by decide)).trans hq1
  have hs2 : dat.share 2 = fullShare := if_pos (by decide)
  unfold Pipeline.arrBufs Dat.arrays
  rw [show Finset.univ.image (Pipeline.arrRef (cfgs 0).spec) = {main_arg1, main_v0} from arrImage0, bigSep_insert (by decide), bigSep_singleton, bigSep_W0, hs0, hs1, hs2,
    (arr_whole0 0).set_eq_univ, (arr_whole0 2).set_eq_univ]
  have e0 : (fun x => dat.arrAt x 0) 0 = V main_arg1 := hA 0
  have e1 : (fun x => dat.arrAt x 0) 1 = V main_arg1 := hA 1
  have e2 : (fun x => dat.arrAt x 0) 2 = V main_v0 := hA 2
  rw [e0, e1, e2]
  exact (sep_mono (pointsTo_share (PosShare.mem_left_op_right fullShare)).1 .rfl).trans sep_assoc

set_option maxHeartbeats 50000 in
/-- EXIT: window 0's left half and window 1's right half of the shared array, at the same contents, are the array whole at
    the full share again; with the result array and the unscoped rest they are the core's unscoped buffers, at any
    contents that agree with the windows' on their arrays and with the entry's elsewhere. -/
theorem exit_arrays0 (c : Dev nD) (dat : Pipeline.Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (G : (w : Fin cfg0.W) → Buf (Elt F) ((cfg0.win w).arr.view.loc (c.tc : Thread nD τ)))
    (hG : ∀ w, G w = V' (Pipeline.arrRef spec0 w))
    (hrest : ∀ b, b ∉ Finset.univ.image (Pipeline.arrRef spec0) → V' b = V b) :
    iprop(dat.arrays G ∗ Pipeline.unscopedRest (Ix := Unit) (Name := ℕ) (U := UR sig nD τ) (Lvl := ℕ) spec0 c V)
      ⊢ (unscopedBufs c V' : sProp 𝕄) := by
  rw [Pipeline.unscopedBufs_split₀ cfgs 0 winFacts₀0.arr_unscoped c V']
  refine sep_mono ?_ (Entails.of_eq ?_)
  · have hs0 : dat.share 0 = fullShare.left := (if_neg (by decide)).trans hq0
    have hs1 : dat.share 1 = fullShare.right := (if_neg (by decide)).trans hq1
    have hs2 : dat.share 2 = fullShare := if_pos (by decide)
    unfold Pipeline.arrBufs Dat.arrays
    rw [show Finset.univ.image (Pipeline.arrRef (cfgs 0).spec) = {main_arg1, main_v0} from arrImage0, bigSep_insert (by decide),
      bigSep_singleton, bigSep_W0, hs0, hs1, hs2, (arr_whole0 0).set_eq_univ, (arr_whole0 2).set_eq_univ]
    have e0 : G 0 = V' main_arg1 := hG 0
    have e1 : G 1 = V' main_arg1 := hG 1
    have e2 : G 2 = V' main_v0 := hG 2
    rw [e0, e1, e2]
    exact sep_assoc'.trans (sep_mono (pointsTo_share (PosShare.mem_left_op_right fullShare)).2 .rfl)
  · unfold Pipeline.unscopedRest
    exact bigSep_congr fun b hb => by rw [hrest b (Finset.mem_sdiff.mp hb).2]

/-! ## Call 2 -/

/-- The buffers behind call 2's windows: the shared argument array and the result array. -/
theorem arrImage2 : Finset.univ.image (Pipeline.arrRef spec2) = {main_arg0, main_v4} := by decide

set_option maxHeartbeats 50000 in
/-- ENTRY: of the core's unscoped buffers, the shared array's left half goes to window 0, its right half to window 1,
    the result array whole to window 2; the other buffers are the unscoped rest. -/
theorem entry_arrays2 (c : Dev nD) (dat : Pipeline.Dat τ (Elt F) Unit ℕ (UR sig nD τ) ℕ cfg2 c)
    (hq0 : dat.q 0 = fullShare.left) (hq1 : dat.q 1 = fullShare.right)
    (V : (b : Ref sig .tc) → Buf (Elt F) ((c : Thread nD τ).loc b))
    (hA : ∀ w, dat.A w = V (Pipeline.arrRef spec2 w)) :
    (unscopedBufs c V : sProp 𝕄)
      ⊢ iprop(dat.arrays (dat.arrAt · 0) ∗ Pipeline.unscopedRest (Ix := Unit) (Name := ℕ) (U := UR sig nD τ) (Lvl := ℕ) spec2 c V) := by
  rw [Pipeline.unscopedBufs_split₀ cfgs 2 winFacts₀2.arr_unscoped c V]
  refine sep_mono ?_ .rfl
  have hs0 : dat.share 0 = fullShare.left := (if_neg (by decide)).trans hq0
  have hs1 : dat.share 1 = fullShare.right := (if_neg (by decide)).trans hq1
  have hs2 : dat.share 2 = fullShare := if_pos (by decide)
  unfold Pipeline.arrBufs Dat.arrays
  rw [show Finset.univ.image (Pipeline.arrRef (cfgs 2).spec) = {main_arg0, main_v4} from arrImage2, bigSep_insert (by decide), bigSep_singleton, bigSep_W2, hs0, hs1, hs2,
    (arr_whole2 0).set_eq_univ, (arr_whole2 2).set_eq_univ]
  have e0 : (fun x => dat.arrAt x 0) 0 = V main_arg0 := hA 0
  have e1 : (fun x => dat.arrAt x 0) 1 = V main_arg0 := hA 1
  have e2 : (fun x => dat.arrAt x 0) 2 = V main_v4 := hA 2
  rw [e0, e1, e2]
  exact (sep_mono (pointsTo_share (PosShare.mem_left_op_right fullShare)).1 .rfl).trans sep_assoc

set_option maxHeartbeats 50000 in
/-- EXIT: window 0's left half and window 1's right half of the shared array, at the same contents, are the array whole at
    the full share again; with the result array and the unscoped rest they are the core's unscoped buffers, at any
    contents that agree with the windows' on their arrays and with the entry's elsewhere. -/
theorem exit_arrays2 (c : Dev nD) (dat : Pipeline.Dat τ (Elt F) Unit ℕ (UR sig nD τ) ℕ cfg2 c)
    (hq0 : dat.q 0 = fullShare.left) (hq1 : dat.q 1 = fullShare.right)
    (V V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w))
    (hrest : ∀ b, b ∉ Finset.univ.image (Pipeline.arrRef spec2) → V' b = V b) :
    iprop(dat.arrays G ∗ Pipeline.unscopedRest (Ix := Unit) (Name := ℕ) (U := UR sig nD τ) (Lvl := ℕ) spec2 c V)
      ⊢ (unscopedBufs c V' : sProp 𝕄) := by
  rw [Pipeline.unscopedBufs_split₀ cfgs 2 winFacts₀2.arr_unscoped c V']
  refine sep_mono ?_ (Entails.of_eq ?_)
  · have hs0 : dat.share 0 = fullShare.left := (if_neg (by decide)).trans hq0
    have hs1 : dat.share 1 = fullShare.right := (if_neg (by decide)).trans hq1
    have hs2 : dat.share 2 = fullShare := if_pos (by decide)
    unfold Pipeline.arrBufs Dat.arrays
    rw [show Finset.univ.image (Pipeline.arrRef (cfgs 2).spec) = {main_arg0, main_v4} from arrImage2, bigSep_insert (by decide),
      bigSep_singleton, bigSep_W2, hs0, hs1, hs2, (arr_whole2 0).set_eq_univ, (arr_whole2 2).set_eq_univ]
    have e0 : G 0 = V' main_arg0 := hG 0
    have e1 : G 1 = V' main_arg0 := hG 1
    have e2 : G 2 = V' main_v4 := hG 2
    rw [e0, e1, e2]
    exact sep_assoc'.trans (sep_mono (pointsTo_share (PosShare.mem_left_op_right fullShare)).2 .rfl)
  · unfold Pipeline.unscopedRest
    exact bigSep_congr fun b hb => by rw [hrest b (Finset.mem_sdiff.mp hb).2]

end Cert.KernelIdeal.Hand

end
-- ==== Proof.IdealRunCond.lean ====
/-
  The program's run, read at the result.

  Given, for each of the three kernel regions, a segment record entered from the thread state before it and left at the
  thread state after it, every weakly fair run of the program from a memory with zero counters terminates, and in every
  final memory the result buffer holds what the last valuation gives it, the two argument buffers what they held at the
  launch.
-/
import proofs.«152176_j15796889715484_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

set_option backward.isDefEq.respectTransparency.types false in
/-- For any user algebra, level assignment, launch dues and ghost resources, any rest states `E` the launch makes on
    every core at once (`hE0`) and that end owing nothing (`hE3`), any contents the regions leave (`outs`) and any proof
    data: given, per region K, a segment record entered from the thread state before it and left at the one after it
    (`RK`, `hpreK`, `hpostK`), every weakly fair execution of the program from memory `m` with zero counters terminates,
    and every final memory holds the result `main_v11` at the last valuation's contents and each argument as launched. -/
theorem value_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c)) :
    θ_run defs (onTc (τ := τ) (main (F := F))) ⟨m, fun _ => 0, ρ⟩ (fun r => ∀ c : Dev nD,
      r.2.mem ((c.tc : Thread nD τ).loc main_v11) = V6 m outs c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨hpre0 c, hpost0 c, hpre1 c, hpost1 c, hpre2 c, hpost2 c, sep_mono .rfl (hE3 c)⟩)
    (hinit := ?_) (QY := fun c s => s.mem ((c.tc : Thread nD τ).loc main_v11) = V6 m outs c main_v11 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- at the launch every core holds its unscoped buffers at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- at the end the result buffer and each argument's buffer hold what the last valuation gives them
    unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨h (Proc.devRef .tc main_v11) (Finset.mem_filter.mpr ⟨StableHlo.devRef_mem_tcRefs main_v11, by decide⟩),
        (h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c)⟩
    · iexact HSI

end Cert.KernelIdeal.Hand

end
-- ==== Proof.IdealRun.lean ====
import proofs.«152176_j15796889715484_1_alg».proof.Proof.IdealCall0
import proofs.«152176_j15796889715484_1_alg».proof.Proof.IdealCall1
import proofs.«152176_j15796889715484_1_alg».proof.Proof.IdealCall2
import proofs.«152176_j15796889715484_1_alg».proof.Proof.IdealShare
import proofs.«152176_j15796889715484_1_alg».proof.Proof.Gen.KernelIdeal.Regions
import proofs.«152176_j15796889715484_1_alg».proof.Proof.IdealRunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents from the launch to the return

The program is three pallas_calls, each followed by host operations. Each call changes one buffer only, its 1×1
result, which ends at what the call's last write-back leaves; the host operations between the calls read it. -/

/-- Core `c`'s buffers at launch. -/
abbrev W0 : Dev nD → Valuation τ sig (Elt F) := fun c b => m (c, b)
/-- What the first call leaves in its result. -/
def o1 (c : Dev nD) : Buf (Elt F) ((c : Thread nD τ).loc main_v0) := (dat0 (fun c b => W0 m c b) c).arrAt 2 cfg0.N
/-- After the first call, -/
abbrev W1 : Dev nD → Valuation τ sig (Elt F) := fun c => Function.update (W0 m c) (Proc.devRef .tc main_v0 : DevRef τ sig) (o1 m c)
/-- and the host operations after it. -/
abbrev W2 : Dev nD → Valuation τ sig (Elt F) := fun c => StableHlo.after hostOps1 (W1 m c)
/-- What the second call leaves in its result. -/
def o3 (c : Dev nD) : Buf (Elt F) ((c : Thread nD τ).loc main_v2) := (dat1 (fun c b => W2 m c b) c).arrAt 2 cfg1.N
abbrev W3 : Dev nD → Valuation τ sig (Elt F) := fun c => Function.update (W2 m c) (Proc.devRef .tc main_v2 : DevRef τ sig) (o3 m c)
abbrev W4 : Dev nD → Valuation τ sig (Elt F) := fun c => StableHlo.after hostOps2 (W3 m c)
/-- What the third call leaves in its result. -/
def o5 (c : Dev nD) : Buf (Elt F) ((c : Thread nD τ).loc main_v4) := (dat2 (fun c b => W4 m c b) c).arrAt 2 cfg2.N
abbrev W5 : Dev nD → Valuation τ sig (Elt F) := fun c => Function.update (W4 m c) (Proc.devRef .tc main_v4 : DevRef τ sig) (o5 m c)
abbrev W6 : Dev nD → Valuation τ sig (Elt F) := fun c => StableHlo.after hostOps3 (W5 m c)

/-- The contents the calls leave, as the family the conditional run is stated over. -/
def outs : Outs (F := F) := fun J r c =>
  match J with
  | 1 => Function.update (β := fun r' : Ref sig .tc => Buf (Elt F) ((c : Thread nD τ).loc r')) (fun r' : Ref sig .tc => m ((c : Thread nD τ).loc r')) main_v0 (o1 m c) r
  | 3 => Function.update (β := fun r' : Ref sig .tc => Buf (Elt F) ((c : Thread nD τ).loc r')) (fun r' : Ref sig .tc => m ((c : Thread nD τ).loc r')) main_v2 (o3 m c) r
  | 5 => Function.update (β := fun r' : Ref sig .tc => Buf (Elt F) ((c : Thread nD τ).loc r')) (fun r' : Ref sig .tc => m ((c : Thread nD τ).loc r')) main_v4 (o5 m c) r
  | _ => m ((c : Thread nD τ).loc r)

theorem outs_1 (c : Dev nD) : outs m 1 main_v0 c = o1 m c := by
  simp only [outs, Function.update_self]
theorem outs_3 (c : Dev nD) : outs m 3 main_v2 c = o3 m c := by
  simp only [outs, Function.update_self]
theorem outs_5 (c : Dev nD) : outs m 5 main_v4 c = o5 m c := by
  simp only [outs, Function.update_self]

theorem V1_eq (c : Dev nD) : V1 m (outs m) c = W1 m c := by
  exact congrArg (Function.update (V0 m c) (Proc.devRef .tc main_v0 : DevRef τ sig)) (outs_1 m c)
theorem V2_eq (c : Dev nD) : V2 m (outs m) c = W2 m c := by
  show StableHlo.after hostOps1 (V1 m (outs m) c) = _
  rw [V1_eq]
theorem V3_eq (c : Dev nD) : V3 m (outs m) c = W3 m c := by
  rw [show V3 m (outs m) c = Function.update (V2 m (outs m) c) (Proc.devRef .tc main_v2 : DevRef τ sig) (outs m 3 main_v2 c) from rfl, V2_eq]
  exact congrArg (Function.update (W2 m c) (Proc.devRef .tc main_v2 : DevRef τ sig)) (outs_3 m c)
theorem V4_eq (c : Dev nD) : V4 m (outs m) c = W4 m c := by
  show StableHlo.after hostOps2 (V3 m (outs m) c) = _
  rw [V3_eq]
theorem V5_eq (c : Dev nD) : V5 m (outs m) c = W5 m c := by
  rw [show V5 m (outs m) c = Function.update (V4 m (outs m) c) (Proc.devRef .tc main_v4 : DevRef τ sig) (outs m 5 main_v4 c) from rfl, V4_eq]
  exact congrArg (Function.update (W4 m c) (Proc.devRef .tc main_v4 : DevRef τ sig)) (outs_5 m c)
theorem V6_eq (c : Dev nD) : V6 m (outs m) c = W6 m c := by
  show StableHlo.after hostOps3 (V5 m (outs m) c) = _
  rw [V5_eq]

/-! ## The proof data family and what rides beside the buffers -/

abbrev adm' : (p : Fin 3) → (pcfgs (F := F) p).Adm := fun p => (cfgs p).toPCfg_adm

/-- Every call's proof data, each at its entry contents. -/
def pdats : (p : Fin 3) → (c : Dev nD) → Dat τ (Elt F) Unit ℕ (UR sig nD τ) ℕ (cfgs p) c
  | ⟨0, _⟩ => fun c => dat0 (fun c b => W0 m c b) c
  | ⟨1, _⟩ => fun c => dat1 (fun c b => W2 m c b) c
  | ⟨2, _⟩ => fun c => dat2 (fun c b => W4 m c b) c

abbrev 𝒱₀' : Variants := Variants.none
abbrev L' : GSem nD τ sig → Finset Unit := fun _ => ∅
abbrev lv' : GSem nD τ sig → Unit → ℕ := fun _ _ => 0
/-- Beside the buffers: the generator register at some state, and nothing owed. -/
abbrev R' (c : Dev nD) : sProp 𝕄 := iprop((∃ r, prngReg c r) ∗ ∃ W, owes (c : Thread nD τ) (0 : CellTallies nD τ sig Unit) W)

/-! ## The first call as a segment of the program -/

/-- After the call each of its arrays holds what the contents after it say: an input its entry contents, the result what
    the last write-back left. -/
theorem hF0 (c : Dev nD) : ∀ w : Fin cfg0.W, (pdats m 0 c).arrAt w cfg0.N = W1 m c (Pipeline.arrRef spec0 w)
  | ⟨0, _⟩ => ((dat0 (fun c b => W0 m c b) c).arrAt_in 0 rfl _).trans ((A_eq0 _ c 0).trans (Function.update_of_ne (StableHlo.devRef_ne_of_ne (by decide)) _ _).symm)
  | ⟨1, _⟩ => ((dat0 (fun c b => W0 m c b) c).arrAt_in 1 rfl _).trans ((A_eq0 _ c 1).trans (Function.update_of_ne (StableHlo.devRef_ne_of_ne (by decide)) _ _).symm)
  | ⟨2, _⟩ => (Function.update_self (Proc.devRef .tc main_v0 : DevRef τ sig) (o1 m c) (W0 m c)).symm

/-- Every buffer that is no array of the call keeps its contents. -/
theorem hrest0 (c : Dev nD) : ∀ b : Ref sig .tc, b ∉ Finset.univ.image (Pipeline.arrRef spec0) → W1 m c b = W0 m c b :=
  fun b hb => Function.update_of_ne (StableHlo.devRef_ne_of_ne (fun e => hb (Finset.mem_image.mpr ⟨2, Finset.mem_univ _, (show Pipeline.arrRef spec0 2 = b from e.symm)⟩))) _ _

set_option backward.isDefEq.respectTransparency.types false in
/-- The first call, entered with every unscoped buffer at the contents before it and left with them at the contents
    after it: its arrays are split out of the unscoped buffers and put back with the result updated; the accumulator and
    the other scoped buffers go into the invariant and come back; nothing is owed. -/
def reg0 : Pipeline.RegionSeg (pcfgs (F := F)) adm' (pdats m) () defs₀ 𝒱₀' L' lv' 0 where
  win := winFacts₀0
  block_pos := block_pos0
  stage_whole := stage_whole0
  K := PEmpty
  osem k := k.elim
  ho := Pipeline.OwnSemFacts.none _
  hbody c := (body_obligation0 (fun c b => W0 m c b) c).loose
  hwaits := Pipeline.hwaits_of_owed_zero _ _ _ _ L' lv' 0 fun _ _ => rfl
  pre c := iprop(StableHlo.held (c : Thread nD τ) (Pipeline.ucRefs τ sig) (W0 m c) ∗ R' c)
  post c := iprop(StableHlo.held (c : Thread nD τ) (Pipeline.ucRefs τ sig) (W1 m c) ∗ R' c)
  X c := iprop(emp)
  Y c := iprop(emp)
  Z c := iprop(Pipeline.unscopedRest (Ix := Unit) (Name := ℕ) (U := UR sig nD τ) (Lvl := ℕ) spec0 c (fun b => W0 m c b) ∗ ∃ r, prngReg c r)
  hentry c := by
    rw [Pipeline.ownSems0_none]
    have hsplit : (unscopedBufs c (fun b => W0 m c b) : sProp 𝕄)
        ⊢ iprop((pdats m 0 c).arrays ((pdats m 0 c).arrAt · 0) ∗ Pipeline.unscopedRest (Ix := Unit) (Name := ℕ) (U := UR sig nD τ) (Lvl := ℕ) spec0 c (fun b => W0 m c b)) :=
      entry_arrays0 c (pdats m 0 c) rfl rfl (fun b => W0 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 0 c).Φ 0 = (dat0 (fun c b => W0 m c b) c).Φ 0 from rfl]
    iintro ⟨-, -, Hr⟩
    iapply (hin0 (fun c b => W0 m c b) c)
    iexact Hr
  hout c := by
    rw [Pipeline.ownSems0_none, show (pdats m 0 c).Φ (Fin.last _) = (dat0 (fun c b => W0 m c b) c).Φ (Fin.last cfg0.N) from rfl]
    iintro H
    isplitr; · iempintro
    isplitr; · iempintro
    iapply (hout0 (fun c b => W0 m c b) c)
    iexact H
  hexit c := by
    have hjoin : iprop((pdats m 0 c).arrays ((pdats m 0 c).arrAt · cfg0.N) ∗ Pipeline.unscopedRest (Ix := Unit) (Name := ℕ) (U := UR sig nD τ) (Lvl := ℕ) spec0 c (fun b => W0 m c b))
        ⊢ (unscopedBufs c (fun b => W1 m c b) : sProp 𝕄) :=
      exit_arrays0 c (pdats m 0 c) rfl rfl (fun b => W0 m c b) (fun b => W1 m c b) ((pdats m 0 c).arrAt · cfg0.N) (hF0 m c) (hrest0 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The second call as a segment of the program -/

/-- After the call each of its arrays holds what the contents after it say: an input its entry contents, the result what
    the last write-back left. -/
theorem hF1 (c : Dev nD) : ∀ w : Fin cfg1.W, (pdats m 1 c).arrAt w cfg1.N = W3 m c (Pipeline.arrRef spec1 w)
  | ⟨0, _⟩ => ((dat1 (fun c b => W2 m c b) c).arrAt_in 0 rfl _).trans ((A_eq1 _ c 0).trans (Function.update_of_ne (StableHlo.devRef_ne_of_ne (by decide)) _ _).symm)
  | ⟨1, _⟩ => ((dat1 (fun c b => W2 m c b) c).arrAt_in 1 rfl _).trans ((A_eq1 _ c 1).trans (Function.update_of_ne (StableHlo.devRef_ne_of_ne (by decide)) _ _).symm)
  | ⟨2, _⟩ => (Function.update_self (Proc.devRef .tc main_v2 : DevRef τ sig) (o3 m c) (W2 m c)).symm

/-- Every buffer that is no array of the call keeps its contents. -/
theorem hrest1 (c : Dev nD) : ∀ b : Ref sig .tc, b ∉ Finset.univ.image (Pipeline.arrRef spec1) → W3 m c b = W2 m c b :=
  fun b hb => Function.update_of_ne (StableHlo.devRef_ne_of_ne (fun e => hb (Finset.mem_image.mpr ⟨2, Finset.mem_univ _, (show Pipeline.arrRef spec1 2 = b from e.symm)⟩))) _ _

set_option backward.isDefEq.respectTransparency.types false in
/-- The second call, entered with every unscoped buffer at the contents before it and left with them at the contents
    after it: its arrays are split out of the unscoped buffers and put back with the result updated; the accumulator and
    the other scoped buffers go into the invariant and come back; nothing is owed. -/
def reg1 : Pipeline.RegionSeg (pcfgs (F := F)) adm' (pdats m) () defs₀ 𝒱₀' L' lv' 1 where
  win := launch1.win.to₀
  block_pos := launch1.block_pos
  stage_whole := launch1.stage_whole
  K := PEmpty
  osem k := k.elim
  ho := Pipeline.OwnSemFacts.none _
  hbody c := (body_obligation1 (fun c b => W2 m c b) c).loose
  hwaits := Pipeline.hwaits_of_owed_zero _ _ _ _ L' lv' 1 fun _ _ => rfl
  pre c := iprop(StableHlo.held (c : Thread nD τ) (Pipeline.ucRefs τ sig) (W2 m c) ∗ R' c)
  post c := iprop(StableHlo.held (c : Thread nD τ) (Pipeline.ucRefs τ sig) (W3 m c) ∗ R' c)
  X c := iprop(emp)
  Y c := iprop(emp)
  Z c := iprop(Pipeline.unscopedRest (Ix := Unit) (Name := ℕ) (U := UR sig nD τ) (Lvl := ℕ) spec1 c (fun b => W2 m c b) ∗ ∃ r, prngReg c r)
  hentry c := by
    rw [Pipeline.ownSems0_none]
    have hsplit : (unscopedBufs c (fun b => W2 m c b) : sProp 𝕄)
        ⊢ iprop((pdats m 1 c).arrays ((pdats m 1 c).arrAt · 0) ∗ Pipeline.unscopedRest (Ix := Unit) (Name := ℕ) (U := UR sig nD τ) (Lvl := ℕ) spec1 c (fun b => W2 m c b)) :=
      Pipeline.arrays_of_unscopedBufs (p := 1) (pcfgs (F := F)) adm' (pdats m) launch1.win launch1.arr_whole c
        ((pdats m 1 c).share_full fun _ => rfl) (fun b => W2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 1 c).Φ 0 = (dat1 (fun c b => W2 m c b) c).Φ 0 from rfl]
    iintro ⟨-, -, Hr⟩
    iapply (hin1 (fun c b => W2 m c b) c)
    iexact Hr
  hout c := by
    rw [Pipeline.ownSems0_none, show (pdats m 1 c).Φ (Fin.last _) = (dat1 (fun c b => W2 m c b) c).Φ (Fin.last cfg1.N) from rfl]
    iintro H
    isplitr; · iempintro
    isplitr; · iempintro
    iapply (hout1 (fun c b => W2 m c b) c)
    iexact H
  hexit c := by
    have hjoin : iprop((pdats m 1 c).arrays ((pdats m 1 c).arrAt · cfg1.N) ∗ Pipeline.unscopedRest (Ix := Unit) (Name := ℕ) (U := UR sig nD τ) (Lvl := ℕ) spec1 c (fun b => W2 m c b))
        ⊢ (unscopedBufs c (fun b => W3 m c b) : sProp 𝕄) :=
      Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (fun b => W2 m c b) (fun b => W3 m c b) ((pdats m 1 c).arrAt · cfg1.N) (hF1 m c) (hrest1 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The third call as a segment of the program -/

/-- After the call each of its arrays holds what the contents after it say: an input its entry contents, the result what
    the last write-back left. -/
theorem hF2 (c : Dev nD) : ∀ w : Fin cfg2.W, (pdats m 2 c).arrAt w cfg2.N = W5 m c (Pipeline.arrRef spec2 w)
  | ⟨0, _⟩ => ((dat2 (fun c b => W4 m c b) c).arrAt_in 0 rfl _).trans ((A_eq2 _ c 0).trans (Function.update_of_ne (StableHlo.devRef_ne_of_ne (by decide)) _ _).symm)
  | ⟨1, _⟩ => ((dat2 (fun c b => W4 m c b) c).arrAt_in 1 rfl _).trans ((A_eq2 _ c 1).trans (Function.update_of_ne (StableHlo.devRef_ne_of_ne (by decide)) _ _).symm)
  | ⟨2, _⟩ => (Function.update_self (Proc.devRef .tc main_v4 : DevRef τ sig) (o5 m c) (W4 m c)).symm

/-- Every buffer that is no array of the call keeps its contents. -/
theorem hrest2 (c : Dev nD) : ∀ b : Ref sig .tc, b ∉ Finset.univ.image (Pipeline.arrRef spec2) → W5 m c b = W4 m c b :=
  fun b hb => Function.update_of_ne (StableHlo.devRef_ne_of_ne (fun e => hb (Finset.mem_image.mpr ⟨2, Finset.mem_univ _, (show Pipeline.arrRef spec2 2 = b from e.symm)⟩))) _ _

set_option backward.isDefEq.respectTransparency.types false in
/-- The third call, entered with every unscoped buffer at the contents before it and left with them at the contents
    after it: its arrays are split out of the unscoped buffers and put back with the result updated; the accumulator and
    the other scoped buffers go into the invariant and come back; nothing is owed. -/
def reg2 : Pipeline.RegionSeg (pcfgs (F := F)) adm' (pdats m) () defs₀ 𝒱₀' L' lv' 2 where
  win := winFacts₀2
  block_pos := block_pos2
  stage_whole := stage_whole2
  K := PEmpty
  osem k := k.elim
  ho := Pipeline.OwnSemFacts.none _
  hbody c := (body_obligation2 (fun c b => W4 m c b) c).loose
  hwaits := Pipeline.hwaits_of_owed_zero _ _ _ _ L' lv' 2 fun _ _ => rfl
  pre c := iprop(StableHlo.held (c : Thread nD τ) (Pipeline.ucRefs τ sig) (W4 m c) ∗ R' c)
  post c := iprop(StableHlo.held (c : Thread nD τ) (Pipeline.ucRefs τ sig) (W5 m c) ∗ R' c)
  X c := iprop(emp)
  Y c := iprop(emp)
  Z c := iprop(Pipeline.unscopedRest (Ix := Unit) (Name := ℕ) (U := UR sig nD τ) (Lvl := ℕ) spec2 c (fun b => W4 m c b) ∗ ∃ r, prngReg c r)
  hentry c := by
    rw [Pipeline.ownSems0_none]
    have hsplit : (unscopedBufs c (fun b => W4 m c b) : sProp 𝕄)
        ⊢ iprop((pdats m 2 c).arrays ((pdats m 2 c).arrAt · 0) ∗ Pipeline.unscopedRest (Ix := Unit) (Name := ℕ) (U := UR sig nD τ) (Lvl := ℕ) spec2 c (fun b => W4 m c b)) :=
      entry_arrays2 c (pdats m 2 c) rfl rfl (fun b => W4 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    rw [show (pdats m 2 c).Φ 0 = (dat2 (fun c b => W4 m c b) c).Φ 0 from rfl]
    iintro ⟨-, -, Hr⟩
    iapply (hin2 (fun c b => W4 m c b) c)
    iexact Hr
  hout c := by
    rw [Pipeline.ownSems0_none, show (pdats m 2 c).Φ (Fin.last _) = (dat2 (fun c b => W4 m c b) c).Φ (Fin.last cfg2.N) from rfl]
    iintro H
    isplitr; · iempintro
    isplitr; · iempintro
    iapply (hout2 (fun c b => W4 m c b) c)
    iexact H
  hexit c := by
    have hjoin : iprop((pdats m 2 c).arrays ((pdats m 2 c).arrAt · cfg2.N) ∗ Pipeline.unscopedRest (Ix := Unit) (Name := ℕ) (U := UR sig nD τ) (Lvl := ℕ) spec2 c (fun b => W4 m c b))
        ⊢ (unscopedBufs c (fun b => W5 m c b) : sProp 𝕄) :=
      exit_arrays2 c (pdats m 2 c) rfl rfl (fun b => W4 m c b) (fun b => W5 m c b) ((pdats m 2 c).arrAt · cfg2.N) (hF2 m c) (hrest2 m c)
    rw [Pipeline.unscopedBufs_held] at hjoin
    iintro ⟨Ha, HO, -, ⟨Hrest, Hp⟩⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## The run of the whole program -/

variable (ρ : Dev nD → PrngReg)

set_option backward.isDefEq.respectTransparency.types false in
/-- From any memory with zero counters every weakly fair execution of the program terminates without a fault, with the
    result buffer at the last contents above and the argument arrays as launched. -/
theorem run_main : θ_run defs (onTc (τ := τ) (main (F := F))) ⟨m, fun _ => 0, ρ⟩ (fun r => ∀ c : Dev nD,
      r.2.mem ((c.tc : Thread nD τ).loc main_v11) = W6 m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h := value_cond m (Ix := Unit) (U := UR sig nD τ) (Lvl := ℕ) emb₁ () 𝒱₀' L' lv' (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R' c)
    (hE0 := by
      refine Pipeline.initEach L' lv' fun c => ?_
      iintro ⟨⟨-, HO, -, Hp, -⟩, -⟩
      imodintro
      isplitl [Hp]; · iexists _; iexact Hp
      iexists ∅; iexact HO)
    (hE3 := fun c => by
      iintro ⟨-, HO⟩
      iexact HO)
    (reg0 m) (fun c => .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)
  exact (θ_run defs _ _).mono (fun r h c => ⟨(h c).1.trans (by rw [V6_eq]), (h c).2⟩) h

end Cert.KernelIdeal.Hand

end
-- ==== Proof.Spec.lean ====
/-
  The statistic both programs compute, on the extended reals.

  For an array x of n rows and an array y of m rows, 2048 columns each: the squared norm of a row, the inner product of
  a row of x with a row of y, the squared distance of the two rows by the expansion |x|² + |y|² − 2·x·y, the Gaussian
  weight exp(−distance / 2048) of the pair, and the sum of the weights over all n × m pairs of rows.  For two samples
  r, g of 4096 rows the result is pairs(g, g)/2²⁴ − 2·(pairs(r, g)/2²⁴) + pairs(r, r)/2²⁴, the squared maximum mean
  discrepancy of the samples.  The float words 2.0, 2048.0 and 2²⁴ are kept as the words the programs print.  The row
  counts are parameters because the same sum is taken over a block of rows of each array.
-/
import Idealize.ShloMosaic.PureOps.Ideal
import Idealize.ShloMosaic.Lib.ValueIdx

noncomputable section

open scoped BigOperators

namespace Cert.Mmd

open Idealize.ShloMosaic Idealize.ShloMosaic.ValueIdx

/-- An array of `n` rows and 2048 columns of extended reals. -/
abbrev Rows (n : Nat) : Type := (⟨2, ![n, 2048]⟩ : Shape).Idx → EReal

/-- The word of 2.0. -/
abbrev two : EReal := Ideal.ofBits .f32 0x40000000#32
/-- The word of 2048.0, the number of columns. -/
abbrev cols : EReal := Ideal.ofBits .f32 0x45000000#32
/-- The word of 2²⁴ = 4096 · 4096, the number of pairs of rows. -/
abbrev npairs : EReal := Ideal.ofBits .f32 0x4B800000#32

/-- The squared norm of row `i`. -/
def sqn {n : Nat} (x : Rows n) (i : Fin n) : EReal := ∑ k : Fin 2048, x (ix2 i k) * x (ix2 i k)

/-- The inner product of row `i` of `x` with row `j` of `y`. -/
def dotp {n m : Nat} (x : Rows n) (y : Rows m) (i : Fin n) (j : Fin m) : EReal := ∑ k : Fin 2048, x (ix2 i k) * y (ix2 j k)

/-- The squared distance of row `i` of `x` and row `j` of `y`, expanded. -/
def sqd {n m : Nat} (x : Rows n) (y : Rows m) (i : Fin n) (j : Fin m) : EReal := sqn x i + sqn y j - two * dotp x y i j

/-- The Gaussian weight of the pair of rows. -/
def kern {n m : Nat} (x : Rows n) (y : Rows m) (i : Fin n) (j : Fin m) : EReal := Ideal.exp (Ideal.div (-(sqd x y i j)) cols)

/-- The sum of the weights over all pairs of rows. -/
def pairSum {n m : Nat} (x : Rows n) (y : Rows m) : EReal := ∑ i : Fin n, ∑ j : Fin m, kern x y i j

/-- The statistic: the mean weight within `g`, minus twice the mean weight across, plus the mean weight within `r`. -/
def mmd (r g : Rows 4096) : EReal :=
  Ideal.div (pairSum g g) npairs - two * Ideal.div (pairSum r g) npairs + Ideal.div (pairSum r r) npairs

/-- Rows `s·a … s·a + s − 1` of an array of `s·b` rows: block `a` of its `b` blocks of `s` rows. -/
def rowBlock (s b : Nat) (x : Rows (s * b)) (a : Fin b) : Rows s :=
  fun j => x (ix2 ⟨s * a.val + (j 0).val, by
    have h0 : (j 0).val < s := (j 0).isLt
    have ha : a.val < b := a.isLt
    calc s * a.val + (j 0).val < s * a.val + s := by omega
      _ = s * (a.val + 1) := by ring
      _ ≤ s * b := Nat.mul_le_mul_left s (by omega)⟩ (j 1))

end Cert.Mmd

end
-- ==== Proof.PayLayout.lean ====
/-
  The layout operations and the reductions of the kernel's body, each read at one index written from its coordinates.
-/
import proofs.«152176_j15796889715484_1_alg».proof.Proof.Spec
import proofs.«152176_j15796889715484_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Mmd.KernelSide

open Cert.KernelIdeal Cert.KernelIdeal.Gen Idealize.ShloMosaic Idealize.ShloMosaic.ValueIdx Idealize.SL.Sem

/-! ## Each layout operation and each reduction of the body, read at an index

Indices are written from their coordinates (`ix1 p`, `ix2 p q`) over the literal extents. -/

/-- The sum along the columns of a 1024 × 2048 block, from the zero word, at row `p`. -/
theorem red_1024x2048 (v : FVec Ideal S1024x2048 .f32) (p : Fin 1024) :
    multiReduction (F := Ideal) .add [1] S1024 v 0x00000000#32 reduces_S1024x2048_S1024 (.inl rfl) rfl (ix1 p)
      = ∑ k : Fin 2048, v (ix2 p k) := by
  refine (Ideal.multiReduction_add_single v _ reduces_S1024x2048_S1024 _ _ _).trans ?_
  refine Finset.sum_congr rfl fun k _ => ?_
  exact congrArg v (funext fun a => Fin.ext (by match a with | ⟨0, _⟩ => rfl | ⟨1, _⟩ => rfl))

/-- The sum along the columns of a 512 × 2048 block, from the zero word, at row `q`. -/
theorem red_512x2048 (v : FVec Ideal S512x2048 .f32) (q : Fin 512) :
    multiReduction (F := Ideal) .add [1] S512 v 0x00000000#32 reduces_S512x2048_S512 (.inl rfl) rfl (ix1 q)
      = ∑ k : Fin 2048, v (ix2 q k) := by
  refine (Ideal.multiReduction_add_single v _ reduces_S512x2048_S512 _ _ _).trans ?_
  refine Finset.sum_congr rfl fun k _ => ?_
  exact congrArg v (funext fun a => Fin.ext (by match a with | ⟨0, _⟩ => rfl | ⟨1, _⟩ => rfl))

/-- The sum along the columns of a 1024 × 512 tile, from the zero word, at row `p`. -/
theorem red_1024x512 (v : FVec Ideal S1024x512 .f32) (p : Fin 1024) :
    multiReduction (F := Ideal) .add [1] S1024 v 0x00000000#32 reduces_S1024x512_S1024 (.inl rfl) rfl (ix1 p)
      = ∑ q : Fin 512, v (ix2 p q) := by
  refine (Ideal.multiReduction_add_single v _ reduces_S1024x512_S1024 _ _ _).trans ?_
  refine Finset.sum_congr rfl fun k _ => ?_
  exact congrArg v (funext fun a => Fin.ext (by match a with | ⟨0, _⟩ => rfl | ⟨1, _⟩ => rfl))

/-- The sum down a column of 1024 entries, from the zero word. -/
theorem red_1024x1 (v : FVec Ideal S1024x1 .f32) (z : Fin 1) :
    multiReduction (F := Ideal) .add [0] S1 v 0x00000000#32 reduces_S1024x1_S1 (.inl rfl) rfl (ix1 z)
      = ∑ p : Fin 1024, v (ix2 p z) := by
  refine (Ideal.multiReduction_add_single v _ reduces_S1024x1_S1 _ _ _).trans ?_
  refine Finset.sum_congr rfl fun k _ => ?_
  exact congrArg v (funext fun a => Fin.ext (by match a with | ⟨0, _⟩ => rfl | ⟨1, _⟩ => rfl))

/-- A vector of 1024 entries viewed as a column: entry `p`. -/
theorem cast_col_1024 {α : Type} (v : S1024.Idx → α) (p : Fin 1024) (z : Fin 1) :
    shapeCast S1024x1 v shapeCasts_S1024_S1024x1 (ix2 p z) = v (ix1 p) := by
  refine shapeCast_apply v shapeCasts_S1024_S1024x1 (ix2 p z) (ix1 p) ?_
  rw [Shape.rowMajor_val_one, Shape.rowMajor_val_two]
  have hz : z.val = 0 := by have := z.isLt; omega
  show p.val = p.val * 1 + z.val
  omega

/-- A vector of 512 entries viewed as a column: entry `q`. -/
theorem cast_col_512 {α : Type} (v : S512.Idx → α) (q : Fin 512) (z : Fin 1) :
    shapeCast S512x1 v shapeCasts_S512_S512x1 (ix2 q z) = v (ix1 q) := by
  refine shapeCast_apply v shapeCasts_S512_S512x1 (ix2 q z) (ix1 q) ?_
  rw [Shape.rowMajor_val_one, Shape.rowMajor_val_two]
  have hz : z.val = 0 := by have := z.isLt; omega
  show q.val = q.val * 1 + z.val
  omega

/-- A one-entry vector viewed as a 1 × 1 block. -/
theorem cast_1_1x1 {α : Type} (v : S1.Idx → α) (z z' z'' : Fin 1) :
    shapeCast S1x1 v shapeCasts_S1_S1x1 (ix2 z z') = v (ix1 z'') := by
  refine shapeCast_apply v shapeCasts_S1_S1x1 (ix2 z z') (ix1 z'') ?_
  rw [Shape.rowMajor_val_one, Shape.rowMajor_val_two]
  have hz : z.val = 0 := by have := z.isLt; omega
  have hz' : z'.val = 0 := by have := z'.isLt; omega
  have hz'' : z''.val = 0 := by have := z''.isLt; omega
  show z''.val = z.val * 1 + z'.val
  omega

/-- The column of 512 entries transposed to a row: entry `q`. -/
theorem transpose_512 {α : Type} (v : S512x1.Idx → α) (z : Fin 1) (q : Fin 512) :
    transpose S1x512 [1, 0] v transposes_S512x1_p1_0_S1x512 (ix2 z q) = v (ix2 q z) :=
  transpose_apply [1, 0] v transposes_S512x1_p1_0_S1x512 (ix2 z q) (ix2 q z) (fun b => match b with
    | ⟨0, _⟩ => rfl
    | ⟨1, _⟩ => rfl)

/-- The column broadcast along the rows of the 1024 × 512 tile. -/
theorem bcast_col {α : Type} (v : S1024x1.Idx → α) (p : Fin 1024) (q : Fin 512) (z : Fin 1) :
    broadcastTo S1024x512 v broadcasts_S1024x1_S1024x512 (ix2 p q) = v (ix2 p z) := by
  have hz : z = 0 := Subsingleton.elim _ _
  subst hz
  exact broadcastTo_apply v broadcasts_S1024x1_S1024x512 (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])

/-- The row broadcast down the columns of the 1024 × 512 tile. -/
theorem bcast_row {α : Type} (v : S1x512.Idx → α) (p : Fin 1024) (q : Fin 512) (z : Fin 1) :
    broadcastTo S1024x512 v broadcasts_S1x512_S1024x512 (ix2 p q) = v (ix2 z q) := by
  have hz : z = 0 := Subsingleton.elim _ _
  subst hz
  exact broadcastTo_apply v broadcasts_S1x512_S1024x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

end Cert.Mmd.KernelSide

end
-- ==== Proof.PayDot.lean ====
/-
  The kernel's matrix product read at an entry of its result.
-/
import proofs.«152176_j15796889715484_1_alg».proof.Proof.Spec
import proofs.«152176_j15796889715484_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Mmd.KernelSide

open Cert.KernelIdeal Cert.KernelIdeal.Gen Idealize.ShloMosaic Idealize.ShloMosaic.ValueIdx Idealize.SL.Sem

/-! ## The contraction of the two blocks along their columns, read at an entry of the tile -/

theorem lhs_dot_0 (i : S1024x512.Idx) (c : dot_S1024x2048_S512x2048_S1024x512_1_1_0_0_n_n.contr.Idx) :
    (dot_S1024x2048_S512x2048_S1024x512_1_1_0_0_n_n.lhsIdx i c 0).val = (i 0).val := by
  unfold DotDims.lhsIdx
  rw [dif_neg (show ¬(0 : Fin S1024x2048.rank) ∈ dot_S1024x2048_S512x2048_S1024x512_1_1_0_0_n_n.lhsBatch by decide), dif_pos (show (0 : Fin S1024x2048.rank) ∈ dot_S1024x2048_S512x2048_S1024x512_1_1_0_0_n_n.lhsNonContracting by decide)]
  rfl

theorem lhs_dot_1 (i : S1024x512.Idx) (c : dot_S1024x2048_S512x2048_S1024x512_1_1_0_0_n_n.contr.Idx) :
    (dot_S1024x2048_S512x2048_S1024x512_1_1_0_0_n_n.lhsIdx i c 1).val = (c ⟨0, by decide⟩).val :=
  dot_S1024x2048_S512x2048_S1024x512_1_1_0_0_n_n.lhsIdx_val_of_single rfl i c

theorem rhs_dot_0 (i : S1024x512.Idx) (c : dot_S1024x2048_S512x2048_S1024x512_1_1_0_0_n_n.contr.Idx) :
    (dot_S1024x2048_S512x2048_S1024x512_1_1_0_0_n_n.rhsIdx i c 0).val = (i 1).val := by
  unfold DotDims.rhsIdx
  rw [dif_neg (show ¬(0 : Fin S512x2048.rank) ∈ dot_S1024x2048_S512x2048_S1024x512_1_1_0_0_n_n.rhsBatch by decide), dif_pos (show (0 : Fin S512x2048.rank) ∈ dot_S1024x2048_S512x2048_S1024x512_1_1_0_0_n_n.rhsNonContracting by decide)]
  rfl

theorem rhs_dot_1 (i : S1024x512.Idx) (c : dot_S1024x2048_S512x2048_S1024x512_1_1_0_0_n_n.contr.Idx) :
    (dot_S1024x2048_S512x2048_S1024x512_1_1_0_0_n_n.rhsIdx i c 1).val = (c ⟨0, by decide⟩).val :=
  dot_S1024x2048_S512x2048_S1024x512_1_1_0_0_n_n.rhsIdx_val_of_single rfl i c

/-- Into the zero tile, the product of the 1024 × 2048 block with the 512 × 2048 block, both contracted along their
    columns: entry (`p`, `q`) is the sum over `k` of the products of row `p` and row `q`. -/
theorem matmul_tile {φ₁ φ₂ : FTy} (l : FVec Ideal S1024x2048 φ₁) (r : FVec Ideal S512x2048 φ₂) (p : Fin 1024) (q : Fin 512) :
    matmul (F := Ideal) dot_S1024x2048_S512x2048_S1024x512_1_1_0_0_n_n none l r (constant (F := Ideal) S1024x512 .f32 0x00000000#32) (ix2 p q)
      = ∑ k : Fin 2048, l (ix2 p k) * r (ix2 q k) := by
  refine (Ideal.matmul_constant_zero_apply dot_S1024x2048_S512x2048_S1024x512_1_1_0_0_n_n none l r (ix2 p q)).trans ?_
  rw [← Equiv.sum_comp (ValueIdx.contrEquiv1 dot_S1024x2048_S512x2048_S1024x512_1_1_0_0_n_n 2048 rfl rfl).symm]
  refine Finset.sum_congr rfl fun k _ => ?_
  have hk := ValueIdx.contrEquiv1_symm_val dot_S1024x2048_S512x2048_S1024x512_1_1_0_0_n_n 2048 rfl rfl k
  have el : dot_S1024x2048_S512x2048_S1024x512_1_1_0_0_n_n.lhsIdx (ix2 p q) ((ValueIdx.contrEquiv1 dot_S1024x2048_S512x2048_S1024x512_1_1_0_0_n_n 2048 rfl rfl).symm k) = ix2 p k := funext fun a => Fin.ext (by
    match a with
    | ⟨0, _⟩ => exact lhs_dot_0 _ _
    | ⟨1, _⟩ => exact (lhs_dot_1 _ _).trans hk)
  have er : dot_S1024x2048_S512x2048_S1024x512_1_1_0_0_n_n.rhsIdx (ix2 p q) ((ValueIdx.contrEquiv1 dot_S1024x2048_S512x2048_S1024x512_1_1_0_0_n_n 2048 rfl rfl).symm k) = ix2 q k := funext fun a => Fin.ext (by
    match a with
    | ⟨0, _⟩ => exact rhs_dot_0 _ _
    | ⟨1, _⟩ => exact (rhs_dot_1 _ _).trans hk)
  rw [el, er]

end Cert.Mmd.KernelSide

end
-- ==== Proof.PaySide.lean ====
/-
  The arithmetic of the kernel's body at one grid point: the block the accumulator is reset to is zero, and the body
  adds to the accumulator the sum of the Gaussian weights over all pairs of rows of its two blocks.  Each entry of the
  1024 × 512 tile is exp(−(|x_p|² + |y_q|² − 2·x_p·y_q)/2048): the two squared norms are row sums broadcast along the
  tile, the inner product is the matrix product into the zero tile, and 0 − s is −s.  The tile is then summed along its
  rows and the column of row sums is summed.  The three kernels have the same body.
-/
import proofs.«152176_j15796889715484_1_alg».proof.Proof.Spec
import proofs.«152176_j15796889715484_1_alg».proof.Proof.Gen.KernelIdeal.Skeleton
import Idealize.ShloMosaic.Lib.Pipeline.Value
import Idealize.ShloMosaic.Lib.ValueIdx
import Idealize.ShloMosaic.PureOps.Ideal.Laws
import proofs.«152176_j15796889715484_1_alg».proof.Proof.PayLayout
import proofs.«152176_j15796889715484_1_alg».proof.Proof.PayDot

noncomputable section

open scoped BigOperators

namespace Cert.Mmd.KernelSide

open Cert.KernelIdeal Cert.KernelIdeal.Gen Idealize.ShloMosaic Idealize.ShloMosaic.ValueIdx Idealize.SL.Sem

/-- The block the accumulator is reset to is zero everywhere. -/
theorem zero_value : Cert.KernelIdeal.Gen.k0_pay2 (F := Ideal) = fun _ => (0 : EReal) := by
  show shapeCast S1x1 (broadcast S1x1 (Scalar.ofBits (F := Ideal) .f32 0x00000000#32)) shapeCasts_S1x1_S1x1 = _
  rw [shapeCast_self]
  funext i
  exact Ideal.ofBits_zero_f32

/-- The tile of Gaussian weights of one grid point: the kernel's value before its two final reductions. -/
def tile (xb : Vec Ideal S1024x2048 .f32) (yb : Vec Ideal S512x2048 .f32) : FVec Ideal S1024x512 .f32 :=
  exp (divf (subf (broadcast S1024x512 (Scalar.ofBits (F := Ideal) .f32 0x00000000#32))
    (subf (addf (broadcastTo S1024x512 (shapeCast S1024x1 (multiReduction (F := Ideal) .add [1] S1024 (mulf xb xb) 0x00000000#32 reduces_S1024x2048_S1024 (.inl rfl) rfl) shapeCasts_S1024_S1024x1) broadcasts_S1024x1_S1024x512)
        (broadcastTo S1024x512 (transpose S1x512 [1, 0] (shapeCast S512x1 (multiReduction (F := Ideal) .add [1] S512 (mulf yb yb) 0x00000000#32 reduces_S512x2048_S512 (.inl rfl) rfl) shapeCasts_S512_S512x1) transposes_S512x1_p1_0_S1x512) broadcasts_S1x512_S1024x512))
      (mulf (broadcast S1024x512 (Scalar.ofBits (F := Ideal) .f32 0x40000000#32))
        (matmul (F := Ideal) dot_S1024x2048_S512x2048_S1024x512_1_1_0_0_n_n none (truncf .bf16 xb bitsLt_bf16_f32) (truncf .bf16 yb bitsLt_bf16_f32) (constant (F := Ideal) S1024x512 .f32 0x00000000#32)))))
    (broadcast S1024x512 (Scalar.ofBits (F := Ideal) .f32 0x45000000#32)))

/-- The body's value is the accumulator plus the two final reductions of the tile: the printed sequence, regrouped. -/
theorem pay3_eq (xb : Vec Ideal S1024x2048 .f32) (yb : Vec Ideal S512x2048 .f32) (a : Vec Ideal S1x1 .f32) :
    k0_pay3 (F := Ideal) xb yb a = addf a (shapeCast S1x1 (multiReduction (F := Ideal) .add [0] S1
      (shapeCast S1024x1 (multiReduction (F := Ideal) .add [1] S1024 (tile xb yb) 0x00000000#32 reduces_S1024x512_S1024 (.inl rfl) rfl) shapeCasts_S1024_S1024x1)
      0x00000000#32 reduces_S1024x1_S1 (.inl rfl) rfl) shapeCasts_S1_S1x1) := rfl

/-- An entry of the tile is the Gaussian weight of the pair of rows. -/
theorem tile_apply (xb : Vec Ideal S1024x2048 .f32) (yb : Vec Ideal S512x2048 .f32) (p : Fin 1024) (q : Fin 512) :
    tile xb yb (ix2 p q) = Cert.Mmd.kern (n := 1024) (m := 512) xb yb p q := by
  have hA : broadcastTo S1024x512 (shapeCast S1024x1 (multiReduction (F := Ideal) .add [1] S1024 (mulf xb xb) 0x00000000#32 reduces_S1024x2048_S1024 (.inl rfl) rfl) shapeCasts_S1024_S1024x1) broadcasts_S1024x1_S1024x512 (ix2 p q)
      = Cert.Mmd.sqn (n := 1024) xb p := by
    refine (bcast_col _ p q 0).trans ?_
    refine (cast_col_1024 _ p 0).trans ?_
    exact red_1024x2048 _ p
  have hB : broadcastTo S1024x512 (transpose S1x512 [1, 0] (shapeCast S512x1 (multiReduction (F := Ideal) .add [1] S512 (mulf yb yb) 0x00000000#32 reduces_S512x2048_S512 (.inl rfl) rfl) shapeCasts_S512_S512x1) transposes_S512x1_p1_0_S1x512) broadcasts_S1x512_S1024x512 (ix2 p q)
      = Cert.Mmd.sqn (n := 512) yb q := by
    refine (bcast_row _ p q 0).trans ?_
    refine (transpose_512 _ 0 q).trans ?_
    refine (cast_col_512 _ q 0).trans ?_
    exact red_512x2048 _ q
  have hM : matmul (F := Ideal) dot_S1024x2048_S512x2048_S1024x512_1_1_0_0_n_n none (truncf .bf16 xb bitsLt_bf16_f32) (truncf .bf16 yb bitsLt_bf16_f32) (constant (F := Ideal) S1024x512 .f32 0x00000000#32) (ix2 p q)
      = Cert.Mmd.dotp (n := 1024) (m := 512) xb yb p q :=
    matmul_tile _ _ p q
  show Ideal.exp (Ideal.div (Ideal.ofBits .f32 0x00000000#32 - ((_ + _) - Ideal.ofBits .f32 0x40000000#32 * _)) (Ideal.ofBits .f32 0x45000000#32)) = _
  rw [hA, hB, hM, Ideal.ofBits_zero_f32, zero_sub]
  rfl

/-- At each index of the 1 × 1 block, the body adds to the accumulator the sum of the weights over all pairs of rows
    of the two blocks: the rows of the tile are summed, then the column of row sums. -/
theorem step_at (xb : Vec Ideal S1024x2048 .f32) (yb : Vec Ideal S512x2048 .f32) (a : Vec Ideal S1x1 .f32) (z z' : Fin 1) :
    k0_pay3 (F := Ideal) xb yb a (ix2 z z') = a (ix2 z z') + Cert.Mmd.pairSum (n := 1024) (m := 512) xb yb := by
  rw [pay3_eq]
  show a (ix2 z z') + shapeCast S1x1 _ shapeCasts_S1_S1x1 (ix2 z z') = _
  refine congrArg (a (ix2 z z') + ·) ?_
  refine (cast_1_1x1 _ z z' 0).trans ?_
  refine (red_1024x1 _ 0).trans ?_
  unfold Cert.Mmd.pairSum
  refine Finset.sum_congr rfl fun p _ => ?_
  refine (cast_col_1024 _ p 0).trans ?_
  refine (red_1024x512 _ p).trans ?_
  exact Finset.sum_congr rfl fun q _ => tile_apply xb yb p q

/-- The value the body stores: the accumulator plus the sum of the weights over all pairs of rows of the two blocks. -/
theorem step_value (xb : Vec Ideal Cert.KernelIdeal.S1024x2048 .f32) (yb : Vec Ideal Cert.KernelIdeal.S512x2048 .f32)
    (a : Vec Ideal Cert.KernelIdeal.S1x1 .f32) :
    Cert.KernelIdeal.Gen.k0_pay1 (F := Ideal) (Cert.KernelIdeal.Gen.k0_pay3 (F := Ideal) xb yb a)
      = fun i => a i + Cert.Mmd.pairSum (n := 1024) (m := 512) xb yb := by
  show shapeCast S1x1 (k0_pay3 (F := Ideal) xb yb a) shapeCasts_S1x1_S1x1 = _
  rw [shapeCast_self]
  funext i
  rw [eq_ix2 i]
  exact step_at xb yb a (i 0) (i 1)

/-- The second and the third kernel have the same three payloads as the first. -/
theorem pay_k1 : (Cert.KernelIdeal.Gen.k1_pay1 (F := Ideal), Cert.KernelIdeal.Gen.k1_pay2 (F := Ideal), Cert.KernelIdeal.Gen.k1_pay3 (F := Ideal))
    = (Cert.KernelIdeal.Gen.k0_pay1, Cert.KernelIdeal.Gen.k0_pay2, Cert.KernelIdeal.Gen.k0_pay3) := rfl

theorem pay_k2 : (Cert.KernelIdeal.Gen.k2_pay1 (F := Ideal), Cert.KernelIdeal.Gen.k2_pay2 (F := Ideal), Cert.KernelIdeal.Gen.k2_pay3 (F := Ideal))
    = (Cert.KernelIdeal.Gen.k0_pay1, Cert.KernelIdeal.Gen.k0_pay2, Cert.KernelIdeal.Gen.k0_pay3) := rfl

end Cert.Mmd.KernelSide

end
-- ==== Proof.BlockSum.lean ====
/-
  The grid of 4 × 8 points covers every pair of rows once.

  Point t = 8·a + b reads block a of the four blocks of 1024 rows of the first array and block b of the eight blocks
  of 512 rows of the second.  The weight of a pair of rows of two blocks is the weight of the corresponding rows of the
  arrays (the same sums over the columns), a sum over the s·b rows of an array is the sum over its b blocks of the sum
  over the s rows of a block, and a sum over the 32 points is the double sum over (a, b).  The running accumulator
  acc 0 = 0 + f 0, acc (n + 1) = acc n + f (n + 1) is the sum of f over the points visited.
-/
import proofs.«152176_j15796889715484_1_alg».proof.Proof.Spec
import Mathlib.Algebra.BigOperators.Fin
import Mathlib.Logic.Equiv.Fin.Basic
import Mathlib.Data.Fintype.BigOperators

noncomputable section

open scoped BigOperators

namespace Cert.Mmd

open Idealize.ShloMosaic Idealize.ShloMosaic.ValueIdx

/-- Row `p` of block `a` is row `s·a + p` of the array. -/
theorem block_row_lt {s b : Nat} (a : Fin b) (p : Fin s) : s * a.val + p.val < s * b := by
  have h0 : p.val < s := p.isLt
  have ha : a.val < b := a.isLt
  calc s * a.val + p.val < s * a.val + s := by omega
    _ = s * (a.val + 1) := by ring
    _ ≤ s * b := Nat.mul_le_mul_left s (by omega)

/-- The row of the array under row `p` of block `a`. -/
def blockRow {s b : Nat} (a : Fin b) (p : Fin s) : Fin (s * b) := ⟨s * a.val + p.val, block_row_lt a p⟩

/-- The weight of a pair of rows of two blocks is the weight of the rows of the arrays under them. -/
theorem kern_rowBlock {sx bx sy bz : Nat} (X : Rows (sx * bx)) (Y : Rows (sy * bz)) (a : Fin bx) (b : Fin bz)
    (p : Fin sx) (q : Fin sy) :
    kern (rowBlock sx bx X a) (rowBlock sy bz Y b) p q = kern X Y (blockRow a p) (blockRow b q) := rfl

/-- The rows of an array of `s·b` rows are the rows of its `b` blocks of `s` rows. -/
def blockEquiv (s b : Nat) : Fin b × Fin s ≃ Fin (s * b) :=
  finProdFinEquiv.trans (finCongr (Nat.mul_comm b s))

theorem blockEquiv_apply (s b : Nat) (a : Fin b) (p : Fin s) : blockEquiv s b (a, p) = blockRow a p :=
  Fin.ext (by
    show p.val + s * a.val = s * a.val + p.val
    omega)

/-- A sum over the rows of the array is the sum over the blocks of the sum over the rows of a block. -/
theorem sum_rows_blocks {M : Type*} [AddCommMonoid M] (s b : Nat) (f : Fin (s * b) → M) :
    ∑ i, f i = ∑ a : Fin b, ∑ p : Fin s, f (blockRow a p) := by
  rw [← Equiv.sum_comp (blockEquiv s b) f, Fintype.sum_prod_type]
  exact Finset.sum_congr rfl fun a _ => Finset.sum_congr rfl fun p _ => congrArg f (blockEquiv_apply s b a p)

/-- The sums over the pairs of blocks add up to the sum over all pairs of rows. -/
theorem pairSum_rowBlocks (sx bx sy bz : Nat) (X : Rows (sx * bx)) (Y : Rows (sy * bz)) :
    ∑ a : Fin bx, ∑ b : Fin bz, pairSum (rowBlock sx bx X a) (rowBlock sy bz Y b) = pairSum X Y := by
  unfold pairSum
  rw [sum_rows_blocks sx bx]
  refine Finset.sum_congr rfl fun a _ => ?_
  rw [Finset.sum_comm]
  refine Finset.sum_congr rfl fun p _ => ?_
  rw [sum_rows_blocks sy bz]
  exact Finset.sum_congr rfl fun b _ => Finset.sum_congr rfl fun q _ => kern_rowBlock X Y a b p q

/-- A sum over the points `t = n·a + b` of an `m × n` grid is the double sum over `(a, b)`. -/
theorem sum_grid {M : Type*} [AddCommMonoid M] (m n : Nat) (G : Fin m → Fin n → M) :
    ∑ t : Fin (m * n), G t.divNat t.modNat = ∑ a : Fin m, ∑ b : Fin n, G a b := by
  rw [← Fintype.sum_prod_type (f := fun x : Fin m × Fin n => G x.1 x.2)]
  exact Equiv.sum_comp (finProdFinEquiv (m := m) (n := n)).symm (fun x : Fin m × Fin n => G x.1 x.2)

/-- The 32 grid points, point `t = 8·a + b` reading row block `a` of the first array and row block `b` of the second,
    cover every pair of rows once. -/
theorem pairSum_blocks (X Y : Rows 4096) :
    ∑ t : Fin 32, pairSum (rowBlock 1024 4 X ⟨t.val / 8, by omega⟩) (rowBlock 512 8 Y ⟨t.val % 8, by omega⟩)
      = pairSum X Y :=
  (sum_grid 4 8 fun a b => pairSum (rowBlock 1024 4 X a) (rowBlock 512 8 Y b)).trans
    (pairSum_rowBlocks 1024 4 512 8 X Y)

/-- The running accumulator over the points visited in order: reset to zero before the first point. -/
def run (f : ℕ → EReal) : ℕ → EReal
  | 0 => 0 + f 0
  | n + 1 => run f n + f (n + 1)

/-- After point `n` the accumulator holds the sum over the points `0, …, n`. -/
theorem run_eq (f : ℕ → EReal) (n : ℕ) : run f n = ∑ t : Fin (n + 1), f t.val := by
  induction n with
  | zero => simp [run]
  | succ n ih =>
    rw [run, ih]
    exact (Fin.sum_univ_castSucc (fun t : Fin (n + 1 + 1) => f t.val)).symm

/-- After the last of the 32 points the accumulator holds the sum over all of them. -/
theorem fold_eq (f : ℕ → EReal) : run f 31 = ∑ t : Fin 32, f t.val := run_eq f 31

end Cert.Mmd

end
-- ==== Proof.IdealValue.lean ====
/-
  The value each of the three calls of the kernel program leaves in its 1 × 1 result array.

  At grid point t (of 32, coordinates (t / 8, t % 8)) a call's first window holds block t / 8 of the four blocks of 1024
  rows of its first array and its second window block t % 8 of the eight blocks of 512 rows of its second array.  The
  body adds the sum of the Gaussian weights over the pairs of rows of the two blocks to an accumulator that is reset to
  zero at the first point, so after point n the accumulator is the running sum of the partial sums of the points
  0, …, n; after the last point it is the sum of the weights over all pairs of rows of the two arrays, and that point
  writes it back to the result array, whose one block is the whole array.
-/
import proofs.«152176_j15796889715484_1_alg».proof.Proof.IdealCall0
import proofs.«152176_j15796889715484_1_alg».proof.Proof.IdealCall1
import proofs.«152176_j15796889715484_1_alg».proof.Proof.IdealCall2
import proofs.«152176_j15796889715484_1_alg».proof.Proof.PaySide
import proofs.«152176_j15796889715484_1_alg».proof.Proof.BlockSum
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The partial sum of one grid point, as a function of the point's position -/

/-- The sum of the weights over the pairs of rows that grid point `s` reads: row block `s / 8` of the first array
    against row block `s % 8` of the second (the block index of the first is taken modulo 4, which changes nothing
    at the 32 points of the grid). -/
def ptSum (X Y : Cert.Mmd.Rows 4096) (s : ℕ) : EReal :=
  Cert.Mmd.pairSum (Cert.Mmd.rowBlock 1024 4 X ⟨s / 8 % 4, Nat.mod_lt _ (by decide)⟩)
    (Cert.Mmd.rowBlock 512 8 Y ⟨s % 8, Nat.mod_lt _ (by decide)⟩)

theorem ptSum_eq (X Y : Cert.Mmd.Rows 4096) (s : ℕ) (h1 : s / 8 < 4) (h2 : s % 8 < 8) :
    ptSum X Y s = Cert.Mmd.pairSum (Cert.Mmd.rowBlock 1024 4 X ⟨s / 8, h1⟩) (Cert.Mmd.rowBlock 512 8 Y ⟨s % 8, h2⟩) := by
  have e : (⟨s / 8 % 4, Nat.mod_lt _ (by decide)⟩ : Fin 4) = ⟨s / 8, h1⟩ := Fin.ext (Nat.mod_eq_of_lt h1)
  unfold ptSum
  rw [e]

/-- Over the 32 points the partial sums add up to the sum over all pairs of rows. -/
theorem sum_ptSum (X Y : Cert.Mmd.Rows 4096) : ∑ t : Fin 32, ptSum X Y t.val = Cert.Mmd.pairSum X Y := by
  refine Eq.trans (Finset.sum_congr rfl fun t _ => ?_) (Cert.Mmd.pairSum_blocks X Y)
  exact ptSum_eq X Y t.val (by omega) (by omega)

section Call1
variable (V : (c : Dev nD) → (b : Ref sig .tc) → Buf (Elt Ideal) ((c : Thread nD τ).loc b))

/-- The block indices of the two input windows at point `t`: (t / 8, 0) and (t % 8, 0). -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0 :=
  (by decide +kernel : ∀ t : Fin grid1.N, _)

theorem div_lt1 (t : Fin cfg1.N) : t.val / 8 < 4 := by
  have h := t.isLt
  have hN : cfg1.N = 32 := N_1
  omega

theorem mod_lt1 (t : Fin cfg1.N) : t.val % 8 < 8 := Nat.mod_lt _ (by decide)

/-- Window 0's block at point `t` is block `t / 8` of the four blocks of 1024 rows of its array. -/
theorem iblk1_0_eq (c : Dev nD) (t : Fin cfg1.N) :
    iblk1 (F := Ideal) V c 0 t = Cert.Mmd.rowBlock 1024 4 (V c main_arg0) ⟨t.val / 8, div_lt1 t⟩ := by
  funext y
  obtain ⟨e0, e1, e2, e3⟩ := idx_facts1 t
  show V c main_arg0 (((cfg1.win 0).blk t).view.emb y) = V c main_arg0 (ix2 ⟨1024 * (t.val / 8) + (y 0).val, _⟩ (y 1))
  refine congrArg (V c main_arg0) (funext fun a => Fin.ext ?_)
  match a with
  | ⟨0, _⟩ => show win1_0.index t (0 : Fin 2) * 1024 + 1 * (y 0).val = 1024 * (t.val / 8) + (y 0).val; omega
  | ⟨1, _⟩ => show win1_0.index t (1 : Fin 2) * 2048 + 1 * (y 1).val = (y 1).val; omega

/-- Window 1's block at point `t` is block `t % 8` of the eight blocks of 512 rows of its array. -/
theorem iblk1_1_eq (c : Dev nD) (t : Fin cfg1.N) :
    iblk1 (F := Ideal) V c 1 t = Cert.Mmd.rowBlock 512 8 (V c main_arg1) ⟨t.val % 8, mod_lt1 t⟩ := by
  funext y
  obtain ⟨e0, e1, e2, e3⟩ := idx_facts1 t
  show V c main_arg1 (((cfg1.win 1).blk t).view.emb y) = V c main_arg1 (ix2 ⟨512 * (t.val % 8) + (y 0).val, _⟩ (y 1))
  refine congrArg (V c main_arg1) (funext fun a => Fin.ext ?_)
  match a with
  | ⟨0, _⟩ => show win1_1.index t (0 : Fin 2) * 512 + 1 * (y 0).val = 512 * (t.val % 8) + (y 0).val; omega
  | ⟨1, _⟩ => show win1_1.index t (1 : Fin 2) * 2048 + 1 * (y 1).val = (y 1).val; omega

/-- One step of the accumulator adds the sum of the weights over the pairs of rows of the two blocks. -/
theorem step1_eq (x : Vec Ideal S1024x2048 .f32) (y : Vec Ideal S512x2048 .f32) (a : Vec Ideal S1x1 .f32) :
    step1 (F := Ideal) x y a = fun i => a i + Cert.Mmd.pairSum (n := 1024) (m := 512) x y :=
  Cert.Mmd.KernelSide.step_value x y a

theorem pay2_1 : k1_pay2 (F := Ideal) = fun _ => (0 : EReal) := Cert.Mmd.KernelSide.zero_value

/-- The partial sum of point `t`. -/
theorem blk_sum1 (c : Dev nD) (t : Fin cfg1.N) :
    Cert.Mmd.pairSum (n := 1024) (m := 512) (iblk1 (F := Ideal) V c 0 t) (iblk1 (F := Ideal) V c 1 t)
      = ptSum (V c main_arg0) (V c main_arg1) t.val := by
  rw [iblk1_0_eq, iblk1_1_eq]
  exact (ptSum_eq (V c main_arg0) (V c main_arg1) t.val (div_lt1 t) (mod_lt1 t)).symm

/-- After point `n` the accumulator holds, at each index, the running sum of the partial sums of the points `0, …, n`. -/
theorem acc_run1 (c : Dev nD) : ∀ (n : ℕ) (hn : n < cfg1.N),
    accAt1 (F := Ideal) V c n hn = fun _ => Cert.Mmd.run (ptSum (V c main_arg0) (V c main_arg1)) n
  | 0, hn => by
    show step1 (F := Ideal) (iblk1 V c 0 ⟨0, hn⟩) (iblk1 V c 1 ⟨0, hn⟩) (k1_pay2 (F := Ideal)) = _
    rw [step1_eq, blk_sum1 V c ⟨0, hn⟩, pay2_1]
    rfl
  | n + 1, hn => by
    show step1 (F := Ideal) (iblk1 V c 0 ⟨n + 1, hn⟩) (iblk1 V c 1 ⟨n + 1, hn⟩) (accAt1 V c n (Nat.lt_of_succ_lt hn)) = _
    rw [step1_eq, blk_sum1 V c ⟨n + 1, hn⟩, acc_run1 c n (Nat.lt_of_succ_lt hn)]
    rfl

/-- After the last point the accumulator holds the sum of the weights over all pairs of rows of the two arrays. -/
theorem acc_value1 (c : Dev nD) (h : 31 < cfg1.N) :
    accAt1 (F := Ideal) V c 31 h = fun _ => Cert.Mmd.pairSum (V c main_arg0) (V c main_arg1) := by
  rw [acc_run1, Cert.Mmd.fold_eq, sum_ptSum]

/-- The output window's block index is (0, 0) at every point: its block is the whole 1 × 1 array. -/
theorem idx_out1 : ∀ t : Fin cfg1.N, win1_2.index t (0 : Fin 2) = 0 ∧ win1_2.index t (1 : Fin 2) = 0 :=
  (by decide +kernel : ∀ t : Fin grid1.N, _)

/-- An index of the result array is in point `t`'s block iff each coordinate is in the block's range on its axis. -/
theorem mem_blk1_2 (t : Fin cfg1.N) (i : S1x1.Idx) :
    i ∈ ((cfg1.win 2).blk t).view.set ↔ ∀ a : Fin 2, win1_2.index t a * S1x1.size a ≤ (i a).val ∧ (i a).val < win1_2.index t a * S1x1.size a + S1x1.size a := by
  show i ∈ ((View.whole main_v2).slice (win1_2.rect t)).set ↔ _
  rw [View.set_slice_whole, Rect.mem_set_unit]
  exact Iff.rfl

set_option maxHeartbeats 200000 in
/-- The result array after the call: the sum of the weights over all pairs of rows of the two arrays, written back at
    the last point, whose block is the whole array. -/
theorem out_value1 (c : Dev nD) :
    (dat1 (F := Ideal) V c).arrAt 2 cfg1.N = fun _ => Cert.Mmd.pairSum (V c main_arg0) (V c main_arg1) := by
  have hN : cfg1.N = 32 := N_1
  refine (dat1 (F := Ideal) V c).arrAt_eq_of_cover 2 (fun _ => Cert.Mmd.pairSum (V c main_arg0) (V c main_arg1)) (fun t hf => ?_) (fun i => ?_)
  · have ht : t.val = 31 := by have h1 := (flush1_2 t).mp hf; have h2 := t.isLt; omega
    show (cfg1.win 2).cut (grid1.coords t) ((dat1 (F := Ideal) V c).after 2 t) = _
    rw [after1_2]
    obtain ⟨n, hn⟩ := t
    have hn31 : n = 31 := ht
    subst hn31
    rw [acc_value1 V c hn]
    rfl
  · have h31 : 31 < cfg1.N := by omega
    obtain ⟨e0, e1⟩ := idx_out1 ⟨31, h31⟩
    refine ⟨⟨31, h31⟩, (flush1_2 _).mpr (by rfl), (mem_blk1_2 ⟨31, h31⟩ i).mpr fun a => ?_⟩
    match a with
    | ⟨0, _⟩ =>
      show win1_2.index ⟨31, h31⟩ (0 : Fin 2) * 1 ≤ (i 0).val ∧ (i 0).val < win1_2.index ⟨31, h31⟩ (0 : Fin 2) * 1 + 1
      have hi : (i 0).val < 1 := (i 0).isLt
      omega
    | ⟨1, _⟩ =>
      show win1_2.index ⟨31, h31⟩ (1 : Fin 2) * 1 ≤ (i 1).val ∧ (i 1).val < win1_2.index ⟨31, h31⟩ (1 : Fin 2) * 1 + 1
      have hi : (i 1).val < 1 := (i 1).isLt
      omega

end Call1

section Call0
variable (V : (c : Dev nD) → (b : Ref sig .tc) → Buf (Elt Ideal) ((c : Thread nD τ).loc b))

/-- The block indices of the two input windows at point `t`: (t / 8, 0) and (t % 8, 0). -/
theorem idx_facts0 : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

theorem div_lt0 (t : Fin cfg0.N) : t.val / 8 < 4 := by
  have h := t.isLt
  have hN : cfg0.N = 32 := N_0
  omega

theorem mod_lt0 (t : Fin cfg0.N) : t.val % 8 < 8 := Nat.mod_lt _ (by decide)

/-- Window 0's block at point `t` is block `t / 8` of the four blocks of 1024 rows of its array. -/
theorem iblk0_0_eq (c : Dev nD) (t : Fin cfg0.N) :
    iblk0 (F := Ideal) V c 0 t = Cert.Mmd.rowBlock 1024 4 (V c main_arg1) ⟨t.val / 8, div_lt0 t⟩ := by
  funext y
  obtain ⟨e0, e1, e2, e3⟩ := idx_facts0 t
  show V c main_arg1 (((cfg0.win 0).blk t).view.emb y) = V c main_arg1 (ix2 ⟨1024 * (t.val / 8) + (y 0).val, _⟩ (y 1))
  refine congrArg (V c main_arg1) (funext fun a => Fin.ext ?_)
  match a with
  | ⟨0, _⟩ => show win0_0.index t (0 : Fin 2) * 1024 + 1 * (y 0).val = 1024 * (t.val / 8) + (y 0).val; omega
  | ⟨1, _⟩ => show win0_0.index t (1 : Fin 2) * 2048 + 1 * (y 1).val = (y 1).val; omega

/-- Window 1's block at point `t` is block `t % 8` of the eight blocks of 512 rows of its array. -/
theorem iblk0_1_eq (c : Dev nD) (t : Fin cfg0.N) :
    iblk0 (F := Ideal) V c 1 t = Cert.Mmd.rowBlock 512 8 (V c main_arg1) ⟨t.val % 8, mod_lt0 t⟩ := by
  funext y
  obtain ⟨e0, e1, e2, e3⟩ := idx_facts0 t
  show V c main_arg1 (((cfg0.win 1).blk t).view.emb y) = V c main_arg1 (ix2 ⟨512 * (t.val % 8) + (y 0).val, _⟩ (y 1))
  refine congrArg (V c main_arg1) (funext fun a => Fin.ext ?_)
  match a with
  | ⟨0, _⟩ => show win0_1.index t (0 : Fin 2) * 512 + 1 * (y 0).val = 512 * (t.val % 8) + (y 0).val; omega
  | ⟨1, _⟩ => show win0_1.index t (1 : Fin 2) * 2048 + 1 * (y 1).val = (y 1).val; omega

/-- One step of the accumulator adds the sum of the weights over the pairs of rows of the two blocks. -/
theorem step0_eq (x : Vec Ideal S1024x2048 .f32) (y : Vec Ideal S512x2048 .f32) (a : Vec Ideal S1x1 .f32) :
    step0 (F := Ideal) x y a = fun i => a i + Cert.Mmd.pairSum (n := 1024) (m := 512) x y :=
  Cert.Mmd.KernelSide.step_value x y a

theorem pay2_0 : k0_pay2 (F := Ideal) = fun _ => (0 : EReal) := Cert.Mmd.KernelSide.zero_value

/-- The partial sum of point `t`. -/
theorem blk_sum0 (c : Dev nD) (t : Fin cfg0.N) :
    Cert.Mmd.pairSum (n := 1024) (m := 512) (iblk0 (F := Ideal) V c 0 t) (iblk0 (F := Ideal) V c 1 t)
      = ptSum (V c main_arg1) (V c main_arg1) t.val := by
  rw [iblk0_0_eq, iblk0_1_eq]
  exact (ptSum_eq (V c main_arg1) (V c main_arg1) t.val (div_lt0 t) (mod_lt0 t)).symm

/-- After point `n` the accumulator holds, at each index, the running sum of the partial sums of the points `0, …, n`. -/
theorem acc_run0 (c : Dev nD) : ∀ (n : ℕ) (hn : n < cfg0.N),
    accAt0 (F := Ideal) V c n hn = fun _ => Cert.Mmd.run (ptSum (V c main_arg1) (V c main_arg1)) n
  | 0, hn => by
    show step0 (F := Ideal) (iblk0 V c 0 ⟨0, hn⟩) (iblk0 V c 1 ⟨0, hn⟩) (k0_pay2 (F := Ideal)) = _
    rw [step0_eq, blk_sum0 V c ⟨0, hn⟩, pay2_0]
    rfl
  | n + 1, hn => by
    show step0 (F := Ideal) (iblk0 V c 0 ⟨n + 1, hn⟩) (iblk0 V c 1 ⟨n + 1, hn⟩) (accAt0 V c n (Nat.lt_of_succ_lt hn)) = _
    rw [step0_eq, blk_sum0 V c ⟨n + 1, hn⟩, acc_run0 c n (Nat.lt_of_succ_lt hn)]
    rfl

/-- After the last point the accumulator holds the sum of the weights over all pairs of rows of the two arrays. -/
theorem acc_value0 (c : Dev nD) (h : 31 < cfg0.N) :
    accAt0 (F := Ideal) V c 31 h = fun _ => Cert.Mmd.pairSum (V c main_arg1) (V c main_arg1) := by
  rw [acc_run0, Cert.Mmd.fold_eq, sum_ptSum]

/-- The output window's block index is (0, 0) at every point: its block is the whole 1 × 1 array. -/
theorem idx_out0 : ∀ t : Fin cfg0.N, win0_2.index t (0 : Fin 2) = 0 ∧ win0_2.index t (1 : Fin 2) = 0 :=
  (by decide +kernel : ∀ t : Fin grid0.N, _)

/-- An index of the result array is in point `t`'s block iff each coordinate is in the block's range on its axis. -/
theorem mem_blk0_2 (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

set_option maxHeartbeats 200000 in
/-- The result array after the call: the sum of the weights over all pairs of rows of the two arrays, written back at
    the last point, whose block is the whole array. -/
theorem out_value0 (c : Dev nD) :
    (dat0 (F := Ideal) V c).arrAt 2 cfg0.N = fun _ => Cert.Mmd.pairSum (V c main_arg1) (V c main_arg1) := by
  have hN : cfg0.N = 32 := N_0
  refine (dat0 (F := Ideal) V c).arrAt_eq_of_cover 2 (fun _ => Cert.Mmd.pairSum (V c main_arg1) (V c main_arg1)) (fun t hf => ?_) (fun i => ?_)
  · have ht : t.val = 31 := by have h1 := (flush0_2 t).mp hf; have h2 := t.isLt; omega
    show (cfg0.win 2).cut (grid0.coords t) ((dat0 (F := Ideal) V c).after 2 t) = _
    rw [after0_2]
    obtain ⟨n, hn⟩ := t
    have hn31 : n = 31 := ht
    subst hn31
    rw [acc_value0 V c hn]
    rfl
  · have h31 : 31 < cfg0.N := by omega
    obtain ⟨e0, e1⟩ := idx_out0 ⟨31, h31⟩
    refine ⟨⟨31, h31⟩, (flush0_2 _).mpr (by rfl), (mem_blk0_2 ⟨31, h31⟩ i).mpr fun a => ?_⟩
    match a with
    | ⟨0, _⟩ =>
      show win0_2.index ⟨31, h31⟩ (0 : Fin 2) * 1 ≤ (i 0).val ∧ (i 0).val < win0_2.index ⟨31, h31⟩ (0 : Fin 2) * 1 + 1
      have hi : (i 0).val < 1 := (i 0).isLt
      omega
    | ⟨1, _⟩ =>
      show win0_2.index ⟨31, h31⟩ (1 : Fin 2) * 1 ≤ (i 1).val ∧ (i 1).val < win0_2.index ⟨31, h31⟩ (1 : Fin 2) * 1 + 1
      have hi : (i 1).val < 1 := (i 1).isLt
      omega

end Call0

section Call2
variable (V : (c : Dev nD) → (b : Ref sig .tc) → Buf (Elt Ideal) ((c : Thread nD τ).loc b))

/-- The block indices of the two input windows at point `t`: (t / 8, 0) and (t % 8, 0). -/
theorem idx_facts2 : ∀ t : Fin cfg2.N, win2_0.index t (0 : Fin 2) = t.val / 8 ∧ win2_0.index t (1 : Fin 2) = 0
    ∧ win2_1.index t (0 : Fin 2) = t.val % 8 ∧ win2_1.index t (1 : Fin 2) = 0 :=
  (by decide +kernel : ∀ t : Fin grid2.N, _)

theorem div_lt2 (t : Fin cfg2.N) : t.val / 8 < 4 := by
  have h := t.isLt
  have hN : cfg2.N = 32 := N_2
  omega

theorem mod_lt2 (t : Fin cfg2.N) : t.val % 8 < 8 := Nat.mod_lt _ (by decide)

/-- Window 0's block at point `t` is block `t / 8` of the four blocks of 1024 rows of its array. -/
theorem iblk2_0_eq (c : Dev nD) (t : Fin cfg2.N) :
    iblk2 (F := Ideal) V c 0 t = Cert.Mmd.rowBlock 1024 4 (V c main_arg0) ⟨t.val / 8, div_lt2 t⟩ := by
  funext y
  obtain ⟨e0, e1, e2, e3⟩ := idx_facts2 t
  show V c main_arg0 (((cfg2.win 0).blk t).view.emb y) = V c main_arg0 (ix2 ⟨1024 * (t.val / 8) + (y 0).val, _⟩ (y 1))
  refine congrArg (V c main_arg0) (funext fun a => Fin.ext ?_)
  match a with
  | ⟨0, _⟩ => show win2_0.index t (0 : Fin 2) * 1024 + 1 * (y 0).val = 1024 * (t.val / 8) + (y 0).val; omega
  | ⟨1, _⟩ => show win2_0.index t (1 : Fin 2) * 2048 + 1 * (y 1).val = (y 1).val; omega

/-- Window 1's block at point `t` is block `t % 8` of the eight blocks of 512 rows of its array. -/
theorem iblk2_1_eq (c : Dev nD) (t : Fin cfg2.N) :
    iblk2 (F := Ideal) V c 1 t = Cert.Mmd.rowBlock 512 8 (V c main_arg0) ⟨t.val % 8, mod_lt2 t⟩ := by
  funext y
  obtain ⟨e0, e1, e2, e3⟩ := idx_facts2 t
  show V c main_arg0 (((cfg2.win 1).blk t).view.emb y) = V c main_arg0 (ix2 ⟨512 * (t.val % 8) + (y 0).val, _⟩ (y 1))
  refine congrArg (V c main_arg0) (funext fun a => Fin.ext ?_)
  match a with
  | ⟨0, _⟩ => show win2_1.index t (0 : Fin 2) * 512 + 1 * (y 0).val = 512 * (t.val % 8) + (y 0).val; omega
  | ⟨1, _⟩ => show win2_1.index t (1 : Fin 2) * 2048 + 1 * (y 1).val = (y 1).val; omega

/-- One step of the accumulator adds the sum of the weights over the pairs of rows of the two blocks. -/
theorem step2_eq (x : Vec Ideal S1024x2048 .f32) (y : Vec Ideal S512x2048 .f32) (a : Vec Ideal S1x1 .f32) :
    step2 (F := Ideal) x y a = fun i => a i + Cert.Mmd.pairSum (n := 1024) (m := 512) x y :=
  Cert.Mmd.KernelSide.step_value x y a

theorem pay2_2 : k2_pay2 (F := Ideal) = fun _ => (0 : EReal) := Cert.Mmd.KernelSide.zero_value

/-- The partial sum of point `t`. -/
theorem blk_sum2 (c : Dev nD) (t : Fin cfg2.N) :
    Cert.Mmd.pairSum (n := 1024) (m := 512) (iblk2 (F := Ideal) V c 0 t) (iblk2 (F := Ideal) V c 1 t)
      = ptSum (V c main_arg0) (V c main_arg0) t.val := by
  rw [iblk2_0_eq, iblk2_1_eq]
  exact (ptSum_eq (V c main_arg0) (V c main_arg0) t.val (div_lt2 t) (mod_lt2 t)).symm

/-- After point `n` the accumulator holds, at each index, the running sum of the partial sums of the points `0, …, n`. -/
theorem acc_run2 (c : Dev nD) : ∀ (n : ℕ) (hn : n < cfg2.N),
    accAt2 (F := Ideal) V c n hn = fun _ => Cert.Mmd.run (ptSum (V c main_arg0) (V c main_arg0)) n
  | 0, hn => by
    show step2 (F := Ideal) (iblk2 V c 0 ⟨0, hn⟩) (iblk2 V c 1 ⟨0, hn⟩) (k2_pay2 (F := Ideal)) = _
    rw [step2_eq, blk_sum2 V c ⟨0, hn⟩, pay2_2]
    rfl
  | n + 1, hn => by
    show step2 (F := Ideal) (iblk2 V c 0 ⟨n + 1, hn⟩) (iblk2 V c 1 ⟨n + 1, hn⟩) (accAt2 V c n (Nat.lt_of_succ_lt hn)) = _
    rw [step2_eq, blk_sum2 V c ⟨n + 1, hn⟩, acc_run2 c n (Nat.lt_of_succ_lt hn)]
    rfl

/-- After the last point the accumulator holds the sum of the weights over all pairs of rows of the two arrays. -/
theorem acc_value2 (c : Dev nD) (h : 31 < cfg2.N) :
    accAt2 (F := Ideal) V c 31 h = fun _ => Cert.Mmd.pairSum (V c main_arg0) (V c main_arg0) := by
  rw [acc_run2, Cert.Mmd.fold_eq, sum_ptSum]

/-- The output window's block index is (0, 0) at every point: its block is the whole 1 × 1 array. -/
theorem idx_out2 : ∀ t : Fin cfg2.N, win2_2.index t (0 : Fin 2) = 0 ∧ win2_2.index t (1 : Fin 2) = 0 :=
  (by decide +kernel : ∀ t : Fin grid2.N, _)

/-- An index of the result array is in point `t`'s block iff each coordinate is in the block's range on its axis. -/
theorem mem_blk2_2 (t : Fin cfg2.N) (i : S1x1.Idx) :
    i ∈ ((cfg2.win 2).blk t).view.set ↔ ∀ a : Fin 2, win2_2.index t a * S1x1.size a ≤ (i a).val ∧ (i a).val < win2_2.index t a * S1x1.size a + S1x1.size a := by
  show i ∈ ((View.whole main_v4).slice (win2_2.rect t)).set ↔ _
  rw [View.set_slice_whole, Rect.mem_set_unit]
  exact Iff.rfl

set_option maxHeartbeats 200000 in
/-- The result array after the call: the sum of the weights over all pairs of rows of the two arrays, written back at
    the last point, whose block is the whole array. -/
theorem out_value2 (c : Dev nD) :
    (dat2 (F := Ideal) V c).arrAt 2 cfg2.N = fun _ => Cert.Mmd.pairSum (V c main_arg0) (V c main_arg0) := by
  have hN : cfg2.N = 32 := N_2
  refine (dat2 (F := Ideal) V c).arrAt_eq_of_cover 2 (fun _ => Cert.Mmd.pairSum (V c main_arg0) (V c main_arg0)) (fun t hf => ?_) (fun i => ?_)
  · have ht : t.val = 31 := by have h1 := (flush2_2 t).mp hf; have h2 := t.isLt; omega
    show (cfg2.win 2).cut (grid2.coords t) ((dat2 (F := Ideal) V c).after 2 t) = _
    rw [after2_2]
    obtain ⟨n, hn⟩ := t
    have hn31 : n = 31 := ht
    subst hn31
    rw [acc_value2 V c hn]
    rfl
  · have h31 : 31 < cfg2.N := by omega
    obtain ⟨e0, e1⟩ := idx_out2 ⟨31, h31⟩
    refine ⟨⟨31, h31⟩, (flush2_2 _).mpr (by rfl), (mem_blk2_2 ⟨31, h31⟩ i).mpr fun a => ?_⟩
    match a with
    | ⟨0, _⟩ =>
      show win2_2.index ⟨31, h31⟩ (0 : Fin 2) * 1 ≤ (i 0).val ∧ (i 0).val < win2_2.index ⟨31, h31⟩ (0 : Fin 2) * 1 + 1
      have hi : (i 0).val < 1 := (i 0).isLt
      omega
    | ⟨1, _⟩ =>
      show win2_2.index ⟨31, h31⟩ (1 : Fin 2) * 1 ≤ (i 1).val ∧ (i 1).val < win2_2.index ⟨31, h31⟩ (1 : Fin 2) * 1 + 1
      have hi : (i 1).val < 1 := (i 1).isLt
      omega

end Call2

end Cert.KernelIdeal.Hand

end
-- ==== Proof.IdealTail.lean ====
/-
  The host operations between and after the kernel regions, read at the buffers the value claim needs.

  After each of the first two regions a 1 × 1 result array is reshaped to a scalar; after the third the same is done, each
  of the three scalars is divided by the number of pairs, the second quotient is doubled, and the result is the first
  quotient minus that plus the third.
-/
import proofs.«152176_j15796889715484_1_alg».proof.Proof.Gen.KernelIdeal.Regions
import proofs.«152176_j15796889715484_1_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

/-- A 1 × 1 array reshaped to a scalar is its one element. -/
theorem cast11 {α : Type} (x : S1x1.Idx → α) (h : S1x1.ShapeCasts S_) (j : S_.Idx) :
    shapeCast S_ x h j = x (ix2 (0 : Fin 1) (0 : Fin 1)) :=
  shapeCast_apply x h j _ (by
    have h1 : S1x1.numel = 1 := by decide
    have h2 : S_.numel = 1 := by decide
    have := (S1x1.rowMajor (ix2 (0 : Fin 1) (0 : Fin 1))).isLt
    have := (S_.rowMajor j).isLt
    omega)

variable {F : FTy → Type} [FloatOps F]

set_option maxHeartbeats 50000 in
/-- After the first host stretch the scalar `main_v1` is the one element of `main_v0`. -/
theorem after1_v1 (W : Valuation τ sig (Elt F)) :
    StableHlo.after (hostOps1 (F := F)) W (Proc.devRef .tc main_v1) = fun _ => W (Proc.devRef .tc main_v0) (ix2 (0 : Fin 1) (0 : Fin 1)) := by
  after_results
  funext j
  exact cast11 _ _ j

set_option maxHeartbeats 50000 in
/-- After the second host stretch the scalar `main_v3` is the one element of `main_v2`. -/
theorem after2_v3 (W : Valuation τ sig (Elt F)) :
    StableHlo.after (hostOps2 (F := F)) W (Proc.devRef .tc main_v3) = fun _ => W (Proc.devRef .tc main_v2) (ix2 (0 : Fin 1) (0 : Fin 1)) := by
  after_results
  funext j
  exact cast11 _ _ j

set_option maxHeartbeats 200000 in
/-- After the last host stretch the result is the first scalar over the number of pairs, minus twice the second scalar
    over the number of pairs, plus the one element of `main_v4` over the number of pairs. -/
theorem tail_value (W : Valuation τ sig (Elt Ideal)) :
    StableHlo.after (hostOps3 (F := Ideal)) W (Proc.devRef .tc main_v11)
      = fun _ => Ideal.div (W (Proc.devRef .tc main_v1) ix0) Cert.Mmd.npairs
          - Cert.Mmd.two * Ideal.div (W (Proc.devRef .tc main_v3) ix0) Cert.Mmd.npairs
          + Ideal.div (W (Proc.devRef .tc main_v4) (ix2 (0 : Fin 1) (0 : Fin 1))) Cert.Mmd.npairs := by
  after_results
  funext j
  rw [eq_ix0 j]
  show Ideal.div (W (Proc.devRef .tc main_v1) ix0) Cert.Mmd.npairs
      - Cert.Mmd.two * Ideal.div (W (Proc.devRef .tc main_v3) ix0) Cert.Mmd.npairs
      + Ideal.div (shapeCast S_ (W (Proc.devRef .tc main_v4)) shapeCasts_S1x1_S_ ix0) Cert.Mmd.npairs = _
  rw [cast11]

end Cert.KernelIdeal.Hand

end
-- ==== Proof.IdealResult.lean ====
/-
  The kernel program's result is the statistic of Spec.lean.

  The last host stretch combines three scalars: the one element of the first call's result, of the second call's and of
  the third call's, each divided by the number of pairs, as first − 2 · second + third.  The first call leaves the sum
  of the weights over the pairs of rows of (generated, generated), the second of (real, generated), the third of
  (real, real), each read from argument arrays that nothing has changed since the launch.
-/
import proofs.«152176_j15796889715484_1_alg».proof.Proof.IdealRun
import proofs.«152176_j15796889715484_1_alg».proof.Proof.IdealValue
import proofs.«152176_j15796889715484_1_alg».proof.Proof.IdealTail

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## The argument arrays at the calls' entries are as launched -/

set_option maxHeartbeats 50000 in
theorem W2_arg0 : W2 m c main_arg0 = m ((c.tc : Thread nD τ).loc main_arg0) := by
  rw [← V2_eq]
  exact (V2_of m (outs m) c main_arg0 (by decide)).trans <| (V1_of m (outs m) c main_arg0 (by decide)).trans rfl

set_option maxHeartbeats 50000 in
theorem W2_arg1 : W2 m c main_arg1 = m ((c.tc : Thread nD τ).loc main_arg1) := by
  rw [← V2_eq]
  exact (V2_of m (outs m) c main_arg1 (by decide)).trans <| (V1_of m (outs m) c main_arg1 (by decide)).trans rfl

set_option maxHeartbeats 50000 in
theorem W4_arg0 : W4 m c main_arg0 = m ((c.tc : Thread nD τ).loc main_arg0) := by
  rw [← V4_eq]
  exact (V4_of m (outs m) c main_arg0 (by decide)).trans <| (V3_of m (outs m) c main_arg0 (by decide)).trans <|
    (V2_of m (outs m) c main_arg0 (by decide)).trans <| (V1_of m (outs m) c main_arg0 (by decide)).trans rfl

/-! ## What the calls leave in their results -/

set_option maxHeartbeats 100000 in
/-- The first call leaves the sum of the weights over the pairs of rows of (generated, generated). -/
theorem W1_v0 : W1 m c (Proc.devRef .tc main_v0)
    = fun _ => Cert.Mmd.pairSum (m ((c.tc : Thread nD τ).loc main_arg1)) (m ((c.tc : Thread nD τ).loc main_arg1)) := by
  have h1 : W1 m c (Proc.devRef .tc main_v0) = o1 m c := Function.update_self ..
  have h2 : o1 m c = fun _ => Cert.Mmd.pairSum (W0 m c main_arg1) (W0 m c main_arg1) := out_value0 (fun c b => W0 m c b) c
  rw [h1, h2]

set_option maxHeartbeats 100000 in
/-- The second call leaves the sum of the weights over the pairs of rows of (real, generated). -/
theorem W3_v2 : W3 m c (Proc.devRef .tc main_v2)
    = fun _ => Cert.Mmd.pairSum (m ((c.tc : Thread nD τ).loc main_arg0)) (m ((c.tc : Thread nD τ).loc main_arg1)) := by
  have h1 : W3 m c (Proc.devRef .tc main_v2) = o3 m c := Function.update_self ..
  have h2 : o3 m c = fun _ => Cert.Mmd.pairSum (W2 m c main_arg0) (W2 m c main_arg1) := out_value1 (fun c b => W2 m c b) c
  rw [h1, h2, W2_arg0, W2_arg1]

set_option maxHeartbeats 100000 in
/-- The third call leaves the sum of the weights over the pairs of rows of (real, real). -/
theorem W5_v4 : W5 m c (Proc.devRef .tc main_v4)
    = fun _ => Cert.Mmd.pairSum (m ((c.tc : Thread nD τ).loc main_arg0)) (m ((c.tc : Thread nD τ).loc main_arg0)) := by
  have h1 : W5 m c (Proc.devRef .tc main_v4) = o5 m c := Function.update_self ..
  have h2 : o5 m c = fun _ => Cert.Mmd.pairSum (W4 m c main_arg0) (W4 m c main_arg0) := out_value2 (fun c b => W4 m c b) c
  rw [h1, h2, W4_arg0]

/-! ## The scalars the last host stretch reads -/

set_option maxHeartbeats 100000 in
/-- The first scalar is still the first call's sum when the last host stretch reads it. -/
theorem W5_v1 : W5 m c (Proc.devRef .tc main_v1)
    = fun _ => Cert.Mmd.pairSum (m ((c.tc : Thread nD τ).loc main_arg1)) (m ((c.tc : Thread nD τ).loc main_arg1)) := by
  have h : W5 m c main_v1 = W2 m c main_v1 := by
    rw [← V5_eq, ← V2_eq]
    exact (V5_of m (outs m) c main_v1 (by decide)).trans <| (V4_of m (outs m) c main_v1 (by decide)).trans <|
      V3_of m (outs m) c main_v1 (by decide)
  refine h.trans ?_
  show StableHlo.after (hostOps1 (F := Ideal)) (W1 m c) (Proc.devRef .tc main_v1) = _
  rw [after1_v1, W1_v0]

set_option maxHeartbeats 100000 in
/-- The second scalar is still the second call's sum when the last host stretch reads it. -/
theorem W5_v3 : W5 m c (Proc.devRef .tc main_v3)
    = fun _ => Cert.Mmd.pairSum (m ((c.tc : Thread nD τ).loc main_arg0)) (m ((c.tc : Thread nD τ).loc main_arg1)) := by
  have h : W5 m c main_v3 = W4 m c main_v3 := by
    rw [← V5_eq, ← V4_eq]
    exact V5_of m (outs m) c main_v3 (by decide)
  refine h.trans ?_
  show StableHlo.after (hostOps2 (F := Ideal)) (W3 m c) (Proc.devRef .tc main_v3) = _
  rw [after2_v3, W3_v2]

/-! ## The result -/

set_option maxHeartbeats 100000 in
/-- The result buffer's last contents are the statistic of the two argument arrays as launched. -/
theorem result_value : W6 (F := Ideal) m c main_v11
    = fun _ => Cert.Mmd.mmd (m ((c.tc : Thread nD τ).loc main_arg0)) (m ((c.tc : Thread nD τ).loc main_arg1)) := by
  show StableHlo.after (hostOps3 (F := Ideal)) (W5 m c) (Proc.devRef .tc main_v11) = _
  rw [tail_value (W5 m c), W5_v1, W5_v3, W5_v4]
  rfl

end Cert.KernelIdeal.Hand

end
-- ==== Proof.RefPairs.lean ====
/-
  One pair of samples in the reference: the sum, over all pairs of rows, of the Gaussian weights.

  The reference takes the row sums of the squares of each sample, the matrix of inner products of the rows, the expanded
  squared distance, its negation over the number of columns, the exponential, and the sum over both axes.  Each of these,
  read at an index, is the corresponding term of Spec.lean; the only arithmetic used is 0 + s = s for the initial value of
  the two kinds of sums.
-/
import proofs.«152176_j15796889715484_1_alg».proof.Proof.Gen.ReferenceIdeal.Read
import proofs.«152176_j15796889715484_1_alg».proof.Proof.Spec
import Idealize.ShloMosaic.PureOps.Ideal.Laws

noncomputable section

open scoped BigOperators

namespace Cert.Mmd.RefSide

open Cert.ReferenceIdeal Cert.ReferenceIdeal.Read Idealize.ShloMosaic Idealize.ShloMosaic.ValueIdx

/-- A sample as the reference holds it. -/
abbrev Arr : Type := (⟨S4096x2048, .f32⟩ : BufTy).Contents (Elt Ideal)

/-- The row sums of the squares of the left sample. -/
theorem rowsq_left (x : Arr) (a : Fin 4096) : val_main_v21 (F := Ideal) x (ix1 a) = sqn x a := by
  rw [val_main_v21_apply, val_main_cst_5_apply]
  show Ideal.ofBits .f32 0x00000000#32 + _ = _
  rw [Ideal.ofBits_zero_f32, zero_add]
  refine Finset.sum_congr rfl fun k _ => ?_
  have e : idx_main_v21 (ix1 a) k = ix2 a k :=
    funext fun d => Fin.ext (by match d with | ⟨0, _⟩ => rfl | ⟨1, _⟩ => rfl)
  rw [val_main_v20_apply, e]
  rfl

/-- The row sums of the squares of the right sample. -/
theorem rowsq_right (y : Arr) (b : Fin 4096) : val_main_v23 (F := Ideal) y (ix1 b) = sqn y b := by
  rw [val_main_v23_apply, val_main_cst_6_apply]
  show Ideal.ofBits .f32 0x00000000#32 + _ = _
  rw [Ideal.ofBits_zero_f32, zero_add]
  refine Finset.sum_congr rfl fun k _ => ?_
  have e : idx_main_v23 (ix1 b) k = ix2 b k :=
    funext fun d => Fin.ext (by match d with | ⟨0, _⟩ => rfl | ⟨1, _⟩ => rfl)
  rw [val_main_v22_apply, e]
  rfl

/-- The matrix of inner products: row a of the left sample with row b of the right one. -/
theorem dot_at (x y : Arr) (a b : Fin 4096) : val_main_v25 (F := Ideal) x y (ix2 a b) = dotp x y a b := by
  rw [val_main_v25_apply]
  refine Finset.sum_congr rfl fun k _ => ?_
  have el : lidx_main_v25 (ix2 a b) k = ix2 a k :=
    funext fun d => Fin.ext (by match d with | ⟨0, _⟩ => rfl | ⟨1, _⟩ => rfl)
  have er : idx_main_v24 (ridx_main_v25 (ix2 a b) k) = ix2 b k :=
    funext fun d => Fin.ext (by match d with | ⟨0, _⟩ => rfl | ⟨1, _⟩ => rfl)
  rw [val_main_v24_apply, el, er]

/-- The Gaussian weight of row a of the left sample and row b of the right one. -/
theorem kern_at (x y : Arr) (a b : Fin 4096) : val_main_v37 (F := Ideal) x y (ix2 a b) = kern x y a b := by
  have e0 : idx_main_v26 (idx_main_v28 (ix2 a b)) = ix1 a :=
    funext fun d => Fin.ext (by match d with | ⟨0, _⟩ => rfl)
  have e1 : idx_main_v27 (idx_main_v29 (ix2 a b)) = ix1 b :=
    funext fun d => Fin.ext (by match d with | ⟨0, _⟩ => rfl)
  rw [val_main_v37_apply, val_main_v36_apply, val_main_v34_apply, val_main_v33_apply, val_main_v30_apply,
    val_main_v32_apply, val_main_v31_apply, val_main_cst_7_apply, val_main_v35_apply, val_main_cst_8_apply,
    val_main_v28_apply, val_main_v26_apply, e0, rowsq_left, val_main_v29_apply, val_main_v27_apply, e1, rowsq_right,
    dot_at]
  rfl

/-- The sum of the weights over all pairs of rows. -/
theorem pair_at (x y : Arr) (i : S_.Idx) : val_main_v38 (F := Ideal) x y i = pairSum x y := by
  rw [val_main_v38_apply, val_main_cst_9_apply]
  show Ideal.ofBits .f32 0x00000000#32 + _ = _
  rw [Ideal.ofBits_zero_f32, zero_add]
  refine (sum_idx2 _).trans ?_
  exact Finset.sum_congr rfl fun a _ => Finset.sum_congr rfl fun b _ => kern_at x y a b

/-- The first stretch of the reference is the same computation on the pair (right sample, right sample). -/
theorem v18_eq (y : Arr) : val_main_v18 (F := Ideal) y = val_main_v38 (F := Ideal) y y := rfl

/-- The third stretch is the same computation on the pair (left sample, left sample). -/
theorem v60_eq (x : Arr) : val_main_v60 (F := Ideal) x = val_main_v38 (F := Ideal) x x := rfl

end Cert.Mmd.RefSide

end
-- ==== Proof.RefSide.lean ====
/-
  The reference's result is the statistic of Spec.lean.

  The reference runs the pair computation three times, on (generated, generated), (real, generated) and (real, real),
  divides each sum by the number of pairs, and combines the three means as first − 2 · second + third.
-/
import proofs.«152176_j15796889715484_1_alg».proof.Proof.Gen.ReferenceIdeal.Read
import proofs.«152176_j15796889715484_1_alg».proof.Proof.Spec
import proofs.«152176_j15796889715484_1_alg».proof.Proof.RefPairs
import Idealize.ShloMosaic.PureOps.Ideal.Laws

noncomputable section

open Idealize.ShloMosaic Idealize.ShloMosaic.TcCoe Idealize.SL.Sem

namespace Cert.Mmd.RefSide

open Cert.ReferenceIdeal Cert.ReferenceIdeal.Read Idealize.ShloMosaic.ValueIdx

/-- The reference's last result, as a function of its two arguments (the real sample first, the generated one second),
    is the statistic at its one index. -/
theorem ref_value (x0 x1 : (⟨Cert.ReferenceIdeal.S4096x2048, .f32⟩ : BufTy).Contents (Elt Ideal)) :
    Cert.ReferenceIdeal.Read.val_main_v62 (F := Ideal) x0 x1 = fun _ => Cert.Mmd.mmd x0 x1 := by
  funext i
  rw [val_main_v62_apply, val_main_v41_apply, val_main_v19_apply, val_main_v40_apply, val_main_v39_apply,
    val_main_v61_apply, v18_eq, v60_eq, pair_at, pair_at, pair_at, val_main_cst_4_apply, val_main_cst_10_apply,
    val_main_cst_11_apply, val_main_cst_17_apply]
  rfl

/-- Every run of the reference ends with the statistic of its two arguments in the result buffer, the arguments
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v62)
          = (fun _ => Cert.Mmd.mmd (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) :=
  (θ_run _ _ _).mono (fun _ h c => ⟨((h c).1.trans (val_main_v62_eq _ _)).trans (ref_value _ _), (h c).2⟩)
    (Cert.ReferenceIdeal.Value.run (F := Ideal) m' ρ')

end Cert.Mmd.RefSide

end
-- ==== Proof.lean ====
/-
  The squared maximum mean discrepancy of two samples under a Gaussian weight, computed by three tiled pairwise sums
  against the direct formula.

  For two samples r, g of 4096 rows and 2048 columns the kernel program makes three calls, each summing
  exp(−|x_i − y_j|² / 2048) over all pairs of rows of (g, g), (r, g), (r, r) with |x − y|² expanded as
  |x|² + |y|² − 2·x·y: a call walks a 4 × 8 grid of (1024-row block of x, 512-row block of y), adds each block pair's
  partial sum to a 1×1 accumulator that is reset at the first grid point, and writes the accumulator out at the last.
  The host then divides each sum by 2²⁴ and forms within(g) − 2·across + within(r).  The reference computes the same
  three sums over whole arrays.  On the extended reals both are Spec.lean's `mmd`: the block pairs partition the pairs of
  rows, and a sum over a partition is the sum of the parts' sums in any order, so no finiteness of the inputs is used.

  The frames: each call's body is run case by case (first point, last point, neither) in the modules
  WordCall0–2 / IdealCall0–2, the three calls and the host operations between them are put in sequence in WordRun /
  IdealRun, where the input arrays are seen to be changed by nothing.  Calls 0 and 2 read one array through both their
  input windows, each window holding half the array's share (WordShare / IdealShare).  The ideal pass rewrote
  nothing, so the idealization claim has no conjunct.
-/
import proofs.«152176_j15796889715484_1_alg».proof.Defs
import proofs.«152176_j15796889715484_1_alg».proof.Proof.Gen.Kernel
import proofs.«152176_j15796889715484_1_alg».proof.Proof.Gen.KernelIdeal
import proofs.«152176_j15796889715484_1_alg».proof.Proof.Gen.ReferenceIdeal
import proofs.«152176_j15796889715484_1_alg».proof.Proof.Gen.Pre_finite_inputs
import proofs.«152176_j15796889715484_1_alg».proof.Proof.WordRun
import proofs.«152176_j15796889715484_1_alg».proof.Proof.IdealRun
import proofs.«152176_j15796889715484_1_alg».proof.Proof.IdealResult
import proofs.«152176_j15796889715484_1_alg».proof.Proof.RefSide
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Hand.run_main m ρ

/-- So does the idealized kernel program. -/
theorem frame_ki : Cert.frame_KernelIdeal := fun m ρ _ =>
  (θ_run Cert.KernelIdeal.defs _ _).mono (fun _ h c => (h c).2) (Cert.KernelIdeal.Hand.run_main m ρ)

/-- And the idealized reference. -/
theorem frame_ri : Cert.frame_ReferenceIdeal := fun m ρ _ =>
  (θ_run Cert.ReferenceIdeal.defs _ _).mono (fun _ h c => (h c).2) (Cert.Mmd.RefSide.ref_run m ρ)

/-- From memories that agree on the two samples both idealized programs end with the statistic of the samples in their
    result. -/
theorem algebraic : Cert.algebraic_KernelIdeal_ReferenceIdeal := by
  intro m ρ m' ρ' _ hagree
  refine ⟨fun c => (fun _ => Cert.Mmd.mmd (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.Hand.result_value m c), (h c).2⟩) (Cert.KernelIdeal.Hand.run_main m ρ)
  · exact (θ_run Cert.ReferenceIdeal.defs _ _).mono
      (fun r h c => ⟨(h c).1.trans (by rw [(hagree c).1, (hagree c).2]; rfl), (h c).2⟩) (Cert.Mmd.RefSide.ref_run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
